-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v132)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v132) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x16 : Shape := ⟨2, ![800000, 16]⟩
abbrev S128x128 : Shape := ⟨2, ![128, 128]⟩
abbrev S128 : Shape := ⟨1, ![128]⟩
abbrev S272x128 : Shape := ⟨2, ![272, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S272x128 : S_.BroadcastsInDim S272x128 (![] : Fin 0 → Fin S272x128.rank)
  reducesTo_S272x128_S_d0_1 : S272x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S128 .f32) (main_arg9 : FVec F S272x128 .f32) (main_arg10 : FVec F S128 .f32) (main_arg11 : FVec F S128x1 .f32) (main_arg12 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S272x128 .f32 := Host.absf main_arg9
  let main_cst_14 : FVec F S_ .f32 := constant S_ .f32 0x7F800000#32
  let main_v40 : FVec F S272x128 .f32 := broadcastInDim S272x128 ![] bcast_S_S272x128 main_cst_14
  let main_v41 : IVec S272x128 1 := cmpf .olt main_v39 main_v40
  let main_c_15 : IVec S_ 1 := constantI S_ 1 1#1
  let main_v42 : IVec S_ 1 := (fun x v => Host.reduce IntOp.andi x v reducesTo_S272x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg11
  let main_cst_18 : FVec F S_ .f32 := constant S_ .f32 0x7F800000#32
  let main_v50 : FVec F S128x1 .f32 := broadcastInDim S128x1 ![] bcast_S_S128x1 main_cst_18
  fn_part3 (F := F) main_arg12 main_v48 main_v49 main_v50

def fn_part1 {F : FTy → Type} [FloatOps F] (main_arg5 : FVec F S128 .f32) (main_arg6 : FVec F S128 .f32) (main_arg7 : FVec F S128x128 .f32) (main_arg8 : FVec F S128 .f32) (main_arg9 : FVec F S272x128 .f32) (main_arg10 : FVec F S128 .f32) (main_arg11 : FVec F S128x1 .f32) (main_arg12 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x800000 32) (main_arg2 : FVec F S800000x16 .f32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S272x128 .f32) (main_arg10 : FVec F S128 .f32) (main_arg11 : FVec F S128x1 .f32) (main_arg12 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S800000x16 : Shape := ⟨2, ![800000, 16]⟩
abbrev S128x128 : Shape := ⟨2, ![128, 128]⟩
abbrev S128 : Shape := ⟨1, ![128]⟩
abbrev S272x128 : Shape := ⟨2, ![272, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S2000x128 : Shape := ⟨2, ![2000, 128]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S16x128 : Shape := ⟨2, ![16, 128]⟩
abbrev S6400x128 : Shape := ⟨2, ![6400, 128]⟩
abbrev S6400x16 : Shape := ⟨2, ![6400, 16]⟩
abbrev S6400x1 : Shape := ⟨2, ![6400, 1]⟩
abbrev S1x1 : Shape := ⟨2, ![1, 1]⟩

abbrev nBuf : Space → Nat
  | .hbm => 177
  | .vmem => 26
  | .smem => 0
  | _ => 0

abbrev hbmTy0_0 (i : Nat) : BufTy := match i % 128 with
  | 0 => ⟨S50000x128, .f32⟩
  | 1 => ⟨S2x800000, .i32⟩
  | 2 => ⟨S800000x16, .f32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S272x128, .f32⟩
  | 10 => ⟨S128, .f32⟩
  | 11 => ⟨S128x1, .f32⟩
  | 12 => ⟨S1, .f32⟩
  | 13 => ⟨S1x800000, .i32⟩
  | 14 => ⟨S800000, .i32⟩
  | 15 => ⟨S1x800000, .i32⟩
  | 16 => ⟨S800000, .i32⟩
  | 17 => ⟨S50000x128, .f32⟩
  | 18 => ⟨S_, .f32⟩
  | 19 => ⟨S800000, .f32⟩
  | 20 => ⟨S_, .f32⟩
  | 21 => ⟨S50000, .f32⟩
  | 22 => ⟨S800000x1, .i32⟩
  | 23 => ⟨S50000, .f32⟩
  | 24 => ⟨S_, .f32⟩
  | 25 => ⟨S50000, .f32⟩
  | 26 => ⟨S50000, .f32⟩
  | 27 => ⟨S_, .f32⟩
  | 28 => ⟨S50000, .f32⟩
  | 29 => ⟨S50000, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000, .f32⟩
  | 48 => ⟨S800000, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S800000x1, .f32⟩
  | 59 => ⟨S800000x128, .f32⟩
  | 60 => ⟨S800000x128, .f32⟩
  | 61 => ⟨S_, .f32⟩
  | 62 => ⟨S50000x128, .f32⟩
  | 63 => ⟨S800000x1, .i32⟩
  | 64 => ⟨S50000x128, .f32⟩
  | 65 => ⟨S50000, .f32⟩
  | 66 => ⟨S50000x1, .f32⟩
  | 67 => ⟨S50000x128, .f32⟩
  | 68 => ⟨S50000x128, .f32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S128, .f32⟩
  | 75 => ⟨S_, .f32⟩
  | 76 => ⟨S128, .f32⟩
  | 77 => ⟨S128, .f32⟩
  | 78 => ⟨S1x128, .f32⟩
  | 79 => ⟨S50000x128, .f32⟩
  | 80 => ⟨S50000x128, .f32⟩
  | 81 => ⟨S50000x128, .f32⟩
  | 82 => ⟨S_, .f32⟩
  | 83 => ⟨S128, .f32⟩
  | 84 => ⟨S_, .f32⟩
  | 85 => ⟨S128, .f32⟩
  | 86 => ⟨S128, .f32⟩
  | 87 => ⟨S_, .f32⟩
  | 88 => ⟨S128, .f32⟩
  | 89 => ⟨S128, .f32⟩
  | 90 => ⟨S128, .f32⟩
  | 91 => ⟨S128, .f32⟩
  | 92 => ⟨S128, .f32⟩
  | 93 => ⟨S128, .f32⟩
  | 94 => ⟨S1x128, .f32⟩
  | 95 => ⟨S1x128, .f32⟩
  | 96 => ⟨S50000x128, .f32⟩
  | 97 => ⟨S_, .f32⟩
  | 98 => ⟨S800000, .f32⟩
  | 99 => ⟨S_, .f32⟩
  | 100 => ⟨S50000, .f32⟩
  | 101 => ⟨S800000x1, .i32⟩
  | 102 => ⟨S50000, .f32⟩
  | 103 => ⟨S_, .f32⟩
  | 104 => ⟨S50000, .f32⟩
  | 105 => ⟨S50000, .f32⟩
  | 106 => ⟨S_, .f32⟩
  | 107 => ⟨S50000, .f32⟩
  | 108 => ⟨S50000, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000, .f32⟩
  | 127 => ⟨S800000, .f32⟩
  | _ => ⟨S50000x128, .f32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000x128, .f32⟩
  | 9 => ⟨S800000x1, .f32⟩
  | 10 => ⟨S800000x128, .f32⟩
  | 11 => ⟨S800000x128, .f32⟩
  | 12 => ⟨S_, .f32⟩
  | 13 => ⟨S50000x128, .f32⟩
  | 14 => ⟨S800000x1, .i32⟩
  | 15 => ⟨S50000x128, .f32⟩
  | 16 => ⟨S50000, .f32⟩
  | 17 => ⟨S50000x1, .f32⟩
  | 18 => ⟨S50000x128, .f32⟩
  | 19 => ⟨S50000x128, .f32⟩
  | 20 => ⟨S50000x128, .f32⟩
  | 21 => ⟨S1x128, .f32⟩
  | 22 => ⟨S50000x128, .f32⟩
  | 23 => ⟨S50000x128, .f32⟩
  | 24 => ⟨S50000x128, .bf16⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x128, .bf16⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x128, .bf16⟩
  | 43 => ⟨S800000x16, .bf16⟩
  | 44 => ⟨S128x128, .f32⟩
  | 45 => ⟨S128x128, .f32⟩
  | 46 => ⟨S16x128, .f32⟩
  | 47 => ⟨S800000x1, .f32⟩
  | 48 => ⟨S800000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S6400x128, .bf16⟩
  | .local _ .vmem, ⟨13, _⟩ => ⟨S6400x128, .bf16⟩
  | .local _ .vmem, ⟨14, _⟩ => ⟨S6400x128, .bf16⟩
  | .local _ .vmem, ⟨15, _⟩ => ⟨S6400x128, .bf16⟩
  | .local _ .vmem, ⟨16, _⟩ => ⟨S6400x16, .bf16⟩
  | .local _ .vmem, ⟨17, _⟩ => ⟨S6400x16, .bf16⟩
  | .local _ .vmem, ⟨18, _⟩ => ⟨S128x128, .f32⟩
  | .local _ .vmem, ⟨19, _⟩ => ⟨S128x128, .f32⟩
  | .local _ .vmem, ⟨20, _⟩ => ⟨S16x128, .f32⟩
  | .local _ .vmem, ⟨21, _⟩ => ⟨S128, .f32⟩
  | .local _ .vmem, ⟨22, _⟩ => ⟨S128x1, .f32⟩
  | .local _ .vmem, ⟨23, _⟩ => ⟨S1, .f32⟩
  | .local _ .vmem, ⟨24, _⟩ => ⟨S6400x1, .f32⟩
  | .local _ .vmem, ⟨25, _⟩ => ⟨S6400x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_c_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_cst_12 : Ref sig .tc := ⟨.hbm, 84, rfl⟩
abbrev main_v57 : Ref sig .tc := ⟨.hbm, 85, rfl⟩
abbrev main_v58 : Ref sig .tc := ⟨.hbm, 86, rfl⟩
abbrev main_cst_13 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_14 : Ref sig .tc := ⟨.hbm, 97, rfl⟩
abbrev main_v68 : Ref sig .tc := ⟨.hbm, 98, rfl⟩
abbrev main_cst_15 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_16 : Ref sig .tc := ⟨.hbm, 103, rfl⟩
abbrev main_v72 : Ref sig .tc := ⟨.hbm, 104, rfl⟩
abbrev main_v73 : Ref sig .tc := ⟨.hbm, 105, rfl⟩
abbrev main_cst_17 : Ref sig .tc := ⟨.hbm, 106, rfl⟩
abbrev main_v74 : Ref sig .tc := ⟨.hbm, 107, rfl⟩
abbrev main_v75 : Ref sig .tc := ⟨.hbm, 108, rfl⟩
abbrev main_c_18 : Ref sig .tc := ⟨.hbm, 109, rfl⟩
abbrev main_v76 : Ref sig .tc := ⟨.hbm, 110, rfl⟩
abbrev main_v77 : Ref sig .tc := ⟨.hbm, 111, rfl⟩
abbrev main_c_19 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_c_20 : Ref sig .tc := ⟨.hbm, 118, rfl⟩
abbrev main_v83 : Ref sig .tc := ⟨.hbm, 119, rfl⟩
abbrev main_v84 : Ref sig .tc := ⟨.hbm, 120, rfl⟩
abbrev main_c_21 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_c_22 : Ref sig .tc := ⟨.hbm, 128, rfl⟩
abbrev main_v91 : Ref sig .tc := ⟨.hbm, 129, rfl⟩
abbrev main_v92 : Ref sig .tc := ⟨.hbm, 130, rfl⟩
abbrev main_c_23 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_24 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_c_25 : Ref sig .tc := ⟨.hbm, 153, rfl⟩
abbrev main_v113 : Ref sig .tc := ⟨.hbm, 154, rfl⟩
abbrev main_v114 : Ref sig .tc := ⟨.hbm, 155, rfl⟩
abbrev main_c_26 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_c_27 : Ref sig .tc := ⟨.hbm, 162, rfl⟩
abbrev main_v120 : Ref sig .tc := ⟨.hbm, 163, rfl⟩
abbrev main_v121 : Ref sig .tc := ⟨.hbm, 164, rfl⟩
abbrev main_c_28 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg8_0 : Ref sig .tc := ⟨.vmem, 23, rfl⟩
abbrev cc2_stg9_0 : Ref sig .tc := ⟨.vmem, 24, rfl⟩
abbrev cc2_stg9_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem8_0 : DmaSem sig := 23
abbrev cc2_sem9_0 : DmaSem sig := 24
abbrev cc2_sem9_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6400x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6400x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S6400x16 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S16x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S6400x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S272x128_S128x128_0_0 : S272x128.Slices ![0, 0] S128x128
  slices_S272x128_S128x128_128_0 : S272x128.Slices ![128, 0] S128x128
  slices_S272x128_S16x128_256_0 : S272x128.Slices ![256, 0] S16x128
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S6400x16_S6400x16_0_0 : ∀ a, (![0, 0] : Fin 2 → Nat) a + S6400x16.size a ≤ S6400x16.size a
  h_S6400x16 : 0 < S6400x16.numel
  shapeCasts_S6400x16_S6400x16 : S6400x16.ShapeCasts S6400x16
  shapeCasts_S128x128_S128x128 : S128x128.ShapeCasts S128x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S128_S128_0 : ∀ a, (![0] : Fin 1 → Nat) a + S128.size a ≤ S128.size a
  h_S128 : 0 < S128.numel
  broadcasts_S1x128_S6400x128 : S1x128.Broadcasts S6400x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S6400x1 : S1x1.Broadcasts S6400x1
  inb_S6400x1_S6400x1_0_0 : ∀ a, (![0, 0] : Fin 2 → Nat) a + S6400x1.size a ≤ S6400x1.size a
  h_S6400x1 : 0 < S6400x1.numel
  shapeCasts_S800000x1_S800000 : S800000x1.ShapeCasts S800000
  dot_S2000x128_S128x128_S2000x128_1_0_0_1_n_n_wf : DotDims.WF S2000x128 S128x128 S2000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S6400x128_S128x128_S6400x128_1_0_0_1_n_n_wf : DotDims.WF S6400x128 S128x128 S6400x128 [1] [0] [0] [1] [] []
  dot_S6400x16_S16x128_S6400x128_1_0_0_1_n_n_wf : DotDims.WF S6400x16 S16x128 S6400x128 [1] [0] [0] [1] [] []
  dot_S6400x128_S128x1_S6400x1_1_0_0_1_n_n_wf : DotDims.WF S6400x128 S128x1 S6400x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x128.size a ≤ S800000x128.size a
  hwx2_0 : ∀ i : grid2.Coords, EltTy.bits .bf16 = 32 ∨ (Rect.block (s := S800000x128) S6400x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6400x128.size a ≤ S800000x128.size a
  hwx2_1 : ∀ i : grid2.Coords, EltTy.bits .bf16 = 32 ∨ (Rect.block (s := S800000x128) S6400x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6400x16.size a ≤ S800000x16.size a
  hwx2_2 : ∀ i : grid2.Coords, EltTy.bits .bf16 = 32 ∨ (Rect.block (s := S800000x16) S6400x16.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S16x128.size a ≤ S16x128.size a
  hwx2_5 : ∀ i : grid2.Coords, EltTy.bits .f32 = 32 ∨ (Rect.block (s := S16x128) S16x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x1.size a ≤ S128x1.size a
  hwx2_7 : ∀ i : grid2.Coords, EltTy.bits .f32 = 32 ∨ (Rect.block (s := S128x1) S128x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1.size a ≤ S1.size a
  hwx2_8 : ∀ i : grid2.Coords, EltTy.bits .f32 = 32 ∨ (Rect.block (s := S1) S1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S6400x1.size a ≤ S800000x1.size a
  hwx2_9 : ∀ i : grid2.Coords, EltTy.bits .f32 = 32 ∨ (Rect.block (s := S800000x1) S6400x1.size (cc2_transform_9 i) (hinb2_9 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def dot_S6400x16_S16x128_S6400x128_1_0_0_1_n_n : DotDims S6400x16 S16x128 S6400x128 where
  lhsContracting := [1]
  rhsContracting := [0]
  lhsNonContracting := [0]
  rhsNonContracting := [1]
  lhsBatch := []
  rhsBatch := []
  wf := dot_S6400x16_S16x128_S6400x128_1_0_0_1_n_n_wf
def dot_S6400x128_S128x1_S6400x1_1_0_0_1_n_n : DotDims S6400x128 S128x1 S6400x1 where
  lhsContracting := [1]
  rhsContracting := [0]
  lhsNonContracting := [0]
  rhsNonContracting := [1]
  lhsBatch := []
  rhsBatch := []
  wf := dot_S6400x128_S128x1_S6400x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v65) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v66) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v67) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v119) S6400x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v126) S6400x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v127) S6400x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v128) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v129) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v130) S16x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg10) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg11) S128x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg12) S1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v131) S6400x1.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x16 : Shape := ⟨2, ![800000, 16]⟩
abbrev S128x128 : Shape := ⟨2, ![128, 128]⟩
abbrev S128 : Shape := ⟨1, ![128]⟩
abbrev S272x128 : Shape := ⟨2, ![272, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S800000x272 : Shape := ⟨2, ![800000, 272]⟩
abbrev S1x1 : Shape := ⟨2, ![1, 1]⟩

abbrev nBuf : Space → Nat
  | .hbm => 193
  | .vmem => 0
  | .smem => 0
  | _ => 0

abbrev hbmTy0_0 (i : Nat) : BufTy := match i % 128 with
  | 0 => ⟨S50000x128, .f32⟩
  | 1 => ⟨S2x800000, .i32⟩
  | 2 => ⟨S800000x16, .f32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S272x128, .f32⟩
  | 10 => ⟨S128, .f32⟩
  | 11 => ⟨S128x1, .f32⟩
  | 12 => ⟨S1, .f32⟩
  | 13 => ⟨S1x800000, .i32⟩
  | 14 => ⟨S800000, .i32⟩
  | 15 => ⟨S1x800000, .i32⟩
  | 16 => ⟨S800000, .i32⟩
  | 17 => ⟨S50000x128, .f32⟩
  | 18 => ⟨S_, .f32⟩
  | 19 => ⟨S800000, .f32⟩
  | 20 => ⟨S_, .f32⟩
  | 21 => ⟨S50000, .f32⟩
  | 22 => ⟨S800000x1, .i32⟩
  | 23 => ⟨S50000, .f32⟩
  | 24 => ⟨S_, .f32⟩
  | 25 => ⟨S50000, .f32⟩
  | 26 => ⟨S50000, .f32⟩
  | 27 => ⟨S_, .f32⟩
  | 28 => ⟨S50000, .f32⟩
  | 29 => ⟨S50000, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000, .f32⟩
  | 48 => ⟨S800000, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S800000x1, .f32⟩
  | 59 => ⟨S800000x128, .f32⟩
  | 60 => ⟨S800000x128, .f32⟩
  | 61 => ⟨S_, .f32⟩
  | 62 => ⟨S50000x128, .f32⟩
  | 63 => ⟨S800000x1, .i32⟩
  | 64 => ⟨S50000x128, .f32⟩
  | 65 => ⟨S50000, .f32⟩
  | 66 => ⟨S50000x1, .f32⟩
  | 67 => ⟨S50000x128, .f32⟩
  | 68 => ⟨S50000x128, .f32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S128, .f32⟩
  | 75 => ⟨S_, .f32⟩
  | 76 => ⟨S128, .f32⟩
  | 77 => ⟨S128, .f32⟩
  | 78 => ⟨S1x128, .f32⟩
  | 79 => ⟨S50000x128, .f32⟩
  | 80 => ⟨S50000x128, .f32⟩
  | 81 => ⟨S50000x128, .f32⟩
  | 82 => ⟨S_, .f32⟩
  | 83 => ⟨S128, .f32⟩
  | 84 => ⟨S_, .f32⟩
  | 85 => ⟨S128, .f32⟩
  | 86 => ⟨S128, .f32⟩
  | 87 => ⟨S1x128, .f32⟩
  | 88 => ⟨S50000x128, .f32⟩
  | 89 => ⟨S50000x128, .f32⟩
  | 90 => ⟨S_, .f32⟩
  | 91 => ⟨S128, .f32⟩
  | 92 => ⟨S128, .f32⟩
  | 93 => ⟨S128, .f32⟩
  | 94 => ⟨S1x128, .f32⟩
  | 95 => ⟨S50000x128, .f32⟩
  | 96 => ⟨S50000x128, .f32⟩
  | 97 => ⟨S1x128, .f32⟩
  | 98 => ⟨S50000x128, .f32⟩
  | 99 => ⟨S50000x128, .f32⟩
  | 100 => ⟨S1x128, .f32⟩
  | 101 => ⟨S50000x128, .f32⟩
  | 102 => ⟨S50000x128, .f32⟩
  | 103 => ⟨S_, .f32⟩
  | 104 => ⟨S50000x128, .f32⟩
  | 105 => ⟨S50000x128, .f32⟩
  | 106 => ⟨S50000x128, .f32⟩
  | 107 => ⟨S_, .f32⟩
  | 108 => ⟨S800000, .f32⟩
  | 109 => ⟨S_, .f32⟩
  | 110 => ⟨S50000, .f32⟩
  | 111 => ⟨S800000x1, .i32⟩
  | 112 => ⟨S50000, .f32⟩
  | 113 => ⟨S_, .f32⟩
  | 114 => ⟨S50000, .f32⟩
  | 115 => ⟨S50000, .f32⟩
  | 116 => ⟨S_, .f32⟩
  | 117 => ⟨S50000, .f32⟩
  | 118 => ⟨S50000, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000, .f32⟩
  | _ => ⟨S50000x128, .f32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000, .f32⟩
  | 9 => ⟨S800000, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000x128, .f32⟩
  | 19 => ⟨S800000x1, .f32⟩
  | 20 => ⟨S800000x128, .f32⟩
  | 21 => ⟨S800000x128, .f32⟩
  | 22 => ⟨S_, .f32⟩
  | 23 => ⟨S50000x128, .f32⟩
  | 24 => ⟨S800000x1, .i32⟩
  | 25 => ⟨S50000x128, .f32⟩
  | 26 => ⟨S50000, .f32⟩
  | 27 => ⟨S50000x1, .f32⟩
  | 28 => ⟨S50000x128, .f32⟩
  | 29 => ⟨S50000x128, .f32⟩
  | 30 => ⟨S50000x128, .f32⟩
  | 31 => ⟨S1x128, .f32⟩
  | 32 => ⟨S50000x128, .f32⟩
  | 33 => ⟨S50000x128, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x128, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x128, .f32⟩
  | 52 => ⟨S800000x272, .f32⟩
  | 53 => ⟨S800000x128, .f32⟩
  | 54 => ⟨S1x128, .f32⟩
  | 55 => ⟨S800000x128, .f32⟩
  | 56 => ⟨S800000x128, .f32⟩
  | 57 => ⟨S_, .f32⟩
  | 58 => ⟨S800000x128, .f32⟩
  | 59 => ⟨S800000x128, .f32⟩
  | 60 => ⟨S800000x1, .f32⟩
  | 61 => ⟨S1x1, .f32⟩
  | 62 => ⟨S800000x1, .f32⟩
  | 63 => ⟨S800000x1, .f32⟩
  | 64 => ⟨S800000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_c_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_cst_12 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_13 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_call0_cst : Ref sig .tc := ⟨.hbm, 103, rfl⟩
abbrev main_call0_v0 : Ref sig .tc := ⟨.hbm, 104, rfl⟩
abbrev main_v74 : Ref sig .tc := ⟨.hbm, 105, rfl⟩
abbrev main_v75 : Ref sig .tc := ⟨.hbm, 106, rfl⟩
abbrev main_cst_14 : Ref sig .tc := ⟨.hbm, 107, rfl⟩
abbrev main_v76 : Ref sig .tc := ⟨.hbm, 108, rfl⟩
abbrev main_cst_15 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_16 : Ref sig .tc := ⟨.hbm, 113, rfl⟩
abbrev main_v80 : Ref sig .tc := ⟨.hbm, 114, rfl⟩
abbrev main_v81 : Ref sig .tc := ⟨.hbm, 115, rfl⟩
abbrev main_cst_17 : Ref sig .tc := ⟨.hbm, 116, rfl⟩
abbrev main_v82 : Ref sig .tc := ⟨.hbm, 117, rfl⟩
abbrev main_v83 : Ref sig .tc := ⟨.hbm, 118, rfl⟩
abbrev main_c_18 : Ref sig .tc := ⟨.hbm, 119, rfl⟩
abbrev main_v84 : Ref sig .tc := ⟨.hbm, 120, rfl⟩
abbrev main_v85 : Ref sig .tc := ⟨.hbm, 121, rfl⟩
abbrev main_c_19 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_c_20 : Ref sig .tc := ⟨.hbm, 128, rfl⟩
abbrev main_v91 : Ref sig .tc := ⟨.hbm, 129, rfl⟩
abbrev main_v92 : Ref sig .tc := ⟨.hbm, 130, rfl⟩
abbrev main_c_21 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_c_22 : Ref sig .tc := ⟨.hbm, 138, rfl⟩
abbrev main_v99 : Ref sig .tc := ⟨.hbm, 139, rfl⟩
abbrev main_v100 : Ref sig .tc := ⟨.hbm, 140, rfl⟩
abbrev main_c_23 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_cst_24 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_c_25 : Ref sig .tc := ⟨.hbm, 162, rfl⟩
abbrev main_v120 : Ref sig .tc := ⟨.hbm, 163, rfl⟩
abbrev main_v121 : Ref sig .tc := ⟨.hbm, 164, rfl⟩
abbrev main_c_26 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_c_27 : Ref sig .tc := ⟨.hbm, 171, rfl⟩
abbrev main_v127 : Ref sig .tc := ⟨.hbm, 172, rfl⟩
abbrev main_v128 : Ref sig .tc := ⟨.hbm, 173, rfl⟩
abbrev main_c_28 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_call1_cst : Ref sig .tc := ⟨.hbm, 185, rfl⟩
abbrev main_call1_v0 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  concatenates_S800000x128_S800000x128_S800000x16_S800000x272_d1 : Shape.Concatenates [S800000x128, S800000x128, S800000x16] S800000x272 1
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  shapeCasts_S800000x1_S800000 : S800000x1.ShapeCasts S800000
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S800000x272_S272x128_S800000x128_1_0_0_1_n_n_wf : DotDims.WF S800000x272 S272x128 S800000x128 [1] [0] [0] [1] [] []
  dot_S800000x128_S128x1_S800000x1_1_0_0_1_n_n_wf : DotDims.WF S800000x128 S128x1 S800000x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S800000x272_S272x128_S800000x128_1_0_0_1_n_n : DotDims S800000x272 S272x128 S800000x128 where
  lhsContracting := [1]
  rhsContracting := [0]
  lhsNonContracting := [0]
  rhsNonContracting := [1]
  lhsBatch := []
  rhsBatch := []
  wf := dot_S800000x272_S272x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf

class Facts : Prop extends Facts₀ where

variable [Facts]
-- ==== Proof.KRun.lean ====
/-
  THE IDEALIZED KERNEL'S RUN WITH ITS RESULT NAMED.

  @main of the idealized kernel is seven segments: four stretches of host operations around three pipelined regions.
  Every weakly fair execution from a memory with zero counters terminates without a fault, and in the final state every
  unscoped buffer holds what the fold of the segments leaves in it: a host stretch applies its operations to the
  contents it is entered with, a region replaces its output array by what its grid points write back and leaves the
  rest.  Read at the result buffer this names the result; read at an argument it is the launch contents.
-/
import proofs.«120905_j51728586113229_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_value : θ_run defs (onTc (τ := τ) (main (F := F))) ⟨m, fun _ => 0, ρ⟩ (fun r => ∀ c : Dev nD,
      r.2.mem ((c.tc : Thread nD τ).loc main_v132) = W7 m ρ c (Proc.devRef .tc main_v132)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v132 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c)⟩)

end Cert.KernelIdeal.ValueRun

end
-- ==== Proof.KHostDefs.lean ====
/-
  THE HOST OPERATIONS BETWEEN THE REGIONS, AS FUNCTIONS.

  Between its three pipelined regions the program runs plain array operations.  They are named here once, each a
  function of the arrays it reads, for any float values:
  • `src e`, `dst e`: the two rows of the edge list;
  • `deg d`: one plus the number of edges arriving at each node (an accumulating scatter of ones), `dinv d` its power
    −1/2; `wrap i`: an index below zero moved up by the node count; `col`: a vector as one column;
  • `agg h s d b`: one graph convolution after its dense product `h` — every edge carries its source row scaled by
    `dinv` at both ends to its destination (a row gather, a product, an accumulating row scatter), each node adds its
    own row scaled by `dinv` squared, and the bias `b` is added on every row;
  • `mean z`, `var z`, `rsq z`: the column means of `z`, the column means of the squared deviations, and the
    reciprocal square root of that plus the small constant; `rows v`: a vector repeated on every row;
  • `scaleRow z g`, `shiftRow z g β`: the normalisation folded into one factor `rsq z · g` and one offset
    `β − mean z · (rsq z · g)` per column, each laid out as one row;
  • `normRelu z g β`: the normalisation written out, `((z − mean z) · rsq z) · g + β`, rectified;
  • `endRows z i`: the rows of `z` at the (wrapped) indices `i`, one per edge.
-/
import proofs.«120905_j51728586113229_2_alg».proof.Proof.Gen.KernelIdeal

noncomputable section

namespace Cert.KernelIdeal.HostFn

open Cert.KernelIdeal Cert.KernelIdeal.Gen Idealize.ShloMosaic Idealize.ShloMosaic.TcCoe

variable {F : FTy → Type} [FloatOps F]

/-- The edge list's first row: the sources. -/
def src (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- The edge list's second row: the destinations. -/
def dst (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- A vector of edge indices as one column. -/
def col (i : (⟨S800000, .i32⟩ : BufTy).Contents (Elt F)) : (⟨S800000x1, .i32⟩ : BufTy).Contents (Elt F) :=
  broadcastInDim S800000x1 ![0] bcast_S800000_S800000x1_0 i

/-- One plus the number of edges arriving at each node. -/
def deg (d : (⟨S800000, .i32⟩ : BufTy).Contents (Elt F)) : (⟨S50000, .f32⟩ : BufTy).Contents (Elt F) :=
  addf (Host.scatterAdd scatter_S50000_S800000x1_S800000_n_0_0_1
      (broadcastInDim S50000 ![] bcast_S_S50000 (constant S_ .f32 0x00000000#32)) (col d)
      (broadcastInDim S800000 ![] bcast_S_S800000 (constant S_ .f32 0x3F800000#32)))
    (broadcastInDim S50000 ![] bcast_S_S50000 (constant S_ .f32 0x3F800000#32))

/-- The degree to the power −1/2. -/
def dinv (d : (⟨S800000, .i32⟩ : BufTy).Contents (Elt F)) : (⟨S50000, .f32⟩ : BufTy).Contents (Elt F) :=
  Host.powf (deg d) (broadcastInDim S50000 ![] bcast_S_S50000 (constant S_ .f32 0xBF000000#32))

/-- An index below zero moved up by the node count. -/
def wrap (i : (⟨S800000, .i32⟩ : BufTy).Contents (Elt F)) : (⟨S800000, .i32⟩ : BufTy).Contents (Elt F) :=
  select (cmpi .slt i (broadcastInDim S800000 ![] bcast_S_S800000 (constantI S_ 32 0#32)))
    (addi i (broadcastInDim S800000 ![] bcast_S_S800000 (constantI S_ 32 50000#32))) i

/-- The weight of an edge: `dinv` at its source times `dinv` at its destination. -/
def norm (s d : (⟨S800000, .i32⟩ : BufTy).Contents (Elt F)) : (⟨S800000, .f32⟩ : BufTy).Contents (Elt F) :=
  mulf (Host.gather gather_S50000_S800000x1_S800000_n_0_n_n_0_1_1 (dinv d) (col (wrap s)))
    (Host.gather gather_S50000_S800000x1_S800000_n_0_n_n_0_1_1 (dinv d) (col (wrap d)))

/-- A vector repeated on every row of a tall array. -/
def rows (v : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 v)

/-- One graph convolution after its dense product `h`. -/
def agg (h : (⟨S50000x128, .f32⟩ : BufTy).Contents (Elt F)) (s d : (⟨S800000, .i32⟩ : BufTy).Contents (Elt F)) (b : (⟨S128, .f32⟩ : BufTy).Contents (Elt F)) : (⟨S50000x128, .f32⟩ : BufTy).Contents (Elt F) :=
  addf (addf (Host.scatterAdd scatter_S50000x128_S800000x1_S800000x128_1_0_0_1
        (broadcastInDim S50000x128 ![] bcast_S_S50000x128 (constant S_ .f32 0x00000000#32)) (col d)
        (mulf (Host.gather gather_S50000x128_S800000x1_S800000x128_1_0_n_n_0_1_1128 h (col (wrap s)))
          (broadcastInDim S800000x128 ![0, 1] bcast_S800000x1_S800000x128_0_1
            (broadcastInDim S800000x1 ![0] bcast_S800000_S800000x1_0 (norm s d)))))
      (mulf h (broadcastInDim S50000x128 ![0, 1] bcast_S50000x1_S50000x128_0_1
        (broadcastInDim S50000x1 ![0] bcast_S50000_S50000x1_0 (mulf (dinv d) (dinv d))))))
    (rows b)

/-- The column means. -/
def mean (z : (⟨S50000x128, .f32⟩ : BufTy).Contents (Elt F)) : (⟨S128, .f32⟩ : BufTy).Contents (Elt F) :=
  Host.divf (Host.reduceAdd z (constant S_ .f32 0x00000000#32) reducesTo_S50000x128_S128_d0 h_S_)
    (broadcastInDim S128 ![] bcast_S_S128 (constant S_ .f32 0x47435000#32))

/-- The column means of the squared deviations from the column means. -/
def var (z : (⟨S50000x128, .f32⟩ : BufTy).Contents (Elt F)) : (⟨S128, .f32⟩ : BufTy).Contents (Elt F) :=
  Host.divf (Host.reduceAdd (mulf (subf z (rows (mean z))) (subf z (rows (mean z)))) (constant S_ .f32 0x00000000#32)
      reducesTo_S50000x128_S128_d0 h_S_)
    (broadcastInDim S128 ![] bcast_S_S128 (constant S_ .f32 0x47435000#32))

/-- The reciprocal square root of the variance plus the small constant. -/
def rsq (z : (⟨S50000x128, .f32⟩ : BufTy).Contents (Elt F)) : (⟨S128, .f32⟩ : BufTy).Contents (Elt F) :=
  Host.rsqrt (addf (var z) (broadcastInDim S128 ![] bcast_S_S128 (constant S_ .f32 0x3727C5AC#32)))

/-- The folded normalisation's factor per column, as one row. -/
def scaleRow (z : (⟨S50000x128, .f32⟩ : BufTy).Contents (Elt F)) (g : (⟨S128, .f32⟩ : BufTy).Contents (Elt F)) : (⟨S1x128, .f32⟩ : BufTy).Contents (Elt F) :=
  shapeCast _ (mulf (rsq z) g) shapeCasts_S128_S1x128

/-- The folded normalisation's offset per column, as one row. -/
def shiftRow (z : (⟨S50000x128, .f32⟩ : BufTy).Contents (Elt F)) (g β : (⟨S128, .f32⟩ : BufTy).Contents (Elt F)) : (⟨S1x128, .f32⟩ : BufTy).Contents (Elt F) :=
  shapeCast _ (subf β (mulf (mean z) (mulf (rsq z) g))) shapeCasts_S128_S1x128

/-- The normalisation written out and rectified. -/
def normRelu (z : (⟨S50000x128, .f32⟩ : BufTy).Contents (Elt F)) (g β : (⟨S128, .f32⟩ : BufTy).Contents (Elt F)) : (⟨S50000x128, .f32⟩ : BufTy).Contents (Elt F) :=
  maximumf (addf (mulf (mulf (subf z (rows (mean z))) (rows (rsq z))) (rows g)) (rows β))
    (broadcastInDim S50000x128 ![] bcast_S_S50000x128 (constant S_ .f32 0x00000000#32))

/-- A node array narrowed for the gather, and a row of it per edge end. -/
def endRows (z : (⟨S50000x128, .f32⟩ : BufTy).Contents (Elt F)) (i : (⟨S800000, .i32⟩ : BufTy).Contents (Elt F)) : (⟨S800000x128, .bf16⟩ : BufTy).Contents (Elt F) :=
  Host.gather gather_S50000x128_S800000x1_S800000x128_1_0_n_n_0_1_1128 (truncf .bf16 z bitsLt_bf16_f32) (col (wrap i))

end Cert.KernelIdeal.HostFn

end
-- ==== Proof.KFold03.lean ====
/-
  THE FIRST AND THE LAST STRETCH OF HOST OPERATIONS, read at the buffers that matter.

  Before the first region the program only splits the edge list into its two rows; after the last region it only
  reshapes the one-column result to a vector.  For any contents `W` of the buffers when the stretch starts, the contents
  after it are read here at the buffers later segments use; a buffer the stretch does not write keeps its contents.
-/
import proofs.«120905_j51728586113229_2_alg».proof.Proof.Gen.KernelIdeal.Launch
import proofs.«120905_j51728586113229_2_alg».proof.Proof.KHostDefs
import Idealize.ShloMosaic.Lib.StableHlo.Run

set_option maxRecDepth 16384

noncomputable section

namespace Cert.KernelIdeal.Fold

open Cert.KernelIdeal Cert.KernelIdeal.Gen Cert.KernelIdeal.HostFn
open Idealize.ShloMosaic Idealize.ShloMosaic.TcCoe Idealize.SL.Sem Idealize.ShloMosaic.StableHlo

variable {F : FTy → Type} [FloatOps F]

/-- A buffer no operation of the stretch writes keeps its contents. -/
local macro "keeps" ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

theorem ops0_v1 (W : Valuation τ sig (Elt F)) : StableHlo.after hostOps0 W (Proc.devRef .tc main_v1) = src (W (Proc.devRef .tc main_arg1)) := by
  dsimp only [hostOps0]; after_results <;> rfl

theorem ops0_v3 (W : Valuation τ sig (Elt F)) : StableHlo.after hostOps0 W (Proc.devRef .tc main_v3) = dst (W (Proc.devRef .tc main_arg1)) := by
  dsimp only [hostOps0]; after_results <;> rfl

theorem ops0_arg0 (W : Valuation τ sig (Elt F)) : StableHlo.after hostOps0 W (Proc.devRef .tc main_arg0) = W (Proc.devRef .tc main_arg0) := by keeps hostOps0
theorem ops0_arg2 (W : Valuation τ sig (Elt F)) : StableHlo.after hostOps0 W (Proc.devRef .tc main_arg2) = W (Proc.devRef .tc main_arg2) := by keeps hostOps0
theorem ops0_arg3 (W : Valuation τ sig (Elt F)) : StableHlo.after hostOps0 W (Proc.devRef .tc main_arg3) = W (Proc.devRef .tc main_arg3) := by keeps hostOps0
theorem ops0_arg4 (W : Valuation τ sig (Elt F)) : StableHlo.after hostOps0 W (Proc.devRef .tc main_arg4) = W (Proc.devRef .tc main_arg4) := by keeps hostOps0
theorem ops0_arg5 (W : Valuation τ sig (Elt F)) : StableHlo.after hostOps0 W (Proc.devRef .tc main_arg5) = W (Proc.devRef .tc main_arg5) := by keeps hostOps0
theorem ops0_arg6 (W : Valuation τ sig (Elt F)) : StableHlo.after hostOps0 W (Proc.devRef .tc main_arg6) = W (Proc.devRef .tc main_arg6) := by keeps hostOps0
theorem ops0_arg7 (W : Valuation τ sig (Elt F)) : StableHlo.after hostOps0 W (Proc.devRef .tc main_arg7) = W (Proc.devRef .tc main_arg7) := by keeps hostOps0
theorem ops0_arg8 (W : Valuation τ sig (Elt F)) : StableHlo.after hostOps0 W (Proc.devRef .tc main_arg8) = W (Proc.devRef .tc main_arg8) := by keeps hostOps0
theorem ops0_arg9 (W : Valuation τ sig (Elt F)) : StableHlo.after hostOps0 W (Proc.devRef .tc main_arg9) = W (Proc.devRef .tc main_arg9) := by keeps hostOps0
theorem ops0_arg10 (W : Valuation τ sig (Elt F)) : StableHlo.after hostOps0 W (Proc.devRef .tc main_arg10) = W (Proc.devRef .tc main_arg10) := by keeps hostOps0
theorem ops0_arg11 (W : Valuation τ sig (Elt F)) : StableHlo.after hostOps0 W (Proc.devRef .tc main_arg11) = W (Proc.devRef .tc main_arg11) := by keeps hostOps0
theorem ops0_arg12 (W : Valuation τ sig (Elt F)) : StableHlo.after hostOps0 W (Proc.devRef .tc main_arg12) = W (Proc.devRef .tc main_arg12) := by keeps hostOps0

theorem ops3_v132 (W : Valuation τ sig (Elt F)) :
    StableHlo.after hostOps3 W (Proc.devRef .tc main_v132) = shapeCast _ (W (Proc.devRef .tc main_v131)) shapeCasts_S800000x1_S800000 := by
  dsimp only [hostOps3]; after_results <;> rfl

end Cert.KernelIdeal.Fold

end
-- ==== Proof.KFold1.lean ====
/-
  THE STRETCH BETWEEN THE FIRST AND THE SECOND REGION, read at the second region's operands.

  From the first region's product the program aggregates over the graph, takes the column statistics and folds the
  normalisation into one factor and one offset per column.  For any contents `W` of the buffers when the stretch
  starts, the second region's operands are the named functions of `W` at the product, the edge rows and the arguments;
  a buffer the stretch does not write keeps its contents.
-/
import proofs.«120905_j51728586113229_2_alg».proof.Proof.Gen.KernelIdeal.Launch
import proofs.«120905_j51728586113229_2_alg».proof.Proof.KHostDefs
import Idealize.ShloMosaic.Lib.StableHlo.Run

set_option maxRecDepth 16384

noncomputable section

namespace Cert.KernelIdeal.Fold

open Cert.KernelIdeal Cert.KernelIdeal.Gen Cert.KernelIdeal.HostFn
open Idealize.ShloMosaic Idealize.ShloMosaic.TcCoe Idealize.SL.Sem Idealize.ShloMosaic.StableHlo

variable {F : FTy → Type} [FloatOps F]

/-- A buffer no operation of the stretch writes keeps its contents. -/
local macro "keeps" ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

set_option maxHeartbeats 4000000 in
theorem ops1_v48 (W : Valuation τ sig (Elt F)) : StableHlo.after hostOps1 W (Proc.devRef .tc main_v48) = agg (W (Proc.devRef .tc main_v4)) (W (Proc.devRef .tc main_v1)) (W (Proc.devRef .tc main_v3)) (W (Proc.devRef .tc main_arg4)) := by
  dsimp only [hostOps1]; after_results_simp <;> rfl

set_option maxHeartbeats 4000000 in
theorem ops1_v65 (W : Valuation τ sig (Elt F)) :
    StableHlo.after hostOps1 W (Proc.devRef .tc main_v65) = scaleRow (agg (W (Proc.devRef .tc main_v4)) (W (Proc.devRef .tc main_v1)) (W (Proc.devRef .tc main_v3)) (W (Proc.devRef .tc main_arg4))) (W (Proc.devRef .tc main_arg5)) := by
  dsimp only [hostOps1]; after_results_simp <;> rfl

set_option maxHeartbeats 4000000 in
theorem ops1_v66 (W : Valuation τ sig (Elt F)) :
    StableHlo.after hostOps1 W (Proc.devRef .tc main_v66)
      = shiftRow (agg (W (Proc.devRef .tc main_v4)) (W (Proc.devRef .tc main_v1)) (W (Proc.devRef .tc main_v3)) (W (Proc.devRef .tc main_arg4))) (W (Proc.devRef .tc main_arg5)) (W (Proc.devRef .tc main_arg6)) := by
  dsimp only [hostOps1]; after_results_simp <;> rfl

theorem ops1_v1 (W : Valuation τ sig (Elt F)) : StableHlo.after hostOps1 W (Proc.devRef .tc main_v1) = W (Proc.devRef .tc main_v1) := by keeps hostOps1
theorem ops1_v3 (W : Valuation τ sig (Elt F)) : StableHlo.after hostOps1 W (Proc.devRef .tc main_v3) = W (Proc.devRef .tc main_v3) := by keeps hostOps1
theorem ops1_arg2 (W : Valuation τ sig (Elt F)) : StableHlo.after hostOps1 W (Proc.devRef .tc main_arg2) = W (Proc.devRef .tc main_arg2) := by keeps hostOps1
theorem ops1_arg7 (W : Valuation τ sig (Elt F)) : StableHlo.after hostOps1 W (Proc.devRef .tc main_arg7) = W (Proc.devRef .tc main_arg7) := by keeps hostOps1
theorem ops1_arg8 (W : Valuation τ sig (Elt F)) : StableHlo.after hostOps1 W (Proc.devRef .tc main_arg8) = W (Proc.devRef .tc main_arg8) := by keeps hostOps1
theorem ops1_arg9 (W : Valuation τ sig (Elt F)) : StableHlo.after hostOps1 W (Proc.devRef .tc main_arg9) = W (Proc.devRef .tc main_arg9) := by keeps hostOps1
theorem ops1_arg10 (W : Valuation τ sig (Elt F)) : StableHlo.after hostOps1 W (Proc.devRef .tc main_arg10) = W (Proc.devRef .tc main_arg10) := by keeps hostOps1
theorem ops1_arg11 (W : Valuation τ sig (Elt F)) : StableHlo.after hostOps1 W (Proc.devRef .tc main_arg11) = W (Proc.devRef .tc main_arg11) := by keeps hostOps1
theorem ops1_arg12 (W : Valuation τ sig (Elt F)) : StableHlo.after hostOps1 W (Proc.devRef .tc main_arg12) = W (Proc.devRef .tc main_arg12) := by keeps hostOps1

end Cert.KernelIdeal.Fold

end
-- ==== Proof.KFold2.lean ====
/-
  THE STRETCH BETWEEN THE SECOND AND THE THIRD REGION, read at the third region's operands.

  From the second region's product the program aggregates over the graph again, narrows the node array and gathers
  its rows at the two ends of every edge, narrows the edge attributes and cuts the tall first weight of the read-out
  into its three bands.  For any contents `W` of the buffers when the stretch starts, the third region's operands are
  the named functions of `W`; a buffer the stretch does not write keeps its contents.
-/
import proofs.«120905_j51728586113229_2_alg».proof.Proof.Gen.KernelIdeal.Launch
import proofs.«120905_j51728586113229_2_alg».proof.Proof.KHostDefs
import Idealize.ShloMosaic.Lib.StableHlo.Run

set_option maxRecDepth 16384

noncomputable section

namespace Cert.KernelIdeal.Fold

open Cert.KernelIdeal Cert.KernelIdeal.Gen Cert.KernelIdeal.HostFn
open Idealize.ShloMosaic Idealize.ShloMosaic.TcCoe Idealize.SL.Sem Idealize.ShloMosaic.StableHlo

variable {F : FTy → Type} [FloatOps F]

/-- A buffer no operation of the stretch writes keeps its contents. -/
local macro "keeps" ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

set_option maxHeartbeats 4000000 in
theorem ops2_v119 (W : Valuation τ sig (Elt F)) :
    StableHlo.after hostOps2 W (Proc.devRef .tc main_v119) = endRows (agg (W (Proc.devRef .tc main_v67)) (W (Proc.devRef .tc main_v1)) (W (Proc.devRef .tc main_v3)) (W (Proc.devRef .tc main_arg8))) (W (Proc.devRef .tc main_v1)) := by
  dsimp only [hostOps2]; after_results_simp <;> rfl

set_option maxHeartbeats 4000000 in
theorem ops2_v126 (W : Valuation τ sig (Elt F)) :
    StableHlo.after hostOps2 W (Proc.devRef .tc main_v126) = endRows (agg (W (Proc.devRef .tc main_v67)) (W (Proc.devRef .tc main_v1)) (W (Proc.devRef .tc main_v3)) (W (Proc.devRef .tc main_arg8))) (W (Proc.devRef .tc main_v3)) := by
  dsimp only [hostOps2]; after_results_simp <;> rfl

set_option maxHeartbeats 4000000 in
theorem ops2_v127 (W : Valuation τ sig (Elt F)) :
    StableHlo.after hostOps2 W (Proc.devRef .tc main_v127) = truncf .bf16 (W (Proc.devRef .tc main_arg2)) bitsLt_bf16_f32 := by
  dsimp only [hostOps2]; after_results_simp <;> rfl

set_option maxHeartbeats 4000000 in
theorem ops2_v128 (W : Valuation τ sig (Elt F)) :
    StableHlo.after hostOps2 W (Proc.devRef .tc main_v128) = extractStridedSlice S128x128 ![0, 0] (W (Proc.devRef .tc main_arg9)) slices_S272x128_S128x128_0_0 := by
  dsimp only [hostOps2]; after_results_simp <;> rfl

set_option maxHeartbeats 4000000 in
theorem ops2_v129 (W : Valuation τ sig (Elt F)) :
    StableHlo.after hostOps2 W (Proc.devRef .tc main_v129) = extractStridedSlice S128x128 ![128, 0] (W (Proc.devRef .tc main_arg9)) slices_S272x128_S128x128_128_0 := by
  dsimp only [hostOps2]; after_results_simp <;> rfl

set_option maxHeartbeats 4000000 in
theorem ops2_v130 (W : Valuation τ sig (Elt F)) :
    StableHlo.after hostOps2 W (Proc.devRef .tc main_v130) = extractStridedSlice S16x128 ![256, 0] (W (Proc.devRef .tc main_arg9)) slices_S272x128_S16x128_256_0 := by
  dsimp only [hostOps2]; after_results_simp <;> rfl

theorem ops2_arg10 (W : Valuation τ sig (Elt F)) : StableHlo.after hostOps2 W (Proc.devRef .tc main_arg10) = W (Proc.devRef .tc main_arg10) := by keeps hostOps2
theorem ops2_arg11 (W : Valuation τ sig (Elt F)) : StableHlo.after hostOps2 W (Proc.devRef .tc main_arg11) = W (Proc.devRef .tc main_arg11) := by keeps hostOps2
theorem ops2_arg12 (W : Valuation τ sig (Elt F)) : StableHlo.after hostOps2 W (Proc.devRef .tc main_arg12) = W (Proc.devRef .tc main_arg12) := by keeps hostOps2

end Cert.KernelIdeal.Fold

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibRowBias.lean ====
/-
  A DENSE LAYER WHOSE BIAS ARRIVES AS ONE ROW, AND THE RECTIFIER, at the ideal values.

  Stated over LibDenseRow's dense layer `layerArr` and activation `actArr`.  A kernel often receives
  its bias already laid out as a one-row array `[1, N]` (the reshape from `[N]` is done outside the kernel); the body then
  casts `[1, N]` to itself and broadcasts it over the rows.  Read here at an index `(p, c)` and as a whole array generic in
  the row count:
  • `klayer1_apply`, `klayer1Arr`: a matrix product into the zero accumulator plus such a bias is LibDenseRow's dense layer
    `layerArr a w (unrow v)`, where `unrow v` is the bias's one row as a vector;
  • `unrow_cast`: a vector cast to one row and read back as a vector is itself (the host's reshape undone);
  • `kact`, `hact`: the larger of an array and the zero word splat over it (vector unit), or the zero constant broadcast
    from a scalar (host), is LibDenseRow's activation `actArr zf` at the level `zf`, the value of the all-zero word, which is
    never evaluated.
  No algebra of the extended reals is used.
-/
import proofs.«120905_j51728586113229_2_alg».proof.Proof.LibDenseRow

noncomputable section

open scoped BigOperators

namespace Cert.RowBias

open Idealize.ShloMosaic Idealize.ShloMosaic.ValueIdx Cert.DenseRow

/-- The one row of a `[1, N]` array, as a vector of `N` numbers. -/
def unrow {N : ℕ} (v : (⟨2, ![1, N]⟩ : Shape).Idx → EReal) : (⟨1, ![N]⟩ : Shape).Idx → EReal :=
  fun i => v (ix2 (0 : Fin 1) (i 0))

theorem unrow_apply {N : ℕ} (v : (⟨2, ![1, N]⟩ : Shape).Idx → EReal) (j : Fin N) : unrow v (ix1 j) = v (ix2 (0 : Fin 1) j) := rfl

/-- A vector cast to one row and read back as a vector is itself. -/
theorem unrow_cast {N : ℕ} (x : (⟨1, ![N]⟩ : Shape).Idx → EReal) (h : (⟨1, ![N]⟩ : Shape).ShapeCasts ⟨2, ![1, N]⟩) :
    unrow (shapeCast ⟨2, ![1, N]⟩ x h) = x := by
  funext i
  rw [eq_ix1 i]
  exact shapeCast_a_1a_apply x h 0 (i 0)

/-- The level a rectifier compares with: the value of the all-zero word. -/
def zf : EReal := Ideal.ofBits .f32 0x00000000#32

/-! ## The vector unit's layer with a one-row bias -/

/-- A matrix product into the zero accumulator plus a one-row bias `[1, N]` cast to itself and broadcast over the rows,
    read at `(p, c)`: the dense layer of row `p` with the bias's one row. -/
theorem klayer1_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩)
    (p : Fin R) (c : Fin N) :
    addf (matmul d prec a w (constant ⟨2, ![R, N]⟩ .f32 0x00000000#32))
        (broadcastTo ⟨2, ![R, N]⟩ (shapeCast ⟨2, ![1, N]⟩ v hc) hb) (ix2 p c)
      = layer (fun k => a (ix2 p k)) (fun k j => w (ix2 k j)) (fun j => unrow v (ix1 j)) c := by
  show FloatOps.matmul d prec a w (constant ⟨2, ![R, N]⟩ .f32 0x00000000#32) (ix2 p c)
      + broadcastTo ⟨2, ![R, N]⟩ (shapeCast ⟨2, ![1, N]⟩ v hc) hb (ix2 p c) = _
  rw [Ideal.matmul_constant_zero_apply, contr_sum d hr hs hl hrr, shapeCast_self, broadcastTo_1b_ab_apply]
  rfl

/-- The same, as a whole array. -/
theorem klayer1Arr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩) :
    addf (matmul d prec a w (constant ⟨2, ![R, N]⟩ .f32 0x00000000#32))
        (broadcastTo ⟨2, ![R, N]⟩ (shapeCast ⟨2, ![1, N]⟩ v hc) hb)
      = layerArr a w (unrow v) := by
  funext i
  obtain ⟨p, c, rfl⟩ : ∃ (p : Fin R) (c : Fin N), i = ix2 p c := ⟨i 0, i 1, eq_ix2 i⟩
  exact klayer1_apply d hr hs hl hrr prec a w v hc hb p c

/-! ## The rectifier's two spellings -/

/-- On the vector unit: the larger of the array and the zero word splat over it. -/
theorem kact {s : Shape} (y : FVec Ideal s .f32) :
    maximumf y (broadcast s (Scalar.ofBits (F := Ideal) .f32 0x00000000#32)) = actArr zf y := rfl

/-- On the host: the larger of the array and the zero constant broadcast from a scalar. -/
theorem hact {s : Shape} (y : FVec Ideal s .f32) (h : (⟨0, ![]⟩ : Shape).BroadcastsInDim s ![]) :
    maximumf y (broadcastInDim s ![] h (constant (F := Ideal) ⟨0, ![]⟩ .f32 0x00000000#32)) = actArr zf y := by
  funext i
  show max (y i) (broadcastInDim s ![] h (constant (F := Ideal) ⟨0, ![]⟩ .f32 0x00000000#32) i) = max (y i) zf
  rw [broadcastInDim_apply _ h _ i ix0 (fun a => a.elim0)]
  rfl

end Cert.RowBias

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«120905_j51728586113229_2_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.LibBlockDot.lean ====
/-
  A BLOCK OF ROWS OF A MATRIX PRODUCT, at the ideal values.

  The product of an `[R, K]` array `a` and a `[K, N]` array `w` has at `(p, c)` the entry `∑ k, a (p, k) · w (k, c)`:
  row `p` of the result depends on row `p` of `a` and on nothing else of it.  So when `a` is a block of rows of a taller
  array `A` (row `p` of `a` is row `off + p` of `A`), the product of the block is the same block of rows of the product of
  `A`: a product computed block of rows by block of rows is the product of the whole.  Two spellings of the product are
  read here over the plain dimension record `DotDims.plain` (contract the left operand's columns with the right
  operand's rows, no batch axes):
  • on the vector unit, the matrix product into a zero accumulator (`kdot_apply`);
  • on the host, `dot_general` (`hdot_apply`);
  both are the sum above, so a row of the first over a block is the row of the second over the whole array
  (`kdot_rows` by coordinates, `kdot_block` at indices given by their coordinates' values).  The sums are compared term
  by term in the same order: no algebra of the extended reals is used, and nothing needs to be finite.
-/
import proofs.«120905_j51728586113229_2_alg».proof.Proof.LibPlainDot

noncomputable section

open scoped BigOperators

namespace Cert.BlockDot

open Idealize.ShloMosaic Idealize.ShloMosaic.ValueIdx Cert.DenseRow Cert.PlainDot

/-- The vector unit's product into the zero accumulator, read at `(p, c)`. -/
theorem kdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    matmul (DotDims.plain R K N) prec a w (constant ⟨2, ![R, N]⟩ .f32 0x00000000#32) (ix2 p c)
      = ∑ k : Fin K, a (ix2 p k) * w (ix2 k c) := by
  show FloatOps.matmul (DotDims.plain R K N) prec a w (constant ⟨2, ![R, N]⟩ .f32 0x00000000#32) (ix2 p c) = _
  rw [Ideal.matmul_constant_zero_apply]
  exact contr_sum (DotDims.plain R K N) rfl rfl (lhs_at R K N) (rhs_at R K N) a w p c

/-- The host's `dot_general`, read at `(p, c)`: the same sum. -/
theorem hdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    Host.dotGeneral (DotDims.plain R K N) prec a w (ix2 p c) = ∑ k : Fin K, a (ix2 p k) * w (ix2 k c) := by
  simp only [Host.dotGeneral]
  rw [Ideal.dotGeneral_apply]
  exact contr_sum (DotDims.plain R K N) rfl rfl (lhs_at R K N) (rhs_at R K N) a w p c

/-- Row `p` of the vector unit's product of `a` is row `p'` of the host's product of `A` when row `p` of `a` is row `p'`
    of `A` and the right operands agree on column `c`. -/
theorem kdot_rows {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (p : Fin R) (p' : Fin R') (c : Fin N)
    (ha : ∀ k : Fin K, (a (ix2 p k) : EReal) = A (ix2 p' k)) (hw : ∀ k : Fin K, (w (ix2 k c) : EReal) = W (ix2 k c)) :
    (matmul (DotDims.plain R K N) prec a w (constant ⟨2, ![R, N]⟩ .f32 0x00000000#32) (ix2 p c) : EReal)
      = Host.dotGeneral (DotDims.plain R' K N) prec' A W (ix2 p' c) := by
  rw [kdot_apply, hdot_apply]
  exact Finset.sum_congr rfl fun k _ => by rw [ha k, hw k]

/-- The same at indices given by the values of their coordinates: the output index `j` of the block and the output index
    `i` of the whole array name the same column, and `i`'s row is `j`'s row moved down by `off`; the block `a` is `A` read
    `off` rows down; the right operands are one array. -/
theorem kdot_block {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (off : ℕ)
    (j : (⟨2, ![R, N]⟩ : Shape).Idx) (i : (⟨2, ![R', N]⟩ : Shape).Idx)
    (hi0 : (i 0).val = off + (j 0).val) (hi1 : (i 1).val = (j 1).val)
    (ha : ∀ (y : (⟨2, ![R, K]⟩ : Shape).Idx) (z : (⟨2, ![R', K]⟩ : Shape).Idx),
      (z 0).val = off + (y 0).val → (z 1).val = (y 1).val → (a y : EReal) = A z)
    (hw : ∀ y : (⟨2, ![K, N]⟩ : Shape).Idx, (w y : EReal) = W y) :
    (matmul (DotDims.plain R K N) prec a w (constant ⟨2, ![R, N]⟩ .f32 0x00000000#32) j : EReal)
      = Host.dotGeneral (DotDims.plain R' K N) prec' A W i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  exact kdot_rows prec prec' a A w W p p' c' (fun k => ha (ix2 p k) (ix2 p' k) hi0 rfl) (fun k => hw (ix2 k c'))

end Cert.BlockDot

end
-- ==== Proof.LibRegionRows.lean ====
/-
  ROWS OF A MATRIX PRODUCT, read off a block of rows, at the ideal values.

  A grid of blocks of rows computes a matrix product block by block: the block at offset `off` holds rows
  `off, off + 1, …` of the tall left operand, the right operand is whole at every block.  Entry `(p, c)` of the block's
  product is then entry `(off + p, c)` of the product of the whole arrays, `∑ k, A (off + p, k) · W (k, c)`.  Stated
  here once for every extent, over the plain dimension record, with the block and the arrays as variables and the
  relation between them as hypotheses on coordinates; the whole-array product is the function `prodArr A W`.  The sums are
  compared term by term: no algebra of the extended reals is used.
-/
import proofs.«120905_j51728586113229_2_alg».proof.Proof.LibBlockDot

noncomputable section

open scoped BigOperators

namespace Cert.KernelIdeal.RegionValue

open Idealize.ShloMosaic Idealize.ShloMosaic.ValueIdx

/-- The offsets `(0, 0)` of a whole-buffer access are the zero function. -/
theorem off2_zero : (![0, 0] : Fin 2 → Nat) = fun _ => 0 := funext fun a => by fin_cases a <;> rfl

/-- The contents of an array of reals, as a function from its indices to the extended reals.  The identity: it only names
    the type, for a buffer whose element type is known by unfolding only. -/
abbrev realArr (s : Shape) (f : s.Idx → EReal) : s.Idx → EReal := f

/-- The product of an `[R, K]` array and a `[K, N]` array, index by index. -/
def prodArr {R K N : ℕ} (A : (⟨2, ![R, K]⟩ : Shape).Idx → EReal) (W : (⟨2, ![K, N]⟩ : Shape).Idx → EReal) :
    (⟨2, ![R, N]⟩ : Shape).Idx → EReal :=
  fun i => ∑ k : Fin K, A (ix2 (i 0) k) * W (ix2 k (i 1))

theorem prodArr_apply {R K N : ℕ} (A : (⟨2, ![R, K]⟩ : Shape).Idx → EReal) (W : (⟨2, ![K, N]⟩ : Shape).Idx → EReal)
    (p : Fin R) (c : Fin N) : prodArr A W (ix2 p c) = ∑ k : Fin K, A (ix2 p k) * W (ix2 k c) := rfl

/-- The vector unit's product of a block `a` of rows and `w`, at the block's index `y`, is the whole product at the
    array's index `i`, when `i` is `y` moved down by `off` rows, `a` is `A` read `off` rows down, and `w` is `W`. -/
theorem block_prod {R R' K N : ℕ} {φ₁ φ₂ : FTy} (prec : Option ContractPrecision)
    (a : FVec Ideal ⟨2, ![R, K]⟩ φ₁) (w : FVec Ideal ⟨2, ![K, N]⟩ φ₂)
    (A : (⟨2, ![R', K]⟩ : Shape).Idx → EReal) (W : (⟨2, ![K, N]⟩ : Shape).Idx → EReal) (off : ℕ)
    (y : (⟨2, ![R, N]⟩ : Shape).Idx) (i : (⟨2, ![R', N]⟩ : Shape).Idx)
    (hi0 : (i 0).val = off + (y 0).val) (hi1 : (i 1).val = (y 1).val)
    (ha : ∀ (u : (⟨2, ![R, K]⟩ : Shape).Idx) (z : (⟨2, ![R', K]⟩ : Shape).Idx),
      (z 0).val = off + (u 0).val → (z 1).val = (u 1).val → (a u : EReal) = A z)
    (hw : ∀ u : (⟨2, ![K, N]⟩ : Shape).Idx, (w u : EReal) = W u) :
    (matmul (DotDims.plain R K N) prec a w (constant ⟨2, ![R, N]⟩ .f32 0x00000000#32) y : EReal) = prodArr A W i := by
  obtain ⟨p, c, rfl⟩ : ∃ (p : Fin R) (c : Fin N), y = ix2 p c := ⟨y 0, y 1, eq_ix2 y⟩
  obtain ⟨p', c', rfl⟩ : ∃ (p' : Fin R') (c' : Fin N), i = ix2 p' c' := ⟨i 0, i 1, eq_ix2 i⟩
  obtain rfl : c' = c := Fin.ext hi1
  rw [Cert.BlockDot.kdot_apply, prodArr_apply]
  exact Finset.sum_congr rfl fun k _ => by rw [ha (ix2 p k) (ix2 p' k) hi0 rfl, hw (ix2 k c')]

end Cert.KernelIdeal.RegionValue

end
-- ==== Proof.LibProdRows.lean ====
/-
  A MATRIX PRODUCT AS A WHOLE ARRAY, AND SUMS OF ARRAYS, ROW BY ROW, at the ideal values.

  Over LibRegionRows' `prodArr A W` (the product of an `[R, K]` and a `[K, N]` array, entry `(p, c)` being
  `∑ k, A (p, k) · W (k, c)`), generic in every extent:
  • `kprod`: on the vector unit, the matrix product into a zero accumulator over the plain dimension record IS `prodArr`;
  • `hprod`: on the host, `dot_general` over the plain record IS `prodArr`;
  • `prodArr_rows`: row `p` of a product depends on row `p` of the left operand and on nothing else of it;
  • `addArr`, `addArr_rows`: two arrays added entry by entry, and the same locality.
  Together with LibDenseRow's `layerArr_rows` and `actArr_rows` these say that a network of products, dense layers,
  rectifiers and residual sums computed on a block of rows is that block of rows of the network computed on the whole.
  Sums are compared term by term in the same order: no algebra of the extended reals is used.
-/
import proofs.«120905_j51728586113229_2_alg».proof.Proof.LibRegionRows

noncomputable section

open scoped BigOperators

namespace Cert.ProdRows

open Idealize.ShloMosaic Idealize.ShloMosaic.ValueIdx Cert.DenseRow
open Cert.KernelIdeal.RegionValue (prodArr prodArr_apply)

/-- The vector unit's product into the zero accumulator, as a whole array. -/
theorem kprod {R K N : ℕ} {φ₁ φ₂ : FTy} (prec : Option ContractPrecision)
    (a : FVec Ideal ⟨2, ![R, K]⟩ φ₁) (w : FVec Ideal ⟨2, ![K, N]⟩ φ₂) :
    matmul (DotDims.plain R K N) prec a w (constant ⟨2, ![R, N]⟩ .f32 0x00000000#32) = prodArr a w := by
  funext i
  obtain ⟨p, c, rfl⟩ : ∃ (p : Fin R) (c : Fin N), i = ix2 p c := ⟨i 0, i 1, eq_ix2 i⟩
  exact Cert.BlockDot.kdot_apply prec a w p c

/-- The host's `dot_general`, as a whole array. -/
theorem hprod {R K N : ℕ} {φ₁ φ₂ : FTy} (prec : Option ContractPrecision)
    (a : FVec Ideal ⟨2, ![R, K]⟩ φ₁) (w : FVec Ideal ⟨2, ![K, N]⟩ φ₂) :
    Host.dotGeneral (DotDims.plain R K N) prec a w = prodArr a w := by
  funext i
  obtain ⟨p, c, rfl⟩ : ∃ (p : Fin R) (c : Fin N), i = ix2 p c := ⟨i 0, i 1, eq_ix2 i⟩
  exact Cert.BlockDot.hdot_apply prec a w p c

/-- Row `p` of a product depends on row `p` of the left operand only. -/
theorem prodArr_rows {R R' K N : ℕ} (a : (⟨2, ![R, K]⟩ : Shape).Idx → EReal) (A : (⟨2, ![R', K]⟩ : Shape).Idx → EReal)
    (w : (⟨2, ![K, N]⟩ : Shape).Idx → EReal) (p : Fin R) (p' : Fin R')
    (h : ∀ k : Fin K, a (ix2 p k) = A (ix2 p' k)) (c : Fin N) : prodArr a w (ix2 p c) = prodArr A w (ix2 p' c) := by
  rw [prodArr_apply, prodArr_apply]
  exact Finset.sum_congr rfl fun k _ => by rw [h k]

/-- Two arrays added entry by entry. -/
def addArr {s : Shape} (x y : s.Idx → EReal) : s.Idx → EReal := fun i => x i + y i

/-- On either unit, the float sum of two arrays at the ideal values. -/
theorem addf_eq {s : Shape} {φ : FTy} (x y : FVec Ideal s φ) : addf x y = addArr x y := rfl

theorem addArr_rows {R R' N : ℕ} (x y : (⟨2, ![R, N]⟩ : Shape).Idx → EReal) (X Y : (⟨2, ![R', N]⟩ : Shape).Idx → EReal)
    (p : Fin R) (p' : Fin R') (hx : ∀ k : Fin N, x (ix2 p k) = X (ix2 p' k)) (hy : ∀ k : Fin N, y (ix2 p k) = Y (ix2 p' k))
    (c : Fin N) : addArr x y (ix2 p c) = addArr X Y (ix2 p' c) := by
  show x (ix2 p c) + y (ix2 p c) = X (ix2 p' c) + Y (ix2 p' c)
  rw [hx c, hy c]

end Cert.ProdRows

end
-- ==== Proof.LibPairLayer.lean ====
/-
  A DENSE LAYER WITH TWO INPUTS, at the ideal values.

  A node of a bipartite graph keeps its own feature row `x` and receives the mean `h` of its neighbours' rows; its new row
  is  `j ↦ ((∑ k, x k · ws k j) + (∑ k, h k · wn k j)) + b j`,  optionally rectified (the larger of each entry and
  zero).  Stated here for any number `R` of rows, any inner extent `K` and any width `N`, as one whole-array function
  `pairLayer x h ws wn b` built from the product `prodArr`, the entrywise sum `addArr` and the bias repeated on every
  row (`biasRows`).  Row `p` of the result depends only on row `p` of `x` and of `h` (`pairLayer_rows`), so the layer of
  a block of rows is that block of rows of the layer of the whole arrays.  Two spellings are shown equal to it:
  • on the vector unit, two matrix products into zero accumulators over operands whose change of format is the identity,
    added, plus a one-row bias `[1, N]` broadcast over the rows (`kpair`), and the same under the rectifier with a splat
    zero (`kpair_relu`);
  • on the host, two `dot_general`s added, plus the bias `[N]` broadcast to one row and then over the rows (`hpair`), and
    the same under the rectifier with the zero constant broadcast from a scalar (`hpair_relu`).
  The sums are compared term by term in the order written: no sum is regrouped and nothing is assumed finite.
-/
import proofs.«120905_j51728586113229_2_alg».proof.Proof.LibRowBias
import proofs.«120905_j51728586113229_2_alg».proof.Proof.LibProdRows

noncomputable section

open scoped BigOperators

namespace Cert.PairLayer

open Idealize.ShloMosaic Idealize.ShloMosaic.ValueIdx Cert.DenseRow Cert.RowBias Cert.ProdRows
open Cert.KernelIdeal.RegionValue (prodArr prodArr_apply)

/-! ## The bias on every row -/

/-- A vector of `N` numbers repeated on each of `R` rows. -/
def biasRows {R N : ℕ} (b : (⟨1, ![N]⟩ : Shape).Idx → EReal) : (⟨2, ![R, N]⟩ : Shape).Idx → EReal :=
  fun i => b (ix1 (i 1))

theorem biasRows_apply {R N : ℕ} (b : (⟨1, ![N]⟩ : Shape).Idx → EReal) (p : Fin R) (c : Fin N) :
    biasRows (R := R) b (ix2 p c) = b (ix1 c) := rfl

/-- On the vector unit: a one-row array cast to itself and broadcast over the rows repeats its row. -/
theorem kbias {R N : ℕ} (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩) :
    broadcastTo ⟨2, ![R, N]⟩ (shapeCast ⟨2, ![1, N]⟩ v hc) hb = biasRows (unrow v) := by
  funext i
  obtain ⟨p, c, rfl⟩ : ∃ (p : Fin R) (c : Fin N), i = ix2 p c := ⟨i 0, i 1, eq_ix2 i⟩
  rw [shapeCast_self, broadcastTo_1b_ab_apply]
  rfl

/-- On the host: a vector broadcast to one row and then over the rows repeats it. -/
theorem hbias {R N : ℕ} (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    broadcastInDim ⟨2, ![R, N]⟩ ![0, 1] h2 (broadcastInDim ⟨2, ![1, N]⟩ ![1] h1 b) = biasRows b := by
  funext i
  obtain ⟨p, c, rfl⟩ : ∃ (p : Fin R) (c : Fin N), i = ix2 p c := ⟨i 0, i 1, eq_ix2 i⟩
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  rfl

/-! ## The layer -/

/-- `x · ws + h · wn + b` on every row. -/
def pairLayer {R K N : ℕ} (x h : (⟨2, ![R, K]⟩ : Shape).Idx → EReal) (ws wn : (⟨2, ![K, N]⟩ : Shape).Idx → EReal)
    (b : (⟨1, ![N]⟩ : Shape).Idx → EReal) : (⟨2, ![R, N]⟩ : Shape).Idx → EReal :=
  addArr (addArr (prodArr x ws) (prodArr h wn)) (biasRows b)

theorem pairLayer_apply {R K N : ℕ} (x h : (⟨2, ![R, K]⟩ : Shape).Idx → EReal) (ws wn : (⟨2, ![K, N]⟩ : Shape).Idx → EReal)
    (b : (⟨1, ![N]⟩ : Shape).Idx → EReal) (p : Fin R) (c : Fin N) :
    pairLayer x h ws wn b (ix2 p c)
      = ((∑ k : Fin K, x (ix2 p k) * ws (ix2 k c)) + (∑ k : Fin K, h (ix2 p k) * wn (ix2 k c))) + b (ix1 c) := rfl

/-- Row `p` of the layer depends on row `p` of the two tall operands only. -/
theorem pairLayer_rows {R R' K N : ℕ} (x h : (⟨2, ![R, K]⟩ : Shape).Idx → EReal) (X H : (⟨2, ![R', K]⟩ : Shape).Idx → EReal)
    (ws wn : (⟨2, ![K, N]⟩ : Shape).Idx → EReal) (b : (⟨1, ![N]⟩ : Shape).Idx → EReal) (p : Fin R) (p' : Fin R')
    (hx : ∀ k : Fin K, x (ix2 p k) = X (ix2 p' k)) (hh : ∀ k : Fin K, h (ix2 p k) = H (ix2 p' k)) (c : Fin N) :
    pairLayer x h ws wn b (ix2 p c) = pairLayer X H ws wn b (ix2 p' c) := by
  rw [pairLayer_apply, pairLayer_apply]
  rw [show (∑ k : Fin K, x (ix2 p k) * ws (ix2 k c)) = ∑ k : Fin K, X (ix2 p' k) * ws (ix2 k c) from
      Finset.sum_congr rfl fun k _ => by rw [hx k],
    show (∑ k : Fin K, h (ix2 p k) * wn (ix2 k c)) = ∑ k : Fin K, H (ix2 p' k) * wn (ix2 k c) from
      Finset.sum_congr rfl fun k _ => by rw [hh k]]

/-- The same under the rectifier. -/
theorem relu_pairLayer_rows {R R' K N : ℕ} (x h : (⟨2, ![R, K]⟩ : Shape).Idx → EReal) (X H : (⟨2, ![R', K]⟩ : Shape).Idx → EReal)
    (ws wn : (⟨2, ![K, N]⟩ : Shape).Idx → EReal) (b : (⟨1, ![N]⟩ : Shape).Idx → EReal) (p : Fin R) (p' : Fin R')
    (hx : ∀ k : Fin K, x (ix2 p k) = X (ix2 p' k)) (hh : ∀ k : Fin K, h (ix2 p k) = H (ix2 p' k)) (c : Fin N) :
    actArr zf (pairLayer x h ws wn b) (ix2 p c) = actArr zf (pairLayer X H ws wn b) (ix2 p' c) :=
  actArr_rows zf _ _ p p' (fun j => pairLayer_rows x h X H ws wn b p p' hx hh j) c

/-! ## The vector unit's spelling -/

/-- Two products into zero accumulators over operands cast to themselves and changed of format, added, plus the one-row
    bias broadcast over the rows. -/
theorem kpair {R K N : ℕ} (x0 x1 : FVec Ideal ⟨2, ![R, K]⟩ .f32) (x2 x3 : FVec Ideal ⟨2, ![K, N]⟩ .f32)
    (x4 : FVec Ideal ⟨2, ![1, N]⟩ .f32)
    (hc0 : (⟨2, ![R, K]⟩ : Shape).ShapeCasts ⟨2, ![R, K]⟩)
    (hc4 : (⟨2, ![1, N]⟩ : Shape).ShapeCasts ⟨2, ![1, N]⟩) (hb4 : (⟨2, ![1, N]⟩ : Shape).Broadcasts ⟨2, ![R, N]⟩)
    (hbits : FTy.bf16.bits < FTy.f32.bits) :
    addf (addf
        (matmul (DotDims.plain R K N) none (truncf .bf16 (shapeCast ⟨2, ![R, K]⟩ x0 hc0) hbits) (truncf .bf16 x2 hbits)
          (constant ⟨2, ![R, N]⟩ .f32 0x00000000#32))
        (matmul (DotDims.plain R K N) none (truncf .bf16 (shapeCast ⟨2, ![R, K]⟩ x1 hc0) hbits) (truncf .bf16 x3 hbits)
          (constant ⟨2, ![R, N]⟩ .f32 0x00000000#32)))
      (broadcastTo ⟨2, ![R, N]⟩ (shapeCast ⟨2, ![1, N]⟩ x4 hc4) hb4)
      = pairLayer x0 x1 x2 x3 (unrow x4) := by
  rw [kbias, kprod, kprod, shapeCast_self, shapeCast_self]
  rfl

/-- The same under the rectifier: the larger of the layer and the zero word splat over it. -/
theorem kpair_relu {R K N : ℕ} (x0 x1 : FVec Ideal ⟨2, ![R, K]⟩ .f32) (x2 x3 : FVec Ideal ⟨2, ![K, N]⟩ .f32)
    (x4 : FVec Ideal ⟨2, ![1, N]⟩ .f32)
    (hc0 : (⟨2, ![R, K]⟩ : Shape).ShapeCasts ⟨2, ![R, K]⟩)
    (hc4 : (⟨2, ![1, N]⟩ : Shape).ShapeCasts ⟨2, ![1, N]⟩) (hb4 : (⟨2, ![1, N]⟩ : Shape).Broadcasts ⟨2, ![R, N]⟩)
    (hbits : FTy.bf16.bits < FTy.f32.bits) :
    maximumf (addf (addf
        (matmul (DotDims.plain R K N) none (truncf .bf16 (shapeCast ⟨2, ![R, K]⟩ x0 hc0) hbits) (truncf .bf16 x2 hbits)
          (constant ⟨2, ![R, N]⟩ .f32 0x00000000#32))
        (matmul (DotDims.plain R K N) none (truncf .bf16 (shapeCast ⟨2, ![R, K]⟩ x1 hc0) hbits) (truncf .bf16 x3 hbits)
          (constant ⟨2, ![R, N]⟩ .f32 0x00000000#32)))
      (broadcastTo ⟨2, ![R, N]⟩ (shapeCast ⟨2, ![1, N]⟩ x4 hc4) hb4))
      (broadcast ⟨2, ![R, N]⟩ (Scalar.ofBits (F := Ideal) .f32 0x00000000#32))
      = actArr zf (pairLayer x0 x1 x2 x3 (unrow x4)) := by
  rw [kact, kpair]

/-! ## The host's spelling -/

/-- Two `dot_general`s added, plus the bias broadcast to one row and then over the rows. -/
theorem hpair {R K N : ℕ} (x h : FVec Ideal ⟨2, ![R, K]⟩ .f32) (ws wn : FVec Ideal ⟨2, ![K, N]⟩ .f32)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (addf (Host.dotGeneral (DotDims.plain R K N) none x ws) (Host.dotGeneral (DotDims.plain R K N) none h wn))
        (broadcastInDim ⟨2, ![R, N]⟩ ![0, 1] h2 (broadcastInDim ⟨2, ![1, N]⟩ ![1] h1 b))
      = pairLayer x h ws wn b := by
  rw [hbias, hprod, hprod]
  rfl

/-- The same under the rectifier: the larger of the layer and the zero constant broadcast from a scalar. -/
theorem hpair_relu {R K N : ℕ} (x h : FVec Ideal ⟨2, ![R, K]⟩ .f32) (ws wn : FVec Ideal ⟨2, ![K, N]⟩ .f32)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (h0 : (⟨0, ![]⟩ : Shape).BroadcastsInDim ⟨2, ![R, N]⟩ ![]) :
    maximumf (addf (addf (Host.dotGeneral (DotDims.plain R K N) none x ws) (Host.dotGeneral (DotDims.plain R K N) none h wn))
        (broadcastInDim ⟨2, ![R, N]⟩ ![0, 1] h2 (broadcastInDim ⟨2, ![1, N]⟩ ![1] h1 b)))
      (broadcastInDim ⟨2, ![R, N]⟩ ![] h0 (constant (F := Ideal) ⟨0, ![]⟩ .f32 0x00000000#32))
      = actArr zf (pairLayer x h ws wn b) := by
  rw [hact, hpair]

end Cert.PairLayer

end
-- ==== Proof.LibEdgeStages.lean ====
/-
  THE NETWORK'S DENSE STAGES AS WHOLE-ARRAY FUNCTIONS, at the ideal values.

  Three dense stages of a two-layer graph convolution with an edge read-out, each for any number `R` of rows so that a
  block of rows and the whole array are the same function at two row counts:
  • `affRelu z sc sh`: every entry of `z` scaled by its column's entry of the one-row array `sc`, shifted by its
    column's entry of `sh`, and rectified — a batch normalisation folded into one multiplication and one addition;
  • `nodeStage z sc sh w`: the product of that with the weight `w`;
  • `edgeHidden`, `edgeOut`: the edge read-out — three products (source row, destination row, edge attributes, each
    with its own band of the first weight) added left to right, a bias, the rectifier, a product with a one-column
    weight and a one-entry bias.
  `band off w` is the block of `K` rows of a tall weight `w` starting at row `off`.
-/
import proofs.«120905_j51728586113229_2_alg».proof.Proof.LibPairLayer

noncomputable section

open scoped BigOperators

namespace Cert.Gcn

open Idealize.ShloMosaic Idealize.ShloMosaic.ValueIdx
open Cert.KernelIdeal.RegionValue Cert.ProdRows Cert.PairLayer Cert.DenseRow Cert.RowBias

/-- Scale by the column's entry of `sc`, shift by the column's entry of `sh`, rectify. -/
def affRelu {R N : ℕ} (z : (⟨2, ![R, N]⟩ : Shape).Idx → EReal) (sc sh : (⟨2, ![1, N]⟩ : Shape).Idx → EReal) :
    (⟨2, ![R, N]⟩ : Shape).Idx → EReal :=
  fun i => max (z i * sc (ix2 (0 : Fin 1) (i 1)) + sh (ix2 (0 : Fin 1) (i 1))) zf

theorem affRelu_apply {R N : ℕ} (z : (⟨2, ![R, N]⟩ : Shape).Idx → EReal) (sc sh : (⟨2, ![1, N]⟩ : Shape).Idx → EReal)
    (p : Fin R) (c : Fin N) :
    affRelu z sc sh (ix2 p c) = max (z (ix2 p c) * sc (ix2 (0 : Fin 1) c) + sh (ix2 (0 : Fin 1) c)) zf := rfl

/-- The second node stage: the folded normalisation, the rectifier, the product with the weight. -/
def nodeStage {R K N : ℕ} (z : (⟨2, ![R, K]⟩ : Shape).Idx → EReal) (sc sh : (⟨2, ![1, K]⟩ : Shape).Idx → EReal)
    (w : (⟨2, ![K, N]⟩ : Shape).Idx → EReal) : (⟨2, ![R, N]⟩ : Shape).Idx → EReal :=
  prodArr (affRelu z sc sh) w

/-- A one-entry bias repeated on every row of a one-column array. -/
def biasOne {R : ℕ} (b : (⟨1, ![1]⟩ : Shape).Idx → EReal) : (⟨2, ![R, 1]⟩ : Shape).Idx → EReal :=
  fun _ => b (ix1 (0 : Fin 1))

/-- The edge read-out's hidden layer. -/
def edgeHidden {R K E N : ℕ} (zs zd : (⟨2, ![R, K]⟩ : Shape).Idx → EReal) (ea : (⟨2, ![R, E]⟩ : Shape).Idx → EReal)
    (ws wd : (⟨2, ![K, N]⟩ : Shape).Idx → EReal) (we : (⟨2, ![E, N]⟩ : Shape).Idx → EReal)
    (b : (⟨1, ![N]⟩ : Shape).Idx → EReal) : (⟨2, ![R, N]⟩ : Shape).Idx → EReal :=
  actArr zf (addArr (addArr (addArr (prodArr zs ws) (prodArr zd wd)) (prodArr ea we)) (biasRows b))

/-- The edge read-out: one number per row. -/
def edgeOut {R K E N : ℕ} (zs zd : (⟨2, ![R, K]⟩ : Shape).Idx → EReal) (ea : (⟨2, ![R, E]⟩ : Shape).Idx → EReal)
    (ws wd : (⟨2, ![K, N]⟩ : Shape).Idx → EReal) (we : (⟨2, ![E, N]⟩ : Shape).Idx → EReal)
    (b : (⟨1, ![N]⟩ : Shape).Idx → EReal) (w2 : (⟨2, ![N, 1]⟩ : Shape).Idx → EReal)
    (b2 : (⟨1, ![1]⟩ : Shape).Idx → EReal) : (⟨2, ![R, 1]⟩ : Shape).Idx → EReal :=
  addArr (prodArr (edgeHidden zs zd ea ws wd we b) w2) (biasOne b2)

/-- `K` rows of a tall array starting at row `off`. -/
def band {T K N : ℕ} (off : ℕ) (h : off + K ≤ T) (w : (⟨2, ![T, N]⟩ : Shape).Idx → EReal) :
    (⟨2, ![K, N]⟩ : Shape).Idx → EReal :=
  fun i => w (ix2 ⟨off + (i 0).val, by have h0 : (i 0).val < K := (i 0).isLt; omega⟩ (i 1))

end Cert.Gcn

end
-- ==== Proof.Reg0.lean ====
/-
  THE FIRST NODE PRODUCT AS A WHOLE ARRAY.

  The first pallas_call multiplies the node features, a tall array of 50000 rows and 128 columns, by a 128 × 128 weight.
  Its grid has 25 points; point `t` holds rows `2000 t, …, 2000 t + 1999` of the features (a block of 2000 rows) and
  the whole weight, and writes the product of the two to rows `2000 t, …` of the output.  Row `r` of a product depends
  on row `r` of the left operand only, so what point `t` writes is rows `2000 t, …` of the product of the WHOLE
  features with the weight; row `r` of the output is written by point `r / 2000`; hence the output array ends holding
  that whole product, `prodArr` of the two arrays as the call finds them.  The roundings inside the body (to a narrower
  float and back) are the identity at the ideal values.
-/
import proofs.«120905_j51728586113229_2_alg».proof.Proof.Gen.KernelIdeal.Frame
import proofs.«120905_j51728586113229_2_alg».proof.Proof.LibEdgeStages
import Idealize.ShloMosaic.Lib.Pipeline.Value

noncomputable section

namespace Cert.KernelIdeal.RegVal

open Cert.KernelIdeal Cert.KernelIdeal.Gen Idealize.ShloMosaic Idealize.ShloMosaic.ValueIdx Cert.KernelIdeal.RegionValue Cert.Gcn
open Idealize.ShloMosaic.TcCoe
open Idealize.ShloMosaic.Pipeline (Dat)

/-- The body's product at the block's index `y` is the whole product at the array's index `i`, when `i` is `y` moved
    down by `off` rows, the block `x` is the array `A` read `off` rows down, and `w` is `W`. -/
theorem pay0_apply (x : Vec Ideal S2000x128 .f32) (w : Vec Ideal S128x128 .f32)
    (A : S50000x128.Idx → EReal) (W : S128x128.Idx → EReal) (off : ℕ)
    (y : S2000x128.Idx) (i : S50000x128.Idx)
    (hi0 : (i 0).val = off + (y 0).val) (hi1 : (i 1).val = (y 1).val)
    (hx : ∀ (u : S2000x128.Idx) (z : S50000x128.Idx), (z 0).val = off + (u 0).val → (z 1).val = (u 1).val → (x u : EReal) = A z)
    (hw : ∀ u : S128x128.Idx, (w u : EReal) = W u) :
    (k0_pay1 (F := Ideal) x w y : EReal) = prodArr A W i := by
  unfold k0_pay1
  show (matmul (DotDims.plain 2000 128 128) none (truncf .bf16 x bitsLt_bf16_f32) (truncf .bf16 w bitsLt_bf16_f32)
    (constant (F := Ideal) ⟨2, ![2000, 128]⟩ .f32 0x00000000#32) y : EReal) = _
  exact block_prod none (truncf .bf16 x bitsLt_bf16_f32) (truncf .bf16 w bitsLt_bf16_f32) A W off y i hi0 hi1 hx hw

variable (V : (c : Dev nD) → (b : Ref sig .tc) → Buf (Elt Ideal) ((c : Thread nD τ).loc b))

/-- The printed index maps, decided over the 25 points: the features' and the output's block index is `(t, 0)`, the
    weight's `(0, 0)`. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The features' block at point `t` is the features read `2000 t` rows down. -/
theorem xblk0_apply (c : Dev nD) (t : Fin cfg0.N) (u : S2000x128.Idx) (z : S50000x128.Idx)
    (h0 : (z 0).val = 2000 * t.val + (u 0).val) (h1 : (z 1).val = (u 1).val) :
    ((iblk0 (F := Ideal) V c 0 t : Vec Ideal S2000x128 .f32) u : EReal) = realArr S50000x128 (V c main_arg0) z := by
  obtain ⟨e0, e1, -, -, -, -⟩ := idx0 t
  show realArr S50000x128 (V c main_arg0) (((cfg0.win 0).blk t).view.emb u) = _
  refine congrArg (realArr S50000x128 (V c main_arg0)) (funext fun a => Fin.ext ?_)
  match a with
  | ⟨0, _⟩ => show win0_0.index t (0 : Fin 2) * 2000 + 1 * (u 0).val = (z 0).val; rw [e0, h0]; omega
  | ⟨1, _⟩ => show win0_0.index t (1 : Fin 2) * 128 + 1 * (u 1).val = (z 1).val; rw [e1, h1]; omega

/-- The weight's block at every point is the weight. -/
theorem wblk0_apply (c : Dev nD) (t : Fin cfg0.N) (u : S128x128.Idx) :
    ((iblk0 (F := Ideal) V c 1 t : Vec Ideal S128x128 .f32) u : EReal) = realArr S128x128 (V c main_arg3) u := by
  obtain ⟨-, -, e2, e3, -, -⟩ := idx0 t
  show realArr S128x128 (V c main_arg3) (((cfg0.win 1).blk t).view.emb u) = _
  refine congrArg (realArr S128x128 (V c main_arg3)) (funext fun a => Fin.ext ?_)
  match a with
  | ⟨0, _⟩ => show win0_1.index t (0 : Fin 2) * 128 + 1 * (u 0).val = (u 0).val; rw [e2]; omega
  | ⟨1, _⟩ => show win0_1.index t (1 : Fin 2) * 128 + 1 * (u 1).val = (u 1).val; rw [e3]; omega

/-- What point `t` writes back is rows `2000 t, …` of the whole product. -/
theorem written0 (c : Dev nD) (t : Fin cfg0.N) :
    (dat0 (F := Ideal) V c).flushed 2 t = ((cfg0.win 2).blk t).view.read (Elt Ideal)
      (prodArr (realArr S50000x128 (V c main_arg0)) (realArr S128x128 (V c main_arg3))) := by
  show (cfg0.win 2).cut (grid0.coords t) ((dat0 (F := Ideal) V c).after 2 t) = _
  rw [after0_2]
  unfold out0_2
  rw [View.canon_unit_zero off2_zero]
  simp only [View.ld_unit_zero (S := S2000x128) off2_zero, View.ld_unit_zero (S := S128x128) off2_zero]
  obtain ⟨-, -, -, -, e4, e5⟩ := idx0 t
  funext j
  show (k0_pay1 (F := Ideal) (iblk0 V c 0 t) (iblk0 V c 1 t) j : EReal)
    = prodArr (realArr S50000x128 (V c main_arg0)) (realArr S128x128 (V c main_arg3)) (((cfg0.win 2).blk t).view.emb j)
  refine pay0_apply (iblk0 V c 0 t) (iblk0 V c 1 t) (realArr S50000x128 (V c main_arg0)) (realArr S128x128 (V c main_arg3))
    (2000 * t.val) j (((cfg0.win 2).blk t).view.emb j) ?_ ?_ (xblk0_apply V c t) (wblk0_apply V c t)
  · show win0_2.index t (0 : Fin 2) * 2000 + 1 * (j 0).val = 2000 * t.val + (j 0).val; rw [e4]; omega
  · show win0_2.index t (1 : Fin 2) * 128 + 1 * (j 1).val = (j 1).val; rw [e5]; omega

/-- An index of the output is in point `t`'s block iff each coordinate is in the block's range on its axis. -/
theorem mem_out0 (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v4).slice (win0_2.rect t)).set ↔ _
  rw [View.set_slice_whole, Rect.mem_set_unit]
  exact Iff.rfl

/-- Row `r` of the output is in the block of point `r / 2000`. -/
theorem covered0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have ht : (i 0).val / 2000 < cfg0.N := by rw [show cfg0.N = 25 from N_0]; omega
  obtain ⟨-, -, -, -, e4, e5⟩ := idx0 ⟨(i 0).val / 2000, ht⟩
  refine ⟨⟨(i 0).val / 2000, ht⟩, flush0_2 _, ?_⟩
  rw [mem_out0]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 128 ≤ (i 1).val
      ∧ (i 1).val < win0_2.index ⟨(i 0).val / 2000, ht⟩ (1 : Fin 2) * 128 + 128
    rw [e5]; omega

/-- THE ARRAY the first call leaves: the product of the features and the weight as the call finds them. -/
theorem final0 (c : Dev nD) :
    (dat0 (F := Ideal) V c).arrAt 2 cfg0.N
      = prodArr (realArr S50000x128 (V c main_arg0)) (realArr S128x128 (V c main_arg3)) :=
  (dat0 (F := Ideal) V c).arrAt_eq_of_cover 2 _ (fun t _ => written0 V c t) covered0

end Cert.KernelIdeal.RegVal

end
-- ==== Proof.Reg1.lean ====
/-
  THE SECOND NODE STAGE AS A WHOLE ARRAY.

  The second pallas_call takes a tall array `z` of 50000 rows and 128 columns, two one-row arrays `sc` and `sh` of 128
  entries (a batch normalisation folded into one scale and one shift per column) and a 128 × 128 weight `w`.  Every entry of
  `z` is multiplied by its column's scale, shifted by its column's shift and rectified, and the result is multiplied by `w`.
  Its grid has 25 points; point `t` holds rows `2000 t, …, 2000 t + 1999` of `z` (a block of 2000 rows) and `sc`, `sh`, `w`
  whole, and writes its result to rows `2000 t, …` of the output.  Scaling, shifting and rectifying act entry by entry
  with the column's constants, and row `r` of a product depends on row `r` of the left operand only; so what point `t`
  writes is rows `2000 t, …` of the stage computed on the WHOLE array; row `r` of the output is written by point
  `r / 2000`; hence the output array ends holding `nodeStage z sc sh w` of the four arrays as the call finds them.  The
  casts of a shape to itself and the roundings inside the body are the identity at the ideal values.
-/
import proofs.«120905_j51728586113229_2_alg».proof.Proof.Gen.KernelIdeal.Frame
import proofs.«120905_j51728586113229_2_alg».proof.Proof.LibEdgeStages
import Idealize.ShloMosaic.Lib.Pipeline.Value
import Idealize.ShloMosaic.Lib.ValueLayout

noncomputable section

namespace Cert.KernelIdeal.RegVal

open Cert.KernelIdeal Cert.KernelIdeal.Gen Idealize.ShloMosaic Idealize.ShloMosaic.ValueIdx Cert.KernelIdeal.RegionValue Cert.Gcn
open Idealize.ShloMosaic.TcCoe Cert.RowBias
open Idealize.ShloMosaic.Pipeline (Dat)

/-- One entry of the body's scaled, shifted and rectified block: the entry times its column's scale plus its column's
    shift, or the zero level if that is larger. -/
theorem act1_apply (x : Vec Ideal S2000x128 .f32) (sc sh : Vec Ideal S1x128 .f32)
    (h1 : S2000x128.ShapeCasts S2000x128) (h2 : S1x128.ShapeCasts S1x128) (hb : S1x128.Broadcasts S2000x128)
    (p : Fin 2000) (k : Fin 128) :
    (maximumf (addf (mulf (shapeCast S2000x128 x h1) (broadcastTo S2000x128 (shapeCast S1x128 sc h2) hb))
        (broadcastTo S2000x128 (shapeCast S1x128 sh h2) hb))
      (broadcast S2000x128 (Scalar.ofBits (F := Ideal) .f32 0x00000000#32)) (ix2 p k) : EReal)
      = max ((x (ix2 p k) : EReal) * sc (ix2 (0 : Fin 1) k) + sh (ix2 (0 : Fin 1) k)) zf := by
  rw [shapeCast_self, shapeCast_self, shapeCast_self]
  show max ((x (ix2 p k) : EReal) * broadcastTo S2000x128 sc hb (ix2 p k) + broadcastTo S2000x128 sh hb (ix2 p k)) zf = _
  rw [broadcastTo_1b_ab_apply, broadcastTo_1b_ab_apply]

/-- The body's result at the block's index `y` is the whole stage at the array's index `i`, when `i` is `y` moved down
    by `off` rows, the block `x` is the array `Z` read `off` rows down, and the scale, the shift and the weight are
    `SC`, `SH`, `W`. -/
theorem pay1_apply (x : Vec Ideal S2000x128 .f32) (sc sh : Vec Ideal S1x128 .f32) (w : Vec Ideal S128x128 .f32)
    (Z : S50000x128.Idx → EReal) (SC SH : S1x128.Idx → EReal) (W : S128x128.Idx → EReal) (off : ℕ)
    (y : S2000x128.Idx) (i : S50000x128.Idx)
    (hi0 : (i 0).val = off + (y 0).val) (hi1 : (i 1).val = (y 1).val)
    (hx : ∀ (u : S2000x128.Idx) (z : S50000x128.Idx), (z 0).val = off + (u 0).val → (z 1).val = (u 1).val → (x u : EReal) = Z z)
    (hsc : ∀ u : S1x128.Idx, (sc u : EReal) = SC u) (hsh : ∀ u : S1x128.Idx, (sh u : EReal) = SH u)
    (hw : ∀ u : S128x128.Idx, (w u : EReal) = W u) :
    (k1_pay1 (F := Ideal) x sc sh w y : EReal) = nodeStage Z SC SH W i := by
  unfold k1_pay1 nodeStage
  show (matmul (DotDims.plain 2000 128 128) none
      (truncf .bf16 (maximumf (addf (mulf (shapeCast S2000x128 x shapeCasts_S2000x128_S2000x128)
          (broadcastTo S2000x128 (shapeCast S1x128 sc shapeCasts_S1x128_S1x128) broadcasts_S1x128_S2000x128))
          (broadcastTo S2000x128 (shapeCast S1x128 sh shapeCasts_S1x128_S1x128) broadcasts_S1x128_S2000x128))
        (broadcast S2000x128 (Scalar.ofBits (F := Ideal) .f32 0x00000000#32))) bitsLt_bf16_f32)
      (truncf .bf16 w bitsLt_bf16_f32)
      (constant (F := Ideal) ⟨2, ![2000, 128]⟩ .f32 0x00000000#32) y : EReal) = prodArr (affRelu Z SC SH) W i
  refine block_prod none _ _ (affRelu Z SC SH) W off y i hi0 hi1 (fun u z h0 h1 => ?_) hw
  obtain ⟨p, k, rfl⟩ : ∃ (p : Fin 2000) (k : Fin 128), u = ix2 p k := ⟨u 0, u 1, eq_ix2 u⟩
  obtain ⟨p', k', rfl⟩ : ∃ (p' : Fin 50000) (k' : Fin 128), z = ix2 p' k' := ⟨z 0, z 1, eq_ix2 z⟩
  obtain rfl : k' = k := Fin.ext h1
  rw [affRelu_apply]
  refine (act1_apply x sc sh _ _ _ p k').trans ?_
  rw [hx (ix2 p k') (ix2 p' k') h0 rfl, hsc, hsh]

variable (V : (c : Dev nD) → (b : Ref sig .tc) → Buf (Elt Ideal) ((c : Thread nD τ).loc b))

/-- The printed index maps, decided over the 25 points: the tall input's and the output's block index is `(t, 0)`, the
    weight's, the scale's and the shift's `(0, 0)`. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The tall input's block at point `t` is the input read `2000 t` rows down. -/
theorem xblk1_apply (c : Dev nD) (t : Fin cfg1.N) (u : S2000x128.Idx) (z : S50000x128.Idx)
    (h0 : (z 0).val = 2000 * t.val + (u 0).val) (h1 : (z 1).val = (u 1).val) :
    ((iblk1 (F := Ideal) V c 0 t : Vec Ideal S2000x128 .f32) u : EReal) = realArr S50000x128 (V c main_v48) z := by
  obtain ⟨e0, e1, -⟩ := idx1 t
  show realArr S50000x128 (V c main_v48) (((cfg1.win 0).blk t).view.emb u) = _
  refine congrArg (realArr S50000x128 (V c main_v48)) (funext fun a => Fin.ext ?_)
  match a with
  | ⟨0, _⟩ => show win1_0.index t (0 : Fin 2) * 2000 + 1 * (u 0).val = (z 0).val; rw [e0, h0]; omega
  | ⟨1, _⟩ => show win1_0.index t (1 : Fin 2) * 128 + 1 * (u 1).val = (z 1).val; rw [e1, h1]; omega

/-- The weight's block at every point is the weight. -/
theorem wblk1_apply (c : Dev nD) (t : Fin cfg1.N) (u : S128x128.Idx) :
    ((iblk1 (F := Ideal) V c 1 t : Vec Ideal S128x128 .f32) u : EReal) = realArr S128x128 (V c main_arg7) u := by
  obtain ⟨-, -, e2, e3, -⟩ := idx1 t
  show realArr S128x128 (V c main_arg7) (((cfg1.win 1).blk t).view.emb u) = _
  refine congrArg (realArr S128x128 (V c main_arg7)) (funext fun a => Fin.ext ?_)
  match a with
  | ⟨0, _⟩ => show win1_1.index t (0 : Fin 2) * 128 + 1 * (u 0).val = (u 0).val; rw [e2]; omega
  | ⟨1, _⟩ => show win1_1.index t (1 : Fin 2) * 128 + 1 * (u 1).val = (u 1).val; rw [e3]; omega

/-- The scale's block at every point is the scale. -/
theorem scblk1_apply (c : Dev nD) (t : Fin cfg1.N) (u : S1x128.Idx) :
    ((iblk1 (F := Ideal) V c 2 t : Vec Ideal S1x128 .f32) u : EReal) = realArr S1x128 (V c main_v65) u := by
  obtain ⟨-, -, -, -, e4, e5, -⟩ := idx1 t
  show realArr S1x128 (V c main_v65) (((cfg1.win 2).blk t).view.emb u) = _
  refine congrArg (realArr S1x128 (V c main_v65)) (funext fun a => Fin.ext ?_)
  match a with
  | ⟨0, _⟩ => show win1_2.index t (0 : Fin 2) * 1 + 1 * (u 0).val = (u 0).val; rw [e4]; omega
  | ⟨1, _⟩ => show win1_2.index t (1 : Fin 2) * 128 + 1 * (u 1).val = (u 1).val; rw [e5]; omega

/-- The shift's block at every point is the shift. -/
theorem shblk1_apply (c : Dev nD) (t : Fin cfg1.N) (u : S1x128.Idx) :
    ((iblk1 (F := Ideal) V c 3 t : Vec Ideal S1x128 .f32) u : EReal) = realArr S1x128 (V c main_v66) u := by
  obtain ⟨-, -, -, -, -, -, e6, e7, -⟩ := idx1 t
  show realArr S1x128 (V c main_v66) (((cfg1.win 3).blk t).view.emb u) = _
  refine congrArg (realArr S1x128 (V c main_v66)) (funext fun a => Fin.ext ?_)
  match a with
  | ⟨0, _⟩ => show win1_3.index t (0 : Fin 2) * 1 + 1 * (u 0).val = (u 0).val; rw [e6]; omega
  | ⟨1, _⟩ => show win1_3.index t (1 : Fin 2) * 128 + 1 * (u 1).val = (u 1).val; rw [e7]; omega

/-- What point `t` writes back is rows `2000 t, …` of the whole stage. -/
theorem written1 (c : Dev nD) (t : Fin cfg1.N) :
    (dat1 (F := Ideal) V c).flushed 4 t = ((cfg1.win 4).blk t).view.read (Elt Ideal)
      (nodeStage (realArr S50000x128 (V c main_v48)) (realArr S1x128 (V c main_v65)) (realArr S1x128 (V c main_v66))
        (realArr S128x128 (V c main_arg7))) := by
  show (cfg1.win 4).cut (grid1.coords t) ((dat1 (F := Ideal) V c).after 4 t) = _
  rw [after1_4]
  unfold out1_4
  rw [View.canon_unit_zero off2_zero]
  simp only [View.ld_unit_zero (S := S2000x128) off2_zero, View.ld_unit_zero (S := S128x128) off2_zero,
    View.ld_unit_zero (S := S1x128) off2_zero]
  obtain ⟨-, -, -, -, -, -, -, -, e8, e9⟩ := idx1 t
  funext j
  show (k1_pay1 (F := Ideal) (iblk1 V c 0 t) (iblk1 V c 2 t) (iblk1 V c 3 t) (iblk1 V c 1 t) j : EReal)
    = nodeStage (realArr S50000x128 (V c main_v48)) (realArr S1x128 (V c main_v65)) (realArr S1x128 (V c main_v66))
        (realArr S128x128 (V c main_arg7)) (((cfg1.win 4).blk t).view.emb j)
  refine pay1_apply (iblk1 V c 0 t) (iblk1 V c 2 t) (iblk1 V c 3 t) (iblk1 V c 1 t)
    (realArr S50000x128 (V c main_v48)) (realArr S1x128 (V c main_v65)) (realArr S1x128 (V c main_v66))
    (realArr S128x128 (V c main_arg7)) (2000 * t.val) j (((cfg1.win 4).blk t).view.emb j) ?_ ?_
    (xblk1_apply V c t) (scblk1_apply V c t) (shblk1_apply V c t) (wblk1_apply V c t)
  · show win1_4.index t (0 : Fin 2) * 2000 + 1 * (j 0).val = 2000 * t.val + (j 0).val; rw [e8]; omega
  · show win1_4.index t (1 : Fin 2) * 128 + 1 * (j 1).val = (j 1).val; rw [e9]; omega

/-- An index of the output is in point `t`'s block iff each coordinate is in the block's range on its axis. -/
theorem mem_out1 (t : Fin cfg1.N) (i : S50000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole main_v67).slice (win1_4.rect t)).set ↔ _
  rw [View.set_slice_whole, Rect.mem_set_unit]
  exact Iff.rfl

/-- Row `r` of the output is in the block of point `r / 2000`. -/
theorem covered1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have ht : (i 0).val / 2000 < cfg1.N := by rw [show cfg1.N = 25 from N_1]; omega
  obtain ⟨-, -, -, -, -, -, -, -, e8, e9⟩ := idx1 ⟨(i 0).val / 2000, ht⟩
  refine ⟨⟨(i 0).val / 2000, ht⟩, flush1_4 _, ?_⟩
  rw [mem_out1]
  intro a
  match a with
  | ⟨0, _⟩ =>
    show win1_4.index ⟨(i 0).val / 2000, ht⟩ (0 : Fin 2) * 2000 ≤ (i 0).val
      ∧ (i 0).val < win1_4.index ⟨(i 0).val / 2000, ht⟩ (0 : Fin 2) * 2000 + 2000
    rw [e8]; show (i 0).val / 2000 * 2000 ≤ (i 0).val ∧ (i 0).val < (i 0).val / 2000 * 2000 + 2000; omega
  | ⟨1, _⟩ =>
    show win1_4.index ⟨(i 0).val / 2000, ht⟩ (1 : Fin 2) * 128 ≤ (i 1).val
      ∧ (i 1).val < win1_4.index ⟨(i 0).val / 2000, ht⟩ (1 : Fin 2) * 128 + 128
    rw [e9]; omega

/-- THE ARRAY the second call leaves: the second node stage of the four arrays as the call finds them. -/
theorem final1 (c : Dev nD) :
    (dat1 (F := Ideal) V c).arrAt 4 cfg1.N
      = nodeStage (realArr S50000x128 (V c main_v48)) (realArr S1x128 (V c main_v65)) (realArr S1x128 (V c main_v66))
          (realArr S128x128 (V c main_arg7)) :=
  (dat1 (F := Ideal) V c).arrAt_eq_of_cover 4 _ (fun t _ => written1 V c t) covered1

end Cert.KernelIdeal.RegVal

end
-- ==== Proof.Reg2.lean ====
/-
  THE EDGE READ-OUT REGION'S OUTPUT ARRAY AS ONE FUNCTION OF THE ARRAYS IT FINDS, at the ideal values.

  The third region computes, for each of 800000 edges, one number: the source row, the destination row and the edge's
  attributes are each multiplied by their own band of the first weight, the three products are added left to right, a bias
  is added on every row, the result is rectified, multiplied by a one-column weight, and a one-entry bias is added.  The
  grid has 125 points; point `t` works on rows `6400 t, …, 6400 t + 6399` of the three tall operands and writes the same
  rows of the output; the weights and biases are whole at every point.

  Shown here, for arbitrary contents `V` of the arrays at the region's entry:
  • `pay2_eq`: the body's arithmetic on whole blocks is `edgeOut` of the blocks (shape casts to the same shape and changes
    of float format are the identity; each product into a zero accumulator is `prodArr`; the bias cast to one row and
    broadcast over the rows is `biasRows`, and with one column `biasOne`; the larger of an array and the splat zero word is
    `actArr zf`);
  • `edgeOut_rows`, `edgeOut_block`: row `p` of `edgeOut` depends on row `p` of the three tall operands only, so `edgeOut`
    of a block of rows at offset `off` is that block of rows of `edgeOut` of the whole arrays;
  • `idx_tall`, `idx_whole`: the row-block windows sit at block `(t, 0)`, the other windows at block zero, at every point;
  • `iblk2_W_at`, `iblk2_W_eq`: each window's block at point `t` read off its array (a block's coordinate is its block
    index times the block's size plus the coordinate inside the block);
  • `flushed2_eq`: what point `t` writes back is block `t` of `edgeOut` of the whole arrays;
  • `covered2_9`: row `r` of the output lies in the block of point `r / 6400`;
  • `final2`: the output array after the region is `edgeOut` of the nine arrays as the region finds them.
  Sums are compared term by term in the order written: no algebra of the extended reals is used and nothing is assumed finite.
-/
import proofs.«120905_j51728586113229_2_alg».proof.Proof.Gen.KernelIdeal.Frame
import proofs.«120905_j51728586113229_2_alg».proof.Proof.LibEdgeStages
import Idealize.ShloMosaic.Lib.Pipeline.Value

noncomputable section

open scoped BigOperators

namespace Cert.KernelIdeal.RegVal

open Cert.KernelIdeal Cert.KernelIdeal.Gen Idealize.ShloMosaic Idealize.ShloMosaic.ValueIdx Cert.KernelIdeal.RegionValue Cert.Gcn
open Cert.ProdRows Cert.PairLayer Cert.DenseRow Cert.RowBias
open Idealize.ShloMosaic.Pipeline (Dat)
open Idealize.ShloMosaic.TcCoe Idealize.SL.Sem

/-! ## The body's arithmetic on whole blocks -/

/-- A vector of `N` numbers cast to one row and broadcast over `R` rows repeats it on every row. -/
theorem kbiasVec {R N : ℕ} (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    broadcastTo ⟨2, ![R, N]⟩ (shapeCast ⟨2, ![1, N]⟩ b hc) hb = biasRows b := by
  funext i
  obtain ⟨p, c, rfl⟩ : ∃ (p : Fin R) (c : Fin N), i = ix2 p c := ⟨i 0, i 1, eq_ix2 i⟩
  rw [broadcastTo_1b_ab_apply, shapeCast_a_1a_apply]
  rfl

/-- With one column, the bias on every row is its one entry on every row. -/
theorem biasRows_one {R : ℕ} (b : (⟨1, ![1]⟩ : Shape).Idx → EReal) : biasRows (R := R) b = biasOne b := by
  funext i
  obtain ⟨p, c, rfl⟩ : ∃ (p : Fin R) (c : Fin 1), i = ix2 p c := ⟨i 0, i 1, eq_ix2 i⟩
  obtain rfl : c = 0 := Subsingleton.elim _ _
  rfl

set_option maxHeartbeats 400000 in
/-- The body's arithmetic on whole blocks is the edge read-out of the blocks. -/
theorem pay2_eq (v0 v2 : Vec Ideal S6400x128 .bf16) (v4 : Vec Ideal S6400x16 .bf16) (v6 v9 : Vec Ideal S128x128 .f32)
    (v12 : Vec Ideal S16x128 .f32) (v20 : Vec Ideal S128 .f32) (v27 : Vec Ideal S128x1 .f32) (v30 : Vec Ideal S1 .f32) :
    k2_pay1 (F := Ideal) v0 v2 v4 v6 v9 v12 v20 v27 v30 = edgeOut v0 v2 v4 v6 v9 v12 v20 v27 v30 := by
  unfold k2_pay1
  simp only [shapeCast_self]
  rw [kbiasVec, kbiasVec, biasRows_one]
  show addf (matmul (DotDims.plain 6400 128 1) none (truncf .bf16 (maximumf (addf (addf (addf
    (matmul (DotDims.plain 6400 128 128) none _ _ _) (matmul (DotDims.plain 6400 128 128) none _ _ _))
    (matmul (DotDims.plain 6400 16 128) none _ _ _)) _) _) _) _ _) _ = _
  rw [kprod, kprod, kprod, kprod, kact]
  rfl

/-! ## Row locality -/

/-- Row `p` of the read-out depends on row `p` of the three tall operands and on nothing else of them. -/
theorem edgeOut_rows {R R' K E N : ℕ} (zs zd : (⟨2, ![R, K]⟩ : Shape).Idx → EReal) (ea : (⟨2, ![R, E]⟩ : Shape).Idx → EReal)
    (Zs Zd : (⟨2, ![R', K]⟩ : Shape).Idx → EReal) (Ea : (⟨2, ![R', E]⟩ : Shape).Idx → EReal)
    (ws wd : (⟨2, ![K, N]⟩ : Shape).Idx → EReal) (we : (⟨2, ![E, N]⟩ : Shape).Idx → EReal)
    (b : (⟨1, ![N]⟩ : Shape).Idx → EReal) (w2 : (⟨2, ![N, 1]⟩ : Shape).Idx → EReal) (b2 : (⟨1, ![1]⟩ : Shape).Idx → EReal)
    (p : Fin R) (p' : Fin R')
    (hs : ∀ k : Fin K, zs (ix2 p k) = Zs (ix2 p' k)) (hd : ∀ k : Fin K, zd (ix2 p k) = Zd (ix2 p' k))
    (he : ∀ k : Fin E, ea (ix2 p k) = Ea (ix2 p' k)) (c : Fin 1) :
    edgeOut zs zd ea ws wd we b w2 b2 (ix2 p c) = edgeOut Zs Zd Ea ws wd we b w2 b2 (ix2 p' c) := by
  unfold edgeOut
  refine addArr_rows _ _ _ _ p p' (fun k => prodArr_rows _ _ _ p p' (fun j => ?_) k) (fun _ => rfl) c
  unfold edgeHidden
  refine actArr_rows zf _ _ p p' (fun j => addArr_rows _ _ _ _ p p' (fun j => addArr_rows _ _ _ _ p p'
    (fun j => addArr_rows _ _ _ _ p p' (fun j => prodArr_rows _ _ _ p p' hs j) (fun j => prodArr_rows _ _ _ p p' hd j) j)
    (fun j => prodArr_rows _ _ _ p p' he j) j) (fun _ => rfl) j) j

/-- The read-out of a block of rows, at the block's index `y`, is the read-out of the whole arrays at the array's index
    `i`, when `i` is `y` moved down by `off` rows and each tall block is its array read `off` rows down. -/
theorem edgeOut_block {R R' K E N : ℕ} (zs zd : (⟨2, ![R, K]⟩ : Shape).Idx → EReal) (ea : (⟨2, ![R, E]⟩ : Shape).Idx → EReal)
    (Zs Zd : (⟨2, ![R', K]⟩ : Shape).Idx → EReal) (Ea : (⟨2, ![R', E]⟩ : Shape).Idx → EReal)
    (ws wd : (⟨2, ![K, N]⟩ : Shape).Idx → EReal) (we : (⟨2, ![E, N]⟩ : Shape).Idx → EReal)
    (b : (⟨1, ![N]⟩ : Shape).Idx → EReal) (w2 : (⟨2, ![N, 1]⟩ : Shape).Idx → EReal) (b2 : (⟨1, ![1]⟩ : Shape).Idx → EReal)
    (off : ℕ) (y : (⟨2, ![R, 1]⟩ : Shape).Idx) (i : (⟨2, ![R', 1]⟩ : Shape).Idx)
    (hi0 : (i 0).val = off + (y 0).val)
    (hs : ∀ (u : (⟨2, ![R, K]⟩ : Shape).Idx) (z : (⟨2, ![R', K]⟩ : Shape).Idx),
      (z 0).val = off + (u 0).val → (z 1).val = (u 1).val → zs u = Zs z)
    (hd : ∀ (u : (⟨2, ![R, K]⟩ : Shape).Idx) (z : (⟨2, ![R', K]⟩ : Shape).Idx),
      (z 0).val = off + (u 0).val → (z 1).val = (u 1).val → zd u = Zd z)
    (he : ∀ (u : (⟨2, ![R, E]⟩ : Shape).Idx) (z : (⟨2, ![R', E]⟩ : Shape).Idx),
      (z 0).val = off + (u 0).val → (z 1).val = (u 1).val → ea u = Ea z) :
    edgeOut zs zd ea ws wd we b w2 b2 y = edgeOut Zs Zd Ea ws wd we b w2 b2 i := by
  obtain ⟨p, c, rfl⟩ : ∃ (p : Fin R) (c : Fin 1), y = ix2 p c := ⟨y 0, y 1, eq_ix2 y⟩
  obtain ⟨p', c', rfl⟩ : ∃ (p' : Fin R') (c' : Fin 1), i = ix2 p' c' := ⟨i 0, i 1, eq_ix2 i⟩
  obtain rfl : c' = c := Subsingleton.elim _ _
  exact edgeOut_rows zs zd ea Zs Zd Ea ws wd we b w2 b2 p p' (fun k => hs _ _ hi0 rfl) (fun k => hd _ _ hi0 rfl)
    (fun k => he _ _ hi0 rfl) c'

/-! ## The windows' blocks, read off their arrays -/

section
variable (V : (c : Dev nD) → (b : Ref sig .tc) → Buf (Elt Ideal) ((c : Thread nD τ).loc b))

/-- The offset `(0)` of a whole-buffer access along one axis is the zero function. -/
theorem off1_zero : (![0] : Fin 1 → Nat) = fun _ => 0 := funext fun a => by fin_cases a; rfl

/-- The index maps of the four row-block windows, over the grid: point `t` is at block `(t, 0)`. -/
theorem idx_tall : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_9.index t (0 : Fin 2) = t.val ∧ win2_9.index t (1 : Fin 2) = 0 :=
  (by decide +kernel : ∀ t : Fin grid2.N, _)

/-- The index maps of the weights and biases, over the grid: every point is at block zero. -/
theorem idx_whole : ∀ t : Fin cfg2.N,
    win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 1) = 0
    ∧ win2_7.index t (0 : Fin 2) = 0 ∧ win2_7.index t (1 : Fin 2) = 0
    ∧ win2_8.index t (0 : Fin 1) = 0 :=
  (by decide +kernel : ∀ t : Fin grid2.N, _)

example : Pipeline.arrRef spec2 0 = main_v119 := rfl
example : Pipeline.arrRef spec2 1 = main_v126 := rfl
example : Pipeline.arrRef spec2 2 = main_v127 := rfl
example : Pipeline.arrRef spec2 3 = main_v128 := rfl
example : Pipeline.arrRef spec2 4 = main_v129 := rfl
example : Pipeline.arrRef spec2 5 = main_v130 := rfl
example : Pipeline.arrRef spec2 6 = main_arg10 := rfl
example : Pipeline.arrRef spec2 7 = main_arg11 := rfl
example : Pipeline.arrRef spec2 8 = main_arg12 := rfl
example : Pipeline.arrRef spec2 9 = main_v131 := rfl

set_option maxHeartbeats 400000 in
/-- The source rows' block at point `t` is rows `6400 t, …` of their array. -/
theorem iblk2_0_at (c : Dev nD) (t : Fin cfg2.N) (u : S6400x128.Idx) (z : S800000x128.Idx)
    (h0 : (z 0).val = 6400 * t.val + (u 0).val) (h1 : (z 1).val = (u 1).val) :
    (iblk2 (F := Ideal) V c 0 t : Vec Ideal S6400x128 .bf16) u = realArr S800000x128 (V c main_v119) z := by
  obtain ⟨e0, e1, -⟩ := idx_tall t
  unfold iblk2
  rw [View.read_apply]
  show V c main_v119 _ = V c main_v119 _
  congr 1
  funext a
  apply Fin.ext
  match a with
  | ⟨0, _⟩ => show win2_0.index t 0 * 6400 + 1 * (u 0).val = (z 0).val; rw [e0, h0]; omega
  | ⟨1, _⟩ => show win2_0.index t 1 * 128 + 1 * (u 1).val = (z 1).val; rw [e1, h1]; omega

set_option maxHeartbeats 400000 in
/-- The destination rows' block at point `t` is rows `6400 t, …` of their array. -/
theorem iblk2_1_at (c : Dev nD) (t : Fin cfg2.N) (u : S6400x128.Idx) (z : S800000x128.Idx)
    (h0 : (z 0).val = 6400 * t.val + (u 0).val) (h1 : (z 1).val = (u 1).val) :
    (iblk2 (F := Ideal) V c 1 t : Vec Ideal S6400x128 .bf16) u = realArr S800000x128 (V c main_v126) z := by
  obtain ⟨-, -, e0, e1, -⟩ := idx_tall t
  unfold iblk2
  rw [View.read_apply]
  show V c main_v126 _ = V c main_v126 _
  congr 1
  funext a
  apply Fin.ext
  match a with
  | ⟨0, _⟩ => show win2_1.index t 0 * 6400 + 1 * (u 0).val = (z 0).val; rw [e0, h0]; omega
  | ⟨1, _⟩ => show win2_1.index t 1 * 128 + 1 * (u 1).val = (z 1).val; rw [e1, h1]; omega

set_option maxHeartbeats 400000 in
/-- The edge attributes' block at point `t` is rows `6400 t, …` of their array. -/
theorem iblk2_2_at (c : Dev nD) (t : Fin cfg2.N) (u : S6400x16.Idx) (z : S800000x16.Idx)
    (h0 : (z 0).val = 6400 * t.val + (u 0).val) (h1 : (z 1).val = (u 1).val) :
    (iblk2 (F := Ideal) V c 2 t : Vec Ideal S6400x16 .bf16) u = realArr S800000x16 (V c main_v127) z := by
  obtain ⟨-, -, -, -, e0, e1, -⟩ := idx_tall t
  unfold iblk2
  rw [View.read_apply]
  show V c main_v127 _ = V c main_v127 _
  congr 1
  funext a
  apply Fin.ext
  match a with
  | ⟨0, _⟩ => show win2_2.index t 0 * 6400 + 1 * (u 0).val = (z 0).val; rw [e0, h0]; omega
  | ⟨1, _⟩ => show win2_2.index t 1 * 16 + 1 * (u 1).val = (z 1).val; rw [e1, h1]; omega

set_option maxHeartbeats 400000 in
/-- The source band of the first weight is whole at every point. -/
theorem iblk2_3_eq (c : Dev nD) (t : Fin cfg2.N) :
    (iblk2 (F := Ideal) V c 3 t : Vec Ideal S128x128 .f32) = realArr S128x128 (V c main_v128) := by
  obtain ⟨e0, e1, -⟩ := idx_whole t
  funext u
  unfold iblk2
  rw [View.read_apply]
  show V c main_v128 _ = V c main_v128 _
  congr 1
  funext a
  apply Fin.ext
  match a with
  | ⟨0, _⟩ => show win2_3.index t 0 * 128 + 1 * (u 0).val = (u 0).val; rw [e0]; omega
  | ⟨1, _⟩ => show win2_3.index t 1 * 128 + 1 * (u 1).val = (u 1).val; rw [e1]; omega

set_option maxHeartbeats 400000 in
/-- The destination band of the first weight is whole at every point. -/
theorem iblk2_4_eq (c : Dev nD) (t : Fin cfg2.N) :
    (iblk2 (F := Ideal) V c 4 t : Vec Ideal S128x128 .f32) = realArr S128x128 (V c main_v129) := by
  obtain ⟨-, -, e0, e1, -⟩ := idx_whole t
  funext u
  unfold iblk2
  rw [View.read_apply]
  show V c main_v129 _ = V c main_v129 _
  congr 1
  funext a
  apply Fin.ext
  match a with
  | ⟨0, _⟩ => show win2_4.index t 0 * 128 + 1 * (u 0).val = (u 0).val; rw [e0]; omega
  | ⟨1, _⟩ => show win2_4.index t 1 * 128 + 1 * (u 1).val = (u 1).val; rw [e1]; omega

set_option maxHeartbeats 400000 in
/-- The attribute band of the first weight is whole at every point. -/
theorem iblk2_5_eq (c : Dev nD) (t : Fin cfg2.N) :
    (iblk2 (F := Ideal) V c 5 t : Vec Ideal S16x128 .f32) = realArr S16x128 (V c main_v130) := by
  obtain ⟨-, -, -, -, e0, e1, -⟩ := idx_whole t
  funext u
  unfold iblk2
  rw [View.read_apply]
  show V c main_v130 _ = V c main_v130 _
  congr 1
  funext a
  apply Fin.ext
  match a with
  | ⟨0, _⟩ => show win2_5.index t 0 * 16 + 1 * (u 0).val = (u 0).val; rw [e0]; omega
  | ⟨1, _⟩ => show win2_5.index t 1 * 128 + 1 * (u 1).val = (u 1).val; rw [e1]; omega

set_option maxHeartbeats 400000 in
/-- The hidden layer's bias is whole at every point. -/
theorem iblk2_6_eq (c : Dev nD) (t : Fin cfg2.N) :
    (iblk2 (F := Ideal) V c 6 t : Vec Ideal S128 .f32) = realArr S128 (V c main_arg10) := by
  obtain ⟨-, -, -, -, -, -, e0, -⟩ := idx_whole t
  funext u
  unfold iblk2
  rw [View.read_apply]
  show V c main_arg10 _ = V c main_arg10 _
  congr 1
  funext a
  apply Fin.ext
  match a with
  | ⟨0, _⟩ => show win2_6.index t 0 * 128 + 1 * (u 0).val = (u 0).val; rw [e0]; omega

set_option maxHeartbeats 400000 in
/-- The second weight is whole at every point. -/
theorem iblk2_7_eq (c : Dev nD) (t : Fin cfg2.N) :
    (iblk2 (F := Ideal) V c 7 t : Vec Ideal S128x1 .f32) = realArr S128x1 (V c main_arg11) := by
  obtain ⟨-, -, -, -, -, -, -, e0, e1, -⟩ := idx_whole t
  funext u
  unfold iblk2
  rw [View.read_apply]
  show V c main_arg11 _ = V c main_arg11 _
  congr 1
  funext a
  apply Fin.ext
  match a with
  | ⟨0, _⟩ => show win2_7.index t 0 * 128 + 1 * (u 0).val = (u 0).val; rw [e0]; omega
  | ⟨1, _⟩ => show win2_7.index t 1 * 1 + 1 * (u 1).val = (u 1).val; rw [e1]; omega

set_option maxHeartbeats 400000 in
/-- The output's bias is whole at every point. -/
theorem iblk2_8_eq (c : Dev nD) (t : Fin cfg2.N) :
    (iblk2 (F := Ideal) V c 8 t : Vec Ideal S1 .f32) = realArr S1 (V c main_arg12) := by
  obtain ⟨-, -, -, -, -, -, -, -, -, e0⟩ := idx_whole t
  funext u
  unfold iblk2
  rw [View.read_apply]
  show V c main_arg12 _ = V c main_arg12 _
  congr 1
  funext a
  apply Fin.ext
  match a with
  | ⟨0, _⟩ => show win2_8.index t 0 * 1 + 1 * (u 0).val = (u 0).val; rw [e0]; omega

/-! ## From the blocks to the array -/

/-- What the read-out's array ends holding: the read-out of the whole arrays as the region finds them. -/
abbrev out2Arr (c : Dev nD) : S800000x1.Idx → EReal :=
  edgeOut (realArr S800000x128 (V c main_v119)) (realArr S800000x128 (V c main_v126)) (realArr S800000x16 (V c main_v127))
    (realArr S128x128 (V c main_v128)) (realArr S128x128 (V c main_v129)) (realArr S16x128 (V c main_v130))
    (realArr S128 (V c main_arg10)) (realArr S128x1 (V c main_arg11)) (realArr S1 (V c main_arg12))

set_option maxHeartbeats 400000 in
/-- What point `t` writes back is block `t` of the read-out of the whole arrays. -/
theorem flushed2_eq (c : Dev nD) (t : Fin cfg2.N) :
    (dat2 (F := Ideal) V c).flushed 9 t = ((cfg2.win 9).blk t).view.read (Elt Ideal) (out2Arr V c) := by
  show (cfg2.win 9).cut (grid2.coords t) ((dat2 V c).after 9 t) = _
  rw [after2_9]
  unfold out2_9
  rw [View.canon_unit_zero off2_zero]
  simp only [View.ld_unit_zero (S := S6400x128) off2_zero, View.ld_unit_zero (S := S6400x16) off2_zero,
    View.ld_unit_zero (S := S128x128) off2_zero, View.ld_unit_zero (S := S16x128) off2_zero,
    View.ld_unit_zero (S := S128) off1_zero, View.ld_unit_zero (S := S128x1) off2_zero,
    View.ld_unit_zero (S := S1) off1_zero]
  rw [pay2_eq, iblk2_3_eq, iblk2_4_eq, iblk2_5_eq, iblk2_6_eq, iblk2_7_eq, iblk2_8_eq]
  obtain ⟨-, -, -, -, -, -, e0, -⟩ := idx_tall t
  funext y
  show edgeOut (iblk2 V c 0 t) (iblk2 V c 1 t) (iblk2 V c 2 t) _ _ _ _ _ _ y
    = out2Arr V c (((cfg2.win 9).blk t).view.emb y)
  refine edgeOut_block _ _ _ _ _ _ _ _ _ _ _ _ (6400 * t.val) y _ ?_ (iblk2_0_at V c t) (iblk2_1_at V c t) (iblk2_2_at V c t)
  show win2_9.index t 0 * 6400 + 1 * (y 0).val = 6400 * t.val + (y 0).val
  rw [e0]; omega

/-- An index of the array is in point `t`'s block iff each coordinate is in the block's range on its axis. -/
theorem mem_blk2_9 (t : Fin cfg2.N) (i : S800000x1.Idx) :
    i ∈ ((cfg2.win 9).blk t).view.set ↔ ∀ a : Fin 2, win2_9.index t a * S6400x1.size a ≤ (i a).val
      ∧ (i a).val < win2_9.index t a * S6400x1.size a + S6400x1.size a := by
  show i ∈ ((View.whole main_v131).slice (win2_9.rect t)).set ↔ _
  rw [View.set_slice_whole, Rect.mem_set_unit]
  exact Iff.rfl

/-- Every row of the array is in some point's block: row `r` in the block of point `r / 6400`. -/
theorem covered2_9 (i : S800000x1.Idx) :
    ∃ t : Fin cfg2.N, (cfg2.win 9).flush t = true ∧ i ∈ ((cfg2.win 9).blk t).view.set := by
  have hi0 : (i 0).val < 800000 := (i 0).isLt
  have hi1 : (i 1).val < 1 := (i 1).isLt
  obtain ⟨t, ht⟩ : ∃ t : Fin cfg2.N, t.val = (i 0).val / 6400 :=
    ⟨⟨(i 0).val / 6400, by rw [show cfg2.N = 125 from N_2]; omega⟩, rfl⟩
  obtain ⟨-, -, -, -, -, -, e0, e1⟩ := idx_tall t
  refine ⟨t, flush2_9 t, ?_⟩
  rw [mem_blk2_9]
  intro a
  match a with
  | ⟨0, _⟩ =>
    show win2_9.index t 0 * 6400 ≤ (i 0).val ∧ (i 0).val < win2_9.index t 0 * 6400 + 6400
    rw [e0, ht]; omega
  | ⟨1, _⟩ =>
    show win2_9.index t 1 * 1 ≤ (i 1).val ∧ (i 1).val < win2_9.index t 1 * 1 + 1
    rw [e1]; omega

/-- THE ARRAY the read-out region leaves: the read-out of the whole arrays as the region finds them. -/
theorem final2 (c : Dev nD) :
    (dat2 (F := Ideal) V c).arrAt 9 cfg2.N = edgeOut (realArr S800000x128 (V c main_v119)) (realArr S800000x128 (V c main_v126)) (realArr S800000x16 (V c main_v127)) (realArr S128x128 (V c main_v128)) (realArr S128x128 (V c main_v129)) (realArr S16x128 (V c main_v130)) (realArr S128 (V c main_arg10)) (realArr S128x1 (V c main_arg11)) (realArr S1 (V c main_arg12)) :=
  (dat2 V c).arrAt_eq_of_cover 9 (out2Arr V c) (fun t _ => flushed2_eq V c t) covered2_9

end

end Cert.KernelIdeal.RegVal

end
-- ==== Proof.KValue.lean ====
/-
  WHAT THE IDEALIZED KERNEL LEAVES IN ITS RESULT BUFFER, as a function of the launch contents of its arguments.

  The fold of @main's seven segments is followed from the launch memory to the result.  The first stretch splits the edge
  list; the first region leaves the product of the node features with the first weight; the second stretch
  aggregates it over the graph and folds the normalisation into a factor and an offset per column; the second region
  leaves the product of the scaled, shifted, rectified first layer with the second weight; the third stretch aggregates
  again, gathers the rows at the two ends of every edge, and cuts the read-out's first weight into its bands; the third
  region leaves the edge read-out; the last stretch reads its one column as a vector.  A buffer a segment does not write
  is carried through it unchanged.
-/
import proofs.«120905_j51728586113229_2_alg».proof.Proof.KRun
import proofs.«120905_j51728586113229_2_alg».proof.Proof.KFold03
import proofs.«120905_j51728586113229_2_alg».proof.Proof.KFold1
import proofs.«120905_j51728586113229_2_alg».proof.Proof.KFold2
import proofs.«120905_j51728586113229_2_alg».proof.Proof.Reg0
import proofs.«120905_j51728586113229_2_alg».proof.Proof.Reg1
import proofs.«120905_j51728586113229_2_alg».proof.Proof.Reg2

noncomputable section

namespace Cert.KernelIdeal.KValue

open Cert.KernelIdeal Cert.KernelIdeal.Gen Cert.KernelIdeal.HostFn Cert.KernelIdeal.Fold Cert.KernelIdeal.RegVal
open Cert.KernelIdeal.RegionValue Cert.Gcn
open Idealize.ShloMosaic Idealize.ShloMosaic.TcCoe Idealize.SL.Sem

variable (m : (ℓ : Loc nD τ sig) → Buf (Elt Ideal) ℓ) (ρ : Dev nD → PrngReg) (c : Dev nD)

/-! ## Through the first stretch and the first region -/

theorem w1_arg0 : W1 m ρ c (Proc.devRef .tc main_arg0) = m ((c : Thread nD τ).loc main_arg0) := ops0_arg0 (W0 m ρ c)
theorem w1_arg2 : W1 m ρ c (Proc.devRef .tc main_arg2) = m ((c : Thread nD τ).loc main_arg2) := ops0_arg2 (W0 m ρ c)
theorem w1_arg3 : W1 m ρ c (Proc.devRef .tc main_arg3) = m ((c : Thread nD τ).loc main_arg3) := ops0_arg3 (W0 m ρ c)
theorem w1_arg4 : W1 m ρ c (Proc.devRef .tc main_arg4) = m ((c : Thread nD τ).loc main_arg4) := ops0_arg4 (W0 m ρ c)
theorem w1_arg5 : W1 m ρ c (Proc.devRef .tc main_arg5) = m ((c : Thread nD τ).loc main_arg5) := ops0_arg5 (W0 m ρ c)
theorem w1_arg6 : W1 m ρ c (Proc.devRef .tc main_arg6) = m ((c : Thread nD τ).loc main_arg6) := ops0_arg6 (W0 m ρ c)
theorem w1_arg7 : W1 m ρ c (Proc.devRef .tc main_arg7) = m ((c : Thread nD τ).loc main_arg7) := ops0_arg7 (W0 m ρ c)
theorem w1_arg8 : W1 m ρ c (Proc.devRef .tc main_arg8) = m ((c : Thread nD τ).loc main_arg8) := ops0_arg8 (W0 m ρ c)
theorem w1_arg9 : W1 m ρ c (Proc.devRef .tc main_arg9) = m ((c : Thread nD τ).loc main_arg9) := ops0_arg9 (W0 m ρ c)
theorem w1_arg10 : W1 m ρ c (Proc.devRef .tc main_arg10) = m ((c : Thread nD τ).loc main_arg10) := ops0_arg10 (W0 m ρ c)
theorem w1_arg11 : W1 m ρ c (Proc.devRef .tc main_arg11) = m ((c : Thread nD τ).loc main_arg11) := ops0_arg11 (W0 m ρ c)
theorem w1_arg12 : W1 m ρ c (Proc.devRef .tc main_arg12) = m ((c : Thread nD τ).loc main_arg12) := ops0_arg12 (W0 m ρ c)
theorem w1_v1 : W1 m ρ c (Proc.devRef .tc main_v1) = src (F := Ideal) (m ((c : Thread nD τ).loc main_arg1)) := ops0_v1 (W0 m ρ c)
theorem w1_v3 : W1 m ρ c (Proc.devRef .tc main_v3) = dst (F := Ideal) (m ((c : Thread nD τ).loc main_arg1)) := ops0_v3 (W0 m ρ c)

/-- The first dense product, of the launch contents. -/
def h1 : (⟨2, ![50000, 128]⟩ : Shape).Idx → EReal :=
  prodArr (realArr S50000x128 (m ((c : Thread nD τ).loc main_arg0))) (realArr S128x128 (m ((c : Thread nD τ).loc main_arg3)))

theorem w2_v4 : W2 m ρ c (Proc.devRef .tc main_v4) = h1 m c := by
  refine (W2_arr m ρ c 2).trans ((final0 (V1 m ρ) c).trans ?_)
  unfold h1
  rw [show V1 m ρ c main_arg0 = m ((c : Thread nD τ).loc main_arg0) from w1_arg0 m ρ c, show V1 m ρ c main_arg3 = m ((c : Thread nD τ).loc main_arg3) from w1_arg3 m ρ c]

theorem w2_arg2 : W2 m ρ c (Proc.devRef .tc main_arg2) = m ((c : Thread nD τ).loc main_arg2) := (W2_of_ne m ρ c main_arg2 (by decide)).trans (w1_arg2 m ρ c)
theorem w2_arg4 : W2 m ρ c (Proc.devRef .tc main_arg4) = m ((c : Thread nD τ).loc main_arg4) := (W2_of_ne m ρ c main_arg4 (by decide)).trans (w1_arg4 m ρ c)
theorem w2_arg5 : W2 m ρ c (Proc.devRef .tc main_arg5) = m ((c : Thread nD τ).loc main_arg5) := (W2_of_ne m ρ c main_arg5 (by decide)).trans (w1_arg5 m ρ c)
theorem w2_arg6 : W2 m ρ c (Proc.devRef .tc main_arg6) = m ((c : Thread nD τ).loc main_arg6) := (W2_of_ne m ρ c main_arg6 (by decide)).trans (w1_arg6 m ρ c)
theorem w2_arg7 : W2 m ρ c (Proc.devRef .tc main_arg7) = m ((c : Thread nD τ).loc main_arg7) := (W2_of_ne m ρ c main_arg7 (by decide)).trans (w1_arg7 m ρ c)
theorem w2_arg8 : W2 m ρ c (Proc.devRef .tc main_arg8) = m ((c : Thread nD τ).loc main_arg8) := (W2_of_ne m ρ c main_arg8 (by decide)).trans (w1_arg8 m ρ c)
theorem w2_arg9 : W2 m ρ c (Proc.devRef .tc main_arg9) = m ((c : Thread nD τ).loc main_arg9) := (W2_of_ne m ρ c main_arg9 (by decide)).trans (w1_arg9 m ρ c)
theorem w2_arg10 : W2 m ρ c (Proc.devRef .tc main_arg10) = m ((c : Thread nD τ).loc main_arg10) := (W2_of_ne m ρ c main_arg10 (by decide)).trans (w1_arg10 m ρ c)
theorem w2_arg11 : W2 m ρ c (Proc.devRef .tc main_arg11) = m ((c : Thread nD τ).loc main_arg11) := (W2_of_ne m ρ c main_arg11 (by decide)).trans (w1_arg11 m ρ c)
theorem w2_arg12 : W2 m ρ c (Proc.devRef .tc main_arg12) = m ((c : Thread nD τ).loc main_arg12) := (W2_of_ne m ρ c main_arg12 (by decide)).trans (w1_arg12 m ρ c)
theorem w2_v1 : W2 m ρ c (Proc.devRef .tc main_v1) = src (F := Ideal) (m ((c : Thread nD τ).loc main_arg1)) := (W2_of_ne m ρ c main_v1 (by decide)).trans (w1_v1 m ρ c)
theorem w2_v3 : W2 m ρ c (Proc.devRef .tc main_v3) = dst (F := Ideal) (m ((c : Thread nD τ).loc main_arg1)) := (W2_of_ne m ρ c main_v3 (by decide)).trans (w1_v3 m ρ c)

/-! ## Through the second stretch and the second region -/

/-- The first layer: the graph aggregation of the first product. -/
def z1 : (⟨S50000x128, .f32⟩ : BufTy).Contents (Elt Ideal) :=
  agg (F := Ideal) (h1 m c) (src (m ((c : Thread nD τ).loc main_arg1))) (dst (m ((c : Thread nD τ).loc main_arg1))) (m ((c : Thread nD τ).loc main_arg4))

theorem w3_v48 : W3 m ρ c (Proc.devRef .tc main_v48) = z1 m c := by
  refine (ops1_v48 (W2 m ρ c)).trans ?_
  unfold z1
  rw [w2_v4, w2_v1, w2_v3, w2_arg4]

theorem w3_v65 : W3 m ρ c (Proc.devRef .tc main_v65) = scaleRow (F := Ideal) (z1 m c) (m ((c : Thread nD τ).loc main_arg5)) := by
  refine (ops1_v65 (W2 m ρ c)).trans ?_
  unfold z1
  rw [w2_v4, w2_v1, w2_v3, w2_arg4, w2_arg5]

theorem w3_v66 : W3 m ρ c (Proc.devRef .tc main_v66) = shiftRow (F := Ideal) (z1 m c) (m ((c : Thread nD τ).loc main_arg5)) (m ((c : Thread nD τ).loc main_arg6)) := by
  refine (ops1_v66 (W2 m ρ c)).trans ?_
  unfold z1
  rw [w2_v4, w2_v1, w2_v3, w2_arg4, w2_arg5, w2_arg6]

theorem w3_arg2 : W3 m ρ c (Proc.devRef .tc main_arg2) = m ((c : Thread nD τ).loc main_arg2) := (ops1_arg2 (W2 m ρ c)).trans (w2_arg2 m ρ c)
theorem w3_arg7 : W3 m ρ c (Proc.devRef .tc main_arg7) = m ((c : Thread nD τ).loc main_arg7) := (ops1_arg7 (W2 m ρ c)).trans (w2_arg7 m ρ c)
theorem w3_arg8 : W3 m ρ c (Proc.devRef .tc main_arg8) = m ((c : Thread nD τ).loc main_arg8) := (ops1_arg8 (W2 m ρ c)).trans (w2_arg8 m ρ c)
theorem w3_arg9 : W3 m ρ c (Proc.devRef .tc main_arg9) = m ((c : Thread nD τ).loc main_arg9) := (ops1_arg9 (W2 m ρ c)).trans (w2_arg9 m ρ c)
theorem w3_arg10 : W3 m ρ c (Proc.devRef .tc main_arg10) = m ((c : Thread nD τ).loc main_arg10) := (ops1_arg10 (W2 m ρ c)).trans (w2_arg10 m ρ c)
theorem w3_arg11 : W3 m ρ c (Proc.devRef .tc main_arg11) = m ((c : Thread nD τ).loc main_arg11) := (ops1_arg11 (W2 m ρ c)).trans (w2_arg11 m ρ c)
theorem w3_arg12 : W3 m ρ c (Proc.devRef .tc main_arg12) = m ((c : Thread nD τ).loc main_arg12) := (ops1_arg12 (W2 m ρ c)).trans (w2_arg12 m ρ c)
theorem w3_v1 : W3 m ρ c (Proc.devRef .tc main_v1) = src (F := Ideal) (m ((c : Thread nD τ).loc main_arg1)) := (ops1_v1 (W2 m ρ c)).trans (w2_v1 m ρ c)
theorem w3_v3 : W3 m ρ c (Proc.devRef .tc main_v3) = dst (F := Ideal) (m ((c : Thread nD τ).loc main_arg1)) := (ops1_v3 (W2 m ρ c)).trans (w2_v3 m ρ c)

/-- The second dense product: of the scaled, shifted, rectified first layer with the second weight. -/
def h2 : (⟨2, ![50000, 128]⟩ : Shape).Idx → EReal :=
  nodeStage (realArr S50000x128 (z1 m c)) (realArr S1x128 (scaleRow (F := Ideal) (z1 m c) (m ((c : Thread nD τ).loc main_arg5))))
    (realArr S1x128 (shiftRow (F := Ideal) (z1 m c) (m ((c : Thread nD τ).loc main_arg5)) (m ((c : Thread nD τ).loc main_arg6)))) (realArr S128x128 (m ((c : Thread nD τ).loc main_arg7)))

theorem w4_v67 : W4 m ρ c (Proc.devRef .tc main_v67) = h2 m c := by
  refine (W4_arr m ρ c 4).trans ((final1 (V3 m ρ) c).trans ?_)
  unfold h2
  rw [show V3 m ρ c main_v48 = z1 m c from w3_v48 m ρ c,
    show V3 m ρ c main_v65 = scaleRow (F := Ideal) (z1 m c) (m ((c : Thread nD τ).loc main_arg5)) from w3_v65 m ρ c,
    show V3 m ρ c main_v66 = shiftRow (F := Ideal) (z1 m c) (m ((c : Thread nD τ).loc main_arg5)) (m ((c : Thread nD τ).loc main_arg6)) from w3_v66 m ρ c,
    show V3 m ρ c main_arg7 = m ((c : Thread nD τ).loc main_arg7) from w3_arg7 m ρ c]

theorem w4_arg2 : W4 m ρ c (Proc.devRef .tc main_arg2) = m ((c : Thread nD τ).loc main_arg2) := (W4_of_ne m ρ c main_arg2 (by decide)).trans (w3_arg2 m ρ c)
theorem w4_arg8 : W4 m ρ c (Proc.devRef .tc main_arg8) = m ((c : Thread nD τ).loc main_arg8) := (W4_of_ne m ρ c main_arg8 (by decide)).trans (w3_arg8 m ρ c)
theorem w4_arg9 : W4 m ρ c (Proc.devRef .tc main_arg9) = m ((c : Thread nD τ).loc main_arg9) := (W4_of_ne m ρ c main_arg9 (by decide)).trans (w3_arg9 m ρ c)
theorem w4_arg10 : W4 m ρ c (Proc.devRef .tc main_arg10) = m ((c : Thread nD τ).loc main_arg10) := (W4_of_ne m ρ c main_arg10 (by decide)).trans (w3_arg10 m ρ c)
theorem w4_arg11 : W4 m ρ c (Proc.devRef .tc main_arg11) = m ((c : Thread nD τ).loc main_arg11) := (W4_of_ne m ρ c main_arg11 (by decide)).trans (w3_arg11 m ρ c)
theorem w4_arg12 : W4 m ρ c (Proc.devRef .tc main_arg12) = m ((c : Thread nD τ).loc main_arg12) := (W4_of_ne m ρ c main_arg12 (by decide)).trans (w3_arg12 m ρ c)
theorem w4_v1 : W4 m ρ c (Proc.devRef .tc main_v1) = src (F := Ideal) (m ((c : Thread nD τ).loc main_arg1)) := (W4_of_ne m ρ c main_v1 (by decide)).trans (w3_v1 m ρ c)
theorem w4_v3 : W4 m ρ c (Proc.devRef .tc main_v3) = dst (F := Ideal) (m ((c : Thread nD τ).loc main_arg1)) := (W4_of_ne m ρ c main_v3 (by decide)).trans (w3_v3 m ρ c)

/-! ## Through the third stretch and the third region -/

/-- The second layer: the graph aggregation of the second product. -/
def z2 : (⟨S50000x128, .f32⟩ : BufTy).Contents (Elt Ideal) :=
  agg (F := Ideal) (h2 m c) (src (m ((c : Thread nD τ).loc main_arg1))) (dst (m ((c : Thread nD τ).loc main_arg1))) (m ((c : Thread nD τ).loc main_arg8))

theorem w5_v119 : W5 m ρ c (Proc.devRef .tc main_v119) = endRows (F := Ideal) (z2 m c) (src (m ((c : Thread nD τ).loc main_arg1))) := by
  refine (ops2_v119 (W4 m ρ c)).trans ?_
  unfold z2
  rw [w4_v67, w4_v1, w4_v3, w4_arg8]

theorem w5_v126 : W5 m ρ c (Proc.devRef .tc main_v126) = endRows (F := Ideal) (z2 m c) (dst (m ((c : Thread nD τ).loc main_arg1))) := by
  refine (ops2_v126 (W4 m ρ c)).trans ?_
  unfold z2
  rw [w4_v67, w4_v1, w4_v3, w4_arg8]

theorem w5_v127 : W5 m ρ c (Proc.devRef .tc main_v127) = (truncf .bf16 (m ((c : Thread nD τ).loc main_arg2) : FVec Ideal S800000x16 .f32) bitsLt_bf16_f32 : FVec Ideal S800000x16 .bf16) := by
  refine (ops2_v127 (W4 m ρ c)).trans ?_
  rw [w4_arg2]

theorem w5_v128 : W5 m ρ c (Proc.devRef .tc main_v128) = extractStridedSlice S128x128 ![0, 0] (m ((c : Thread nD τ).loc main_arg9)) slices_S272x128_S128x128_0_0 := by
  refine (ops2_v128 (W4 m ρ c)).trans ?_
  rw [w4_arg9]

theorem w5_v129 : W5 m ρ c (Proc.devRef .tc main_v129) = extractStridedSlice S128x128 ![128, 0] (m ((c : Thread nD τ).loc main_arg9)) slices_S272x128_S128x128_128_0 := by
  refine (ops2_v129 (W4 m ρ c)).trans ?_
  rw [w4_arg9]

theorem w5_v130 : W5 m ρ c (Proc.devRef .tc main_v130) = extractStridedSlice S16x128 ![256, 0] (m ((c : Thread nD τ).loc main_arg9)) slices_S272x128_S16x128_256_0 := by
  refine (ops2_v130 (W4 m ρ c)).trans ?_
  rw [w4_arg9]

theorem w5_arg10 : W5 m ρ c (Proc.devRef .tc main_arg10) = m ((c : Thread nD τ).loc main_arg10) := (ops2_arg10 (W4 m ρ c)).trans (w4_arg10 m ρ c)
theorem w5_arg11 : W5 m ρ c (Proc.devRef .tc main_arg11) = m ((c : Thread nD τ).loc main_arg11) := (ops2_arg11 (W4 m ρ c)).trans (w4_arg11 m ρ c)
theorem w5_arg12 : W5 m ρ c (Proc.devRef .tc main_arg12) = m ((c : Thread nD τ).loc main_arg12) := (ops2_arg12 (W4 m ρ c)).trans (w4_arg12 m ρ c)

/-- The edge read-out of the kernel's operands. -/
def out2 : (⟨2, ![800000, 1]⟩ : Shape).Idx → EReal :=
  edgeOut (realArr S800000x128 (endRows (F := Ideal) (z2 m c) (src (m ((c : Thread nD τ).loc main_arg1)))))
    (realArr S800000x128 (endRows (F := Ideal) (z2 m c) (dst (m ((c : Thread nD τ).loc main_arg1)))))
    (realArr S800000x16 ((truncf .bf16 (m ((c : Thread nD τ).loc main_arg2) : FVec Ideal S800000x16 .f32) bitsLt_bf16_f32 : FVec Ideal S800000x16 .bf16)))
    (realArr S128x128 (extractStridedSlice S128x128 ![0, 0] (m ((c : Thread nD τ).loc main_arg9)) slices_S272x128_S128x128_0_0))
    (realArr S128x128 (extractStridedSlice S128x128 ![128, 0] (m ((c : Thread nD τ).loc main_arg9)) slices_S272x128_S128x128_128_0))
    (realArr S16x128 (extractStridedSlice S16x128 ![256, 0] (m ((c : Thread nD τ).loc main_arg9)) slices_S272x128_S16x128_256_0))
    (realArr S128 (m ((c : Thread nD τ).loc main_arg10))) (realArr S128x1 (m ((c : Thread nD τ).loc main_arg11))) (realArr S1 (m ((c : Thread nD τ).loc main_arg12)))

theorem w6_v131 : W6 m ρ c (Proc.devRef .tc main_v131) = out2 m c := by
  refine (W6_arr m ρ c 9).trans ((final2 (V5 m ρ) c).trans ?_)
  unfold out2
  rw [show V5 m ρ c main_v119 = _ from w5_v119 m ρ c, show V5 m ρ c main_v126 = _ from w5_v126 m ρ c,
    show V5 m ρ c main_v127 = _ from w5_v127 m ρ c, show V5 m ρ c main_v128 = _ from w5_v128 m ρ c,
    show V5 m ρ c main_v129 = _ from w5_v129 m ρ c, show V5 m ρ c main_v130 = _ from w5_v130 m ρ c,
    show V5 m ρ c main_arg10 = _ from w5_arg10 m ρ c, show V5 m ρ c main_arg11 = _ from w5_arg11 m ρ c,
    show V5 m ρ c main_arg12 = _ from w5_arg12 m ρ c]

/-- The result buffer after the run: the read-out's one column as a vector. -/
theorem result : W7 m ρ c (Proc.devRef .tc main_v132) = shapeCast _ (out2 m c) shapeCasts_S800000x1_S800000 := by
  refine (ops3_v132 (W6 m ρ c)).trans ?_
  rw [w6_v131]

end Cert.KernelIdeal.KValue

end
-- ==== Proof.RRun.lean ====
/-
  THE REFERENCE'S RUN, AS A FOLD OF ITS OPERATIONS.

  The reference program is a straight line of 180 array operations (the two rectifiers' three operations each stand
  where they are called).  Every weakly fair execution from a memory with zero counters terminates without a fault and
  leaves in every buffer the fold of the operations' results over the launch contents.  The line is cut here into five
  stretches — the two rows of the edge list; the first dense product and graph aggregation; the column statistics, the
  normalisation, the rectifier and the second dense product; the second aggregation; the rows at the edge ends and the
  read-out — and the fold of the whole line is the fold of the stretches one after the other.
-/
import proofs.«120905_j51728586113229_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The two rows of the edge list. -/
abbrev ops0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000 ]

/-- The first dense product and the graph aggregation over it. -/
abbrev ops1 : List (HloOp τ sig (Elt F)) :=
  [ binary main_arg0 main_arg3 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst (constant S_ .f32 0x3F800000#32),
    unary main_cst main_v5 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v6 (broadcastInDim S50000 ![] bcast_S_S50000 : (⟨S_, .f32⟩ : BufTy).Contents (Elt F) → (⟨S50000, .f32⟩ : BufTy).Contents (Elt F)),
    unary main_v3 main_v7 (broadcastInDim S800000x1 ![0] bcast_S800000_S800000x1_0 : (⟨S800000, .i32⟩ : BufTy).Contents (Elt F) → (⟨S800000x1, .i32⟩ : BufTy).Contents (Elt F)),
    ternary main_v6 main_v7 main_v5 main_v8 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v9 (broadcastInDim S50000 ![] bcast_S_S50000 : (⟨S_, .f32⟩ : BufTy).Contents (Elt F) → (⟨S50000, .f32⟩ : BufTy).Contents (Elt F)),
    binary main_v8 main_v9 main_v10 (addf : (⟨S50000, .f32⟩ : BufTy).Contents (Elt F) → (⟨S50000, .f32⟩ : BufTy).Contents (Elt F) → (⟨S50000, .f32⟩ : BufTy).Contents (Elt F)),
    nullary main_cst_2 (constant S_ .f32 0xBF000000#32),
    unary main_cst_2 main_v11 (broadcastInDim S50000 ![] bcast_S_S50000 : (⟨S_, .f32⟩ : BufTy).Contents (Elt F) → (⟨S50000, .f32⟩ : BufTy).Contents (Elt F)),
    binary main_v10 main_v11 main_v12 (Host.powf : (⟨S50000, .f32⟩ : BufTy).Contents (Elt F) → (⟨S50000, .f32⟩ : BufTy).Contents (Elt F) → (⟨S50000, .f32⟩ : BufTy).Contents (Elt F)),
    nullary main_c (constantI S_ 32 0#32),
    unary main_c main_v13 (broadcastInDim S800000 ![] bcast_S_S800000 : (⟨S_, .i32⟩ : BufTy).Contents (Elt F) → (⟨S800000, .i32⟩ : BufTy).Contents (Elt F)),
    binary main_v1 main_v13 main_v14 (cmpi .slt : (⟨S800000, .i32⟩ : BufTy).Contents (Elt F) → (⟨S800000, .i32⟩ : BufTy).Contents (Elt F) → (⟨S800000, .i1⟩ : BufTy).Contents (Elt F)),
    nullary main_c_3 (constantI S_ 32 50000#32),
    unary main_c_3 main_v15 (broadcastInDim S800000 ![] bcast_S_S800000 : (⟨S_, .i32⟩ : BufTy).Contents (Elt F) → (⟨S800000, .i32⟩ : BufTy).Contents (Elt F)),
    binary main_v1 main_v15 main_v16 (addi : (⟨S800000, .i32⟩ : BufTy).Contents (Elt F) → (⟨S800000, .i32⟩ : BufTy).Contents (Elt F) → (⟨S800000, .i32⟩ : BufTy).Contents (Elt F)),
    ternary main_v14 main_v16 main_v1 main_v17 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v17 main_v18 (broadcastInDim S800000x1 ![0] bcast_S800000_S800000x1_0 : (⟨S800000, .i32⟩ : BufTy).Contents (Elt F) → (⟨S800000x1, .i32⟩ : BufTy).Contents (Elt F)),
    binary main_v12 main_v18 main_v19 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_4 (constantI S_ 32 0#32),
    unary main_c_4 main_v20 (broadcastInDim S800000 ![] bcast_S_S800000 : (⟨S_, .i32⟩ : BufTy).Contents (Elt F) → (⟨S800000, .i32⟩ : BufTy).Contents (Elt F)),
    binary main_v3 main_v20 main_v21 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v22 (broadcastInDim S800000 ![] bcast_S_S800000 : (⟨S_, .i32⟩ : BufTy).Contents (Elt F) → (⟨S800000, .i32⟩ : BufTy).Contents (Elt F)),
    binary main_v3 main_v22 main_v23 (addi : (⟨S800000, .i32⟩ : BufTy).Contents (Elt F) → (⟨S800000, .i32⟩ : BufTy).Contents (Elt F) → (⟨S800000, .i32⟩ : BufTy).Contents (Elt F)),
    ternary main_v21 main_v23 main_v3 main_v24 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v24 main_v25 (broadcastInDim S800000x1 ![0] bcast_S800000_S800000x1_0 : (⟨S800000, .i32⟩ : BufTy).Contents (Elt F) → (⟨S800000x1, .i32⟩ : BufTy).Contents (Elt F)),
    binary main_v12 main_v25 main_v26 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v19 main_v26 main_v27 (mulf : (⟨S800000, .f32⟩ : BufTy).Contents (Elt F) → (⟨S800000, .f32⟩ : BufTy).Contents (Elt F) → (⟨S800000, .f32⟩ : BufTy).Contents (Elt F)),
    nullary main_c_6 (constantI S_ 32 0#32),
    unary main_c_6 main_v28 (broadcastInDim S800000 ![] bcast_S_S800000 : (⟨S_, .i32⟩ : BufTy).Contents (Elt F) → (⟨S800000, .i32⟩ : BufTy).Contents (Elt F)),
    binary main_v1 main_v28 main_v29 (cmpi .slt : (⟨S800000, .i32⟩ : BufTy).Contents (Elt F) → (⟨S800000, .i32⟩ : BufTy).Contents (Elt F) → (⟨S800000, .i1⟩ : BufTy).Contents (Elt F)),
    nullary main_c_7 (constantI S_ 32 50000#32),
    unary main_c_7 main_v30 (broadcastInDim S800000 ![] bcast_S_S800000 : (⟨S_, .i32⟩ : BufTy).Contents (Elt F) → (⟨S800000, .i32⟩ : BufTy).Contents (Elt F)),
    binary main_v1 main_v30 main_v31 (addi : (⟨S800000, .i32⟩ : BufTy).Contents (Elt F) → (⟨S800000, .i32⟩ : BufTy).Contents (Elt F) → (⟨S800000, .i32⟩ : BufTy).Contents (Elt F)),
    ternary main_v29 main_v31 main_v1 main_v32 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v32 main_v33 (broadcastInDim S800000x1 ![0] bcast_S800000_S800000x1_0 : (⟨S800000, .i32⟩ : BufTy).Contents (Elt F) → (⟨S800000x1, .i32⟩ : BufTy).Contents (Elt F)),
    binary main_v4 main_v33 main_v34 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v27 main_v35 (broadcastInDim S800000x1 ![0] bcast_S800000_S800000x1_0 : (⟨S800000, .f32⟩ : BufTy).Contents (Elt F) → (⟨S800000x1, .f32⟩ : BufTy).Contents (Elt F)),
    unary main_v35 main_v36 (broadcastInDim S800000x128 ![0, 1] bcast_S800000x1_S800000x128_0_1 : (⟨S800000x1, .f32⟩ : BufTy).Contents (Elt F) → (⟨S800000x128, .f32⟩ : BufTy).Contents (Elt F)),
    binary main_v34 main_v36 main_v37 (mulf : (⟨S800000x128, .f32⟩ : BufTy).Contents (Elt F) → (⟨S800000x128, .f32⟩ : BufTy).Contents (Elt F) → (⟨S800000x128, .f32⟩ : BufTy).Contents (Elt F)),
    nullary main_cst_8 (constant S_ .f32 0x00000000#32),
    unary main_cst_8 main_v38 (broadcastInDim S50000x128 ![] bcast_S_S50000x128 : (⟨S_, .f32⟩ : BufTy).Contents (Elt F) → (⟨S50000x128, .f32⟩ : BufTy).Contents (Elt F)),
    unary main_v3 main_v39 (broadcastInDim S800000x1 ![0] bcast_S800000_S800000x1_0 : (⟨S800000, .i32⟩ : BufTy).Contents (Elt F) → (⟨S800000x1, .i32⟩ : BufTy).Contents (Elt F)),
    ternary main_v38 main_v39 main_v37 main_v40 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v12 main_v12 main_v41 (mulf : (⟨S50000, .f32⟩ : BufTy).Contents (Elt F) → (⟨S50000, .f32⟩ : BufTy).Contents (Elt F) → (⟨S50000, .f32⟩ : BufTy).Contents (Elt F)),
    unary main_v41 main_v42 (broadcastInDim S50000x1 ![0] bcast_S50000_S50000x1_0 : (⟨S50000, .f32⟩ : BufTy).Contents (Elt F) → (⟨S50000x1, .f32⟩ : BufTy).Contents (Elt F)),
    unary main_v42 main_v43 (broadcastInDim S50000x128 ![0, 1] bcast_S50000x1_S50000x128_0_1 : (⟨S50000x1, .f32⟩ : BufTy).Contents (Elt F) → (⟨S50000x128, .f32⟩ : BufTy).Contents (Elt F)),
    binary main_v4 main_v43 main_v44 (mulf : (⟨S50000x128, .f32⟩ : BufTy).Contents (Elt F) → (⟨S50000x128, .f32⟩ : BufTy).Contents (Elt F) → (⟨S50000x128, .f32⟩ : BufTy).Contents (Elt F)),
    binary main_v40 main_v44 main_v45 (addf : (⟨S50000x128, .f32⟩ : BufTy).Contents (Elt F) → (⟨S50000x128, .f32⟩ : BufTy).Contents (Elt F) → (⟨S50000x128, .f32⟩ : BufTy).Contents (Elt F)),
    unary main_arg4 main_v46 (broadcastInDim S1x128 ![1] bcast_S128_S1x128_1 : (⟨S128, .f32⟩ : BufTy).Contents (Elt F) → (⟨S1x128, .f32⟩ : BufTy).Contents (Elt F)),
    unary main_v46 main_v47 (broadcastInDim S50000x128 ![0, 1] bcast_S1x128_S50000x128_0_1 : (⟨S1x128, .f32⟩ : BufTy).Contents (Elt F) → (⟨S50000x128, .f32⟩ : BufTy).Contents (Elt F)),
    binary main_v45 main_v47 main_v48 (addf : (⟨S50000x128, .f32⟩ : BufTy).Contents (Elt F) → (⟨S50000x128, .f32⟩ : BufTy).Contents (Elt F) → (⟨S50000x128, .f32⟩ : BufTy).Contents (Elt F)) ]

/-- The column statistics, the normalisation, the rectifier, the second dense product. -/
abbrev ops2 : List (HloOp τ sig (Elt F)) :=
  [ nullary main_cst_9 (constant S_ .f32 0x00000000#32),
    binary main_v48 main_cst_9 main_v49 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_10 (constant S_ .f32 0x47435000#32),
    unary main_cst_10 main_v50 (broadcastInDim S128 ![] bcast_S_S128 : (⟨S_, .f32⟩ : BufTy).Contents (Elt F) → (⟨S128, .f32⟩ : BufTy).Contents (Elt F)),
    binary main_v49 main_v50 main_v51 (Host.divf : (⟨S128, .f32⟩ : BufTy).Contents (Elt F) → (⟨S128, .f32⟩ : BufTy).Contents (Elt F) → (⟨S128, .f32⟩ : BufTy).Contents (Elt F)),
    unary main_v51 main_v52 (broadcastInDim S1x128 ![1] bcast_S128_S1x128_1 : (⟨S128, .f32⟩ : BufTy).Contents (Elt F) → (⟨S1x128, .f32⟩ : BufTy).Contents (Elt F)),
    unary main_v52 main_v53 (broadcastInDim S50000x128 ![0, 1] bcast_S1x128_S50000x128_0_1 : (⟨S1x128, .f32⟩ : BufTy).Contents (Elt F) → (⟨S50000x128, .f32⟩ : BufTy).Contents (Elt F)),
    binary main_v48 main_v53 main_v54 (subf : (⟨S50000x128, .f32⟩ : BufTy).Contents (Elt F) → (⟨S50000x128, .f32⟩ : BufTy).Contents (Elt F) → (⟨S50000x128, .f32⟩ : BufTy).Contents (Elt F)),
    binary main_v54 main_v54 main_v55 (mulf : (⟨S50000x128, .f32⟩ : BufTy).Contents (Elt F) → (⟨S50000x128, .f32⟩ : BufTy).Contents (Elt F) → (⟨S50000x128, .f32⟩ : BufTy).Contents (Elt F)),
    nullary main_cst_11 (constant S_ .f32 0x00000000#32),
    binary main_v55 main_cst_11 main_v56 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_12 (constant S_ .f32 0x47435000#32),
    unary main_cst_12 main_v57 (broadcastInDim S128 ![] bcast_S_S128 : (⟨S_, .f32⟩ : BufTy).Contents (Elt F) → (⟨S128, .f32⟩ : BufTy).Contents (Elt F)),
    binary main_v56 main_v57 main_v58 (Host.divf : (⟨S128, .f32⟩ : BufTy).Contents (Elt F) → (⟨S128, .f32⟩ : BufTy).Contents (Elt F) → (⟨S128, .f32⟩ : BufTy).Contents (Elt F)),
    unary main_v51 main_v59 (broadcastInDim S1x128 ![1] bcast_S128_S1x128_1 : (⟨S128, .f32⟩ : BufTy).Contents (Elt F) → (⟨S1x128, .f32⟩ : BufTy).Contents (Elt F)),
    unary main_v59 main_v60 (broadcastInDim S50000x128 ![0, 1] bcast_S1x128_S50000x128_0_1 : (⟨S1x128, .f32⟩ : BufTy).Contents (Elt F) → (⟨S50000x128, .f32⟩ : BufTy).Contents (Elt F)),
    binary main_v48 main_v60 main_v61 (subf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x3727C5AC#32),
    unary main_cst_13 main_v62 (broadcastInDim S128 ![] bcast_S_S128 : (⟨S_, .f32⟩ : BufTy).Contents (Elt F) → (⟨S128, .f32⟩ : BufTy).Contents (Elt F)),
    binary main_v58 main_v62 main_v63 (addf : (⟨S128, .f32⟩ : BufTy).Contents (Elt F) → (⟨S128, .f32⟩ : BufTy).Contents (Elt F) → (⟨S128, .f32⟩ : BufTy).Contents (Elt F)),
    unary main_v63 main_v64 (Host.rsqrt : (⟨S128, .f32⟩ : BufTy).Contents (Elt F) → (⟨S128, .f32⟩ : BufTy).Contents (Elt F)),
    unary main_v64 main_v65 (broadcastInDim S1x128 ![1] bcast_S128_S1x128_1 : (⟨S128, .f32⟩ : BufTy).Contents (Elt F) → (⟨S1x128, .f32⟩ : BufTy).Contents (Elt F)),
    unary main_v65 main_v66 (broadcastInDim S50000x128 ![0, 1] bcast_S1x128_S50000x128_0_1 : (⟨S1x128, .f32⟩ : BufTy).Contents (Elt F) → (⟨S50000x128, .f32⟩ : BufTy).Contents (Elt F)),
    binary main_v61 main_v66 main_v67 (mulf : (⟨S50000x128, .f32⟩ : BufTy).Contents (Elt F) → (⟨S50000x128, .f32⟩ : BufTy).Contents (Elt F) → (⟨S50000x128, .f32⟩ : BufTy).Contents (Elt F)),
    unary main_arg5 main_v68 (broadcastInDim S1x128 ![1] bcast_S128_S1x128_1 : (⟨S128, .f32⟩ : BufTy).Contents (Elt F) → (⟨S1x128, .f32⟩ : BufTy).Contents (Elt F)),
    unary main_v68 main_v69 (broadcastInDim S50000x128 ![0, 1] bcast_S1x128_S50000x128_0_1 : (⟨S1x128, .f32⟩ : BufTy).Contents (Elt F) → (⟨S50000x128, .f32⟩ : BufTy).Contents (Elt F)),
    binary main_v67 main_v69 main_v70 (mulf : (⟨S50000x128, .f32⟩ : BufTy).Contents (Elt F) → (⟨S50000x128, .f32⟩ : BufTy).Contents (Elt F) → (⟨S50000x128, .f32⟩ : BufTy).Contents (Elt F)),
    unary main_arg6 main_v71 (broadcastInDim S1x128 ![1] bcast_S128_S1x128_1 : (⟨S128, .f32⟩ : BufTy).Contents (Elt F) → (⟨S1x128, .f32⟩ : BufTy).Contents (Elt F)),
    unary main_v71 main_v72 (broadcastInDim S50000x128 ![0, 1] bcast_S1x128_S50000x128_0_1 : (⟨S1x128, .f32⟩ : BufTy).Contents (Elt F) → (⟨S50000x128, .f32⟩ : BufTy).Contents (Elt F)),
    binary main_v70 main_v72 main_v73 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v73) (TRef.of (T := ⟨S50000x128, .f32⟩) main_call0_v0) (TRef.of (T := ⟨S50000x128, .f32⟩) main_v74) maximumf,
    binary main_v74 main_arg7 main_v75 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The second graph aggregation. -/
abbrev ops3 : List (HloOp τ sig (Elt F)) :=
  [ nullary main_cst_14 (constant S_ .f32 0x3F800000#32),
    unary main_cst_14 main_v76 (broadcastInDim S800000 ![] bcast_S_S800000 : (⟨S_, .f32⟩ : BufTy).Contents (Elt F) → (⟨S800000, .f32⟩ : BufTy).Contents (Elt F)),
    nullary main_cst_15 (constant S_ .f32 0x00000000#32),
    unary main_cst_15 main_v77 (broadcastInDim S50000 ![] bcast_S_S50000 : (⟨S_, .f32⟩ : BufTy).Contents (Elt F) → (⟨S50000, .f32⟩ : BufTy).Contents (Elt F)),
    unary main_v3 main_v78 (broadcastInDim S800000x1 ![0] bcast_S800000_S800000x1_0 : (⟨S800000, .i32⟩ : BufTy).Contents (Elt F) → (⟨S800000x1, .i32⟩ : BufTy).Contents (Elt F)),
    ternary main_v77 main_v78 main_v76 main_v79 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_16 (constant S_ .f32 0x3F800000#32),
    unary main_cst_16 main_v80 (broadcastInDim S50000 ![] bcast_S_S50000 : (⟨S_, .f32⟩ : BufTy).Contents (Elt F) → (⟨S50000, .f32⟩ : BufTy).Contents (Elt F)),
    binary main_v79 main_v80 main_v81 (addf : (⟨S50000, .f32⟩ : BufTy).Contents (Elt F) → (⟨S50000, .f32⟩ : BufTy).Contents (Elt F) → (⟨S50000, .f32⟩ : BufTy).Contents (Elt F)),
    nullary main_cst_17 (constant S_ .f32 0xBF000000#32),
    unary main_cst_17 main_v82 (broadcastInDim S50000 ![] bcast_S_S50000 : (⟨S_, .f32⟩ : BufTy).Contents (Elt F) → (⟨S50000, .f32⟩ : BufTy).Contents (Elt F)),
    binary main_v81 main_v82 main_v83 (Host.powf : (⟨S50000, .f32⟩ : BufTy).Contents (Elt F) → (⟨S50000, .f32⟩ : BufTy).Contents (Elt F) → (⟨S50000, .f32⟩ : BufTy).Contents (Elt F)),
    nullary main_c_18 (constantI S_ 32 0#32),
    unary main_c_18 main_v84 (broadcastInDim S800000 ![] bcast_S_S800000 : (⟨S_, .i32⟩ : BufTy).Contents (Elt F) → (⟨S800000, .i32⟩ : BufTy).Contents (Elt F)),
    binary main_v1 main_v84 main_v85 (cmpi .slt : (⟨S800000, .i32⟩ : BufTy).Contents (Elt F) → (⟨S800000, .i32⟩ : BufTy).Contents (Elt F) → (⟨S800000, .i1⟩ : BufTy).Contents (Elt F)),
    nullary main_c_19 (constantI S_ 32 50000#32),
    unary main_c_19 main_v86 (broadcastInDim S800000 ![] bcast_S_S800000 : (⟨S_, .i32⟩ : BufTy).Contents (Elt F) → (⟨S800000, .i32⟩ : BufTy).Contents (Elt F)),
    binary main_v1 main_v86 main_v87 (addi : (⟨S800000, .i32⟩ : BufTy).Contents (Elt F) → (⟨S800000, .i32⟩ : BufTy).Contents (Elt F) → (⟨S800000, .i32⟩ : BufTy).Contents (Elt F)),
    ternary main_v85 main_v87 main_v1 main_v88 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v88 main_v89 (broadcastInDim S800000x1 ![0] bcast_S800000_S800000x1_0 : (⟨S800000, .i32⟩ : BufTy).Contents (Elt F) → (⟨S800000x1, .i32⟩ : BufTy).Contents (Elt F)),
    binary main_v83 main_v89 main_v90 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_20 (constantI S_ 32 0#32),
    unary main_c_20 main_v91 (broadcastInDim S800000 ![] bcast_S_S800000 : (⟨S_, .i32⟩ : BufTy).Contents (Elt F) → (⟨S800000, .i32⟩ : BufTy).Contents (Elt F)),
    binary main_v3 main_v91 main_v92 (cmpi .slt : (⟨S800000, .i32⟩ : BufTy).Contents (Elt F) → (⟨S800000, .i32⟩ : BufTy).Contents (Elt F) → (⟨S800000, .i1⟩ : BufTy).Contents (Elt F)),
    nullary main_c_21 (constantI S_ 32 50000#32),
    unary main_c_21 main_v93 (broadcastInDim S800000 ![] bcast_S_S800000 : (⟨S_, .i32⟩ : BufTy).Contents (Elt F) → (⟨S800000, .i32⟩ : BufTy).Contents (Elt F)),
    binary main_v3 main_v93 main_v94 (addi : (⟨S800000, .i32⟩ : BufTy).Contents (Elt F) → (⟨S800000, .i32⟩ : BufTy).Contents (Elt F) → (⟨S800000, .i32⟩ : BufTy).Contents (Elt F)),
    ternary main_v92 main_v94 main_v3 main_v95 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v95 main_v96 (broadcastInDim S800000x1 ![0] bcast_S800000_S800000x1_0 : (⟨S800000, .i32⟩ : BufTy).Contents (Elt F) → (⟨S800000x1, .i32⟩ : BufTy).Contents (Elt F)),
    binary main_v83 main_v96 main_v97 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v90 main_v97 main_v98 (mulf : (⟨S800000, .f32⟩ : BufTy).Contents (Elt F) → (⟨S800000, .f32⟩ : BufTy).Contents (Elt F) → (⟨S800000, .f32⟩ : BufTy).Contents (Elt F)),
    nullary main_c_22 (constantI S_ 32 0#32),
    unary main_c_22 main_v99 (broadcastInDim S800000 ![] bcast_S_S800000 : (⟨S_, .i32⟩ : BufTy).Contents (Elt F) → (⟨S800000, .i32⟩ : BufTy).Contents (Elt F)),
    binary main_v1 main_v99 main_v100 (cmpi .slt : (⟨S800000, .i32⟩ : BufTy).Contents (Elt F) → (⟨S800000, .i32⟩ : BufTy).Contents (Elt F) → (⟨S800000, .i1⟩ : BufTy).Contents (Elt F)),
    nullary main_c_23 (constantI S_ 32 50000#32),
    unary main_c_23 main_v101 (broadcastInDim S800000 ![] bcast_S_S800000 : (⟨S_, .i32⟩ : BufTy).Contents (Elt F) → (⟨S800000, .i32⟩ : BufTy).Contents (Elt F)),
    binary main_v1 main_v101 main_v102 (addi : (⟨S800000, .i32⟩ : BufTy).Contents (Elt F) → (⟨S800000, .i32⟩ : BufTy).Contents (Elt F) → (⟨S800000, .i32⟩ : BufTy).Contents (Elt F)),
    ternary main_v100 main_v102 main_v1 main_v103 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v103 main_v104 (broadcastInDim S800000x1 ![0] bcast_S800000_S800000x1_0 : (⟨S800000, .i32⟩ : BufTy).Contents (Elt F) → (⟨S800000x1, .i32⟩ : BufTy).Contents (Elt F)),
    binary main_v75 main_v104 main_v105 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v98 main_v106 (broadcastInDim S800000x1 ![0] bcast_S800000_S800000x1_0 : (⟨S800000, .f32⟩ : BufTy).Contents (Elt F) → (⟨S800000x1, .f32⟩ : BufTy).Contents (Elt F)),
    unary main_v106 main_v107 (broadcastInDim S800000x128 ![0, 1] bcast_S800000x1_S800000x128_0_1 : (⟨S800000x1, .f32⟩ : BufTy).Contents (Elt F) → (⟨S800000x128, .f32⟩ : BufTy).Contents (Elt F)),
    binary main_v105 main_v107 main_v108 (mulf : (⟨S800000x128, .f32⟩ : BufTy).Contents (Elt F) → (⟨S800000x128, .f32⟩ : BufTy).Contents (Elt F) → (⟨S800000x128, .f32⟩ : BufTy).Contents (Elt F)),
    nullary main_cst_24 (constant S_ .f32 0x00000000#32),
    unary main_cst_24 main_v109 (broadcastInDim S50000x128 ![] bcast_S_S50000x128 : (⟨S_, .f32⟩ : BufTy).Contents (Elt F) → (⟨S50000x128, .f32⟩ : BufTy).Contents (Elt F)),
    unary main_v3 main_v110 (broadcastInDim S800000x1 ![0] bcast_S800000_S800000x1_0 : (⟨S800000, .i32⟩ : BufTy).Contents (Elt F) → (⟨S800000x1, .i32⟩ : BufTy).Contents (Elt F)),
    ternary main_v109 main_v110 main_v108 main_v111 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v83 main_v83 main_v112 (mulf : (⟨S50000, .f32⟩ : BufTy).Contents (Elt F) → (⟨S50000, .f32⟩ : BufTy).Contents (Elt F) → (⟨S50000, .f32⟩ : BufTy).Contents (Elt F)),
    unary main_v112 main_v113 (broadcastInDim S50000x1 ![0] bcast_S50000_S50000x1_0 : (⟨S50000, .f32⟩ : BufTy).Contents (Elt F) → (⟨S50000x1, .f32⟩ : BufTy).Contents (Elt F)),
    unary main_v113 main_v114 (broadcastInDim S50000x128 ![0, 1] bcast_S50000x1_S50000x128_0_1 : (⟨S50000x1, .f32⟩ : BufTy).Contents (Elt F) → (⟨S50000x128, .f32⟩ : BufTy).Contents (Elt F)),
    binary main_v75 main_v114 main_v115 (mulf : (⟨S50000x128, .f32⟩ : BufTy).Contents (Elt F) → (⟨S50000x128, .f32⟩ : BufTy).Contents (Elt F) → (⟨S50000x128, .f32⟩ : BufTy).Contents (Elt F)),
    binary main_v111 main_v115 main_v116 (addf : (⟨S50000x128, .f32⟩ : BufTy).Contents (Elt F) → (⟨S50000x128, .f32⟩ : BufTy).Contents (Elt F) → (⟨S50000x128, .f32⟩ : BufTy).Contents (Elt F)),
    unary main_arg8 main_v117 (broadcastInDim S1x128 ![1] bcast_S128_S1x128_1 : (⟨S128, .f32⟩ : BufTy).Contents (Elt F) → (⟨S1x128, .f32⟩ : BufTy).Contents (Elt F)),
    unary main_v117 main_v118 (broadcastInDim S50000x128 ![0, 1] bcast_S1x128_S50000x128_0_1 : (⟨S1x128, .f32⟩ : BufTy).Contents (Elt F) → (⟨S50000x128, .f32⟩ : BufTy).Contents (Elt F)),
    binary main_v116 main_v118 main_v119 (addf : (⟨S50000x128, .f32⟩ : BufTy).Contents (Elt F) → (⟨S50000x128, .f32⟩ : BufTy).Contents (Elt F) → (⟨S50000x128, .f32⟩ : BufTy).Contents (Elt F)) ]

/-- The rows at the two ends of every edge and the read-out. -/
abbrev ops4 : List (HloOp τ sig (Elt F)) :=
  [ nullary main_c_25 (constantI S_ 32 0#32),
    unary main_c_25 main_v120 (broadcastInDim S800000 ![] bcast_S_S800000 : (⟨S_, .i32⟩ : BufTy).Contents (Elt F) → (⟨S800000, .i32⟩ : BufTy).Contents (Elt F)),
    binary main_v1 main_v120 main_v121 (cmpi .slt : (⟨S800000, .i32⟩ : BufTy).Contents (Elt F) → (⟨S800000, .i32⟩ : BufTy).Contents (Elt F) → (⟨S800000, .i1⟩ : BufTy).Contents (Elt F)),
    nullary main_c_26 (constantI S_ 32 50000#32),
    unary main_c_26 main_v122 (broadcastInDim S800000 ![] bcast_S_S800000 : (⟨S_, .i32⟩ : BufTy).Contents (Elt F) → (⟨S800000, .i32⟩ : BufTy).Contents (Elt F)),
    binary main_v1 main_v122 main_v123 (addi : (⟨S800000, .i32⟩ : BufTy).Contents (Elt F) → (⟨S800000, .i32⟩ : BufTy).Contents (Elt F) → (⟨S800000, .i32⟩ : BufTy).Contents (Elt F)),
    ternary main_v121 main_v123 main_v1 main_v124 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v124 main_v125 (broadcastInDim S800000x1 ![0] bcast_S800000_S800000x1_0 : (⟨S800000, .i32⟩ : BufTy).Contents (Elt F) → (⟨S800000x1, .i32⟩ : BufTy).Contents (Elt F)),
    binary main_v119 main_v125 main_v126 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_27 (constantI S_ 32 0#32),
    unary main_c_27 main_v127 (broadcastInDim S800000 ![] bcast_S_S800000 : (⟨S_, .i32⟩ : BufTy).Contents (Elt F) → (⟨S800000, .i32⟩ : BufTy).Contents (Elt F)),
    binary main_v3 main_v127 main_v128 (cmpi .slt : (⟨S800000, .i32⟩ : BufTy).Contents (Elt F) → (⟨S800000, .i32⟩ : BufTy).Contents (Elt F) → (⟨S800000, .i1⟩ : BufTy).Contents (Elt F)),
    nullary main_c_28 (constantI S_ 32 50000#32),
    unary main_c_28 main_v129 (broadcastInDim S800000 ![] bcast_S_S800000 : (⟨S_, .i32⟩ : BufTy).Contents (Elt F) → (⟨S800000, .i32⟩ : BufTy).Contents (Elt F)),
    binary main_v3 main_v129 main_v130 (addi : (⟨S800000, .i32⟩ : BufTy).Contents (Elt F) → (⟨S800000, .i32⟩ : BufTy).Contents (Elt F) → (⟨S800000, .i32⟩ : BufTy).Contents (Elt F)),
    ternary main_v128 main_v130 main_v3 main_v131 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v131 main_v132 (broadcastInDim S800000x1 ![0] bcast_S800000_S800000x1_0 : (⟨S800000, .i32⟩ : BufTy).Contents (Elt F) → (⟨S800000x1, .i32⟩ : BufTy).Contents (Elt F)),
    binary main_v119 main_v132 main_v133 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nary ![main_v126, main_v133, main_arg2] main_v134 (fun u => concatenate S800000x272 1 [⟨S800000x128, u 0⟩, ⟨S800000x128, u 1⟩, ⟨S800000x16, u 2⟩] concatenates_S800000x128_S800000x128_S800000x16_S800000x272_d1),
    binary main_v134 main_arg9 main_v135 ((fun l r => Host.dotGeneral dot_S800000x272_S272x128_S800000x128_1_0_0_1_n_n none l r) : (⟨S800000x272, .f32⟩ : BufTy).Contents (Elt F) → (⟨S272x128, .f32⟩ : BufTy).Contents (Elt F) → (⟨S800000x128, .f32⟩ : BufTy).Contents (Elt F)),
    unary main_arg10 main_v136 (broadcastInDim S1x128 ![1] bcast_S128_S1x128_1 : (⟨S128, .f32⟩ : BufTy).Contents (Elt F) → (⟨S1x128, .f32⟩ : BufTy).Contents (Elt F)),
    unary main_v136 main_v137 (broadcastInDim S800000x128 ![0, 1] bcast_S1x128_S800000x128_0_1 : (⟨S1x128, .f32⟩ : BufTy).Contents (Elt F) → (⟨S800000x128, .f32⟩ : BufTy).Contents (Elt F)),
    binary main_v135 main_v137 main_v138 (addf : (⟨S800000x128, .f32⟩ : BufTy).Contents (Elt F) → (⟨S800000x128, .f32⟩ : BufTy).Contents (Elt F) → (⟨S800000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S800000x128, .f32⟩) main_call1_v0) (broadcastInDim S800000x128 ![] bcast_S_S800000x128),
    TRef.binary (TRef.of (T := ⟨S800000x128, .f32⟩) main_v138) (TRef.of (T := ⟨S800000x128, .f32⟩) main_call1_v0) (TRef.of (T := ⟨S800000x128, .f32⟩) main_v139) maximumf,
    binary main_v139 main_arg11 main_v140 ((fun l r => Host.dotGeneral dot_S800000x128_S128x1_S800000x1_1_0_0_1_n_n none l r) : (⟨S800000x128, .f32⟩ : BufTy).Contents (Elt F) → (⟨S128x1, .f32⟩ : BufTy).Contents (Elt F) → (⟨S800000x1, .f32⟩ : BufTy).Contents (Elt F)),
    unary main_arg12 main_v141 (broadcastInDim S1x1 ![1] bcast_S1_S1x1_1 : (⟨S1, .f32⟩ : BufTy).Contents (Elt F) → (⟨S1x1, .f32⟩ : BufTy).Contents (Elt F)),
    unary main_v141 main_v142 (broadcastInDim S800000x1 ![0, 1] bcast_S1x1_S800000x1_0_1 : (⟨S1x1, .f32⟩ : BufTy).Contents (Elt F) → (⟨S800000x1, .f32⟩ : BufTy).Contents (Elt F)),
    binary main_v140 main_v142 main_v143 (addf : (⟨S800000x1, .f32⟩ : BufTy).Contents (Elt F) → (⟨S800000x1, .f32⟩ : BufTy).Contents (Elt F) → (⟨S800000x1, .f32⟩ : BufTy).Contents (Elt F)),
    reshape main_v143 main_v144 rfl shapeCasts_S800000x1_S800000 ]

/-- The whole line. -/
abbrev ops : List (HloOp τ sig (Elt F)) := ops0 ++ (ops1 ++ (ops2 ++ (ops3 ++ ops4)))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-- The fold of two lines one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

theorem after_ops (V : Valuation τ sig (Elt F)) :
    after ops V = after ops4 (after ops3 (after ops2 (after ops1 (after ops0 V)))) := by
  unfold ops
  rw [after_append, after_append, after_append, after_append]

end Cert.ReferenceIdeal.HandRun

end
-- ==== Proof.RRunThm.lean ====
/-
  THE REFERENCE'S RUN: every execution terminates with every buffer at the fold of the line over the launch contents.

  The line of RRun, stretch by stretch, touches the TensorCore's buffers only; so the library's run of a straight line
  applies to it.
-/
import proofs.«120905_j51728586113229_2_alg».proof.Proof.RRun

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub ..⟩
set_option maxRecDepth 8192 in
theorem ops1_sub : (ops1 : List (HloOp τ sig (Elt F))).Forall fun op => op.bufs ⊆ tcRefs τ sig :=
  ⟨binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub ..⟩
set_option maxRecDepth 8192 in
theorem ops2_sub : (ops2 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩
set_option maxRecDepth 8192 in
theorem ops3_sub : (ops3 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub ..⟩
set_option maxRecDepth 8192 in
theorem ops4_sub : (ops4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub ..⟩

theorem ops_sub : (ops : List (HloOp τ sig (Elt F))).Forall fun op => op.bufs ⊆ tcRefs τ sig :=
  List.forall_iff_forall_mem.mpr fun op h => by
    unfold ops at h
    rcases List.mem_append.mp h with h | h
    · exact List.forall_iff_forall_mem.mp ops0_sub op h
    rcases List.mem_append.mp h with h | h
    · exact List.forall_iff_forall_mem.mp ops1_sub op h
    rcases List.mem_append.mp h with h | h
    · exact List.forall_iff_forall_mem.mp ops2_sub op h
    rcases List.mem_append.mp h with h | h
    · exact List.forall_iff_forall_mem.mp ops3_sub op h
    · exact List.forall_iff_forall_mem.mp ops4_sub op h

theorem ops_fresh : ∀ op ∈ (ops : List (HloOp τ sig (Elt F))), op.fresh = ∅ := fun op h => by
  have f0 : (ops0 : List (HloOp τ sig (Elt F))).Forall fun op => op.fresh = ∅ := by simp only [List.Forall]; repeat' constructor
  have f1 : (ops1 : List (HloOp τ sig (Elt F))).Forall fun op => op.fresh = ∅ := by simp only [List.Forall]; repeat' constructor
  have f2 : (ops2 : List (HloOp τ sig (Elt F))).Forall fun op => op.fresh = ∅ := by simp only [List.Forall]; repeat' constructor
  have f3 : (ops3 : List (HloOp τ sig (Elt F))).Forall fun op => op.fresh = ∅ := by simp only [List.Forall]; repeat' constructor
  have f4 : (ops4 : List (HloOp τ sig (Elt F))).Forall fun op => op.fresh = ∅ := by simp only [List.Forall]; repeat' constructor
  unfold ops at h
  rcases List.mem_append.mp h with h | h
  · exact List.forall_iff_forall_mem.mp f0 op h
  rcases List.mem_append.mp h with h | h
  · exact List.forall_iff_forall_mem.mp f1 op h
  rcases List.mem_append.mp h with h | h
  · exact List.forall_iff_forall_mem.mp f2 op h
  rcases List.mem_append.mp h with h | h
  · exact List.forall_iff_forall_mem.mp f3 op h
  · exact List.forall_iff_forall_mem.mp f4 op h

set_option maxRecDepth 8192 in
set_option maxHeartbeats 4000000 in
/-- Every weakly fair execution of the reference terminates, nothing faulting, with every buffer at the fold of the
    line over its launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.HandRun

end
-- ==== Proof.RHostDefs.lean ====
/-
  THE REFERENCE'S ARRAY OPERATIONS, AS FUNCTIONS.

  The reference is one line of plain array operations.  Its stages are named here, each a function of the arrays it
  reads, for any float values: the two rows of the edge list (`src`, `dst`), the degree and its power −1/2 (`deg`,
  `dinv`), the index wrap (`wrap`), one graph convolution after its dense product (`agg`), the column statistics
  (`mean`, `var`, `rsq`), the normalisation written out and rectified (`normRelu`), the dense product of a node
  array with a square weight (`prod1`), the rows of a node array at the ends of every edge (`gathRows`), and the edge
  read-out (`head`): the three operands joined along their columns, one product with the tall weight, a bias, the
  rectifier, the product with the one-column weight, a bias, the column read as a vector.
-/
import proofs.«120905_j51728586113229_2_alg».proof.Proof.Gen.ReferenceIdeal

noncomputable section

namespace Cert.ReferenceIdeal.HostFn

open Cert.ReferenceIdeal Cert.ReferenceIdeal.Gen Idealize.ShloMosaic Idealize.ShloMosaic.TcCoe

variable {F : FTy → Type} [FloatOps F]

/-- The edge list's first row: the sources. -/
def src (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- The edge list's second row: the destinations. -/
def dst (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- A vector of edge indices as one column. -/
def col (i : (⟨S800000, .i32⟩ : BufTy).Contents (Elt F)) : (⟨S800000x1, .i32⟩ : BufTy).Contents (Elt F) :=
  broadcastInDim S800000x1 ![0] bcast_S800000_S800000x1_0 i

/-- One plus the number of edges arriving at each node. -/
def deg (d : (⟨S800000, .i32⟩ : BufTy).Contents (Elt F)) : (⟨S50000, .f32⟩ : BufTy).Contents (Elt F) :=
  addf (Host.scatterAdd scatter_S50000_S800000x1_S800000_n_0_0_1
      (broadcastInDim S50000 ![] bcast_S_S50000 (constant S_ .f32 0x00000000#32)) (col d)
      (broadcastInDim S800000 ![] bcast_S_S800000 (constant S_ .f32 0x3F800000#32)))
    (broadcastInDim S50000 ![] bcast_S_S50000 (constant S_ .f32 0x3F800000#32))

/-- The degree to the power −1/2. -/
def dinv (d : (⟨S800000, .i32⟩ : BufTy).Contents (Elt F)) : (⟨S50000, .f32⟩ : BufTy).Contents (Elt F) :=
  Host.powf (deg d) (broadcastInDim S50000 ![] bcast_S_S50000 (constant S_ .f32 0xBF000000#32))

/-- An index below zero moved up by the node count. -/
def wrap (i : (⟨S800000, .i32⟩ : BufTy).Contents (Elt F)) : (⟨S800000, .i32⟩ : BufTy).Contents (Elt F) :=
  select (cmpi .slt i (broadcastInDim S800000 ![] bcast_S_S800000 (constantI S_ 32 0#32)))
    (addi i (broadcastInDim S800000 ![] bcast_S_S800000 (constantI S_ 32 50000#32))) i

/-- The weight of an edge: `dinv` at its source times `dinv` at its destination. -/
def norm (s d : (⟨S800000, .i32⟩ : BufTy).Contents (Elt F)) : (⟨S800000, .f32⟩ : BufTy).Contents (Elt F) :=
  mulf (Host.gather gather_S50000_S800000x1_S800000_n_0_n_n_0_1_1 (dinv d) (col (wrap s)))
    (Host.gather gather_S50000_S800000x1_S800000_n_0_n_n_0_1_1 (dinv d) (col (wrap d)))

/-- A vector repeated on every row of a tall array. -/
def rows (v : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 v)

/-- One graph convolution after its dense product `h`. -/
def agg (h : (⟨S50000x128, .f32⟩ : BufTy).Contents (Elt F)) (s d : (⟨S800000, .i32⟩ : BufTy).Contents (Elt F)) (b : (⟨S128, .f32⟩ : BufTy).Contents (Elt F)) : (⟨S50000x128, .f32⟩ : BufTy).Contents (Elt F) :=
  addf (addf (Host.scatterAdd scatter_S50000x128_S800000x1_S800000x128_1_0_0_1
        (broadcastInDim S50000x128 ![] bcast_S_S50000x128 (constant S_ .f32 0x00000000#32)) (col d)
        (mulf (Host.gather gather_S50000x128_S800000x1_S800000x128_1_0_n_n_0_1_1128 h (col (wrap s)))
          (broadcastInDim S800000x128 ![0, 1] bcast_S800000x1_S800000x128_0_1
            (broadcastInDim S800000x1 ![0] bcast_S800000_S800000x1_0 (norm s d)))))
      (mulf h (broadcastInDim S50000x128 ![0, 1] bcast_S50000x1_S50000x128_0_1
        (broadcastInDim S50000x1 ![0] bcast_S50000_S50000x1_0 (mulf (dinv d) (dinv d))))))
    (rows b)

/-- The column means. -/
def mean (z : (⟨S50000x128, .f32⟩ : BufTy).Contents (Elt F)) : (⟨S128, .f32⟩ : BufTy).Contents (Elt F) :=
  Host.divf (Host.reduceAdd z (constant S_ .f32 0x00000000#32) reducesTo_S50000x128_S128_d0 h_S_)
    (broadcastInDim S128 ![] bcast_S_S128 (constant S_ .f32 0x47435000#32))

/-- The column means of the squared deviations from the column means. -/
def var (z : (⟨S50000x128, .f32⟩ : BufTy).Contents (Elt F)) : (⟨S128, .f32⟩ : BufTy).Contents (Elt F) :=
  Host.divf (Host.reduceAdd (mulf (subf z (rows (mean z))) (subf z (rows (mean z)))) (constant S_ .f32 0x00000000#32)
      reducesTo_S50000x128_S128_d0 h_S_)
    (broadcastInDim S128 ![] bcast_S_S128 (constant S_ .f32 0x47435000#32))

/-- The reciprocal square root of the variance plus the small constant. -/
def rsq (z : (⟨S50000x128, .f32⟩ : BufTy).Contents (Elt F)) : (⟨S128, .f32⟩ : BufTy).Contents (Elt F) :=
  Host.rsqrt (addf (var z) (broadcastInDim S128 ![] bcast_S_S128 (constant S_ .f32 0x3727C5AC#32)))

/-- The normalisation written out and rectified. -/
def normRelu (z : (⟨S50000x128, .f32⟩ : BufTy).Contents (Elt F)) (g β : (⟨S128, .f32⟩ : BufTy).Contents (Elt F)) : (⟨S50000x128, .f32⟩ : BufTy).Contents (Elt F) :=
  maximumf (addf (mulf (mulf (subf z (rows (mean z))) (rows (rsq z))) (rows g)) (rows β))
    (broadcastInDim S50000x128 ![] bcast_S_S50000x128 (constant S_ .f32 0x00000000#32))

/-- The dense product of a node array with a square weight. -/
def prod1 (x : (⟨S50000x128, .f32⟩ : BufTy).Contents (Elt F)) (w : (⟨S128x128, .f32⟩ : BufTy).Contents (Elt F)) : (⟨S50000x128, .f32⟩ : BufTy).Contents (Elt F) :=
  Host.dotGeneral dot_S50000x128_S128x128_S50000x128_1_0_0_1_n_n none x w

/-- The rows of a node array at the (wrapped) indices, one per edge. -/
def gathRows (z : (⟨S50000x128, .f32⟩ : BufTy).Contents (Elt F)) (i : (⟨S800000, .i32⟩ : BufTy).Contents (Elt F)) : (⟨S800000x128, .f32⟩ : BufTy).Contents (Elt F) :=
  Host.gather gather_S50000x128_S800000x1_S800000x128_1_0_n_n_0_1_1128 z (col (wrap i))

/-- The edge read-out. -/
def head (zs zd : (⟨S800000x128, .f32⟩ : BufTy).Contents (Elt F)) (ea : (⟨S800000x16, .f32⟩ : BufTy).Contents (Elt F)) (w1 : (⟨S272x128, .f32⟩ : BufTy).Contents (Elt F))
    (b1 : (⟨S128, .f32⟩ : BufTy).Contents (Elt F)) (w2 : (⟨S128x1, .f32⟩ : BufTy).Contents (Elt F)) (b2 : (⟨S1, .f32⟩ : BufTy).Contents (Elt F)) : (⟨S800000, .f32⟩ : BufTy).Contents (Elt F) :=
  shapeCast _ (addf (Host.dotGeneral dot_S800000x128_S128x1_S800000x1_1_0_0_1_n_n none
      (maximumf (addf (Host.dotGeneral dot_S800000x272_S272x128_S800000x128_1_0_0_1_n_n none
            (concatenate S800000x272 1 [⟨S800000x128, zs⟩, ⟨S800000x128, zd⟩, ⟨S800000x16, ea⟩]
              concatenates_S800000x128_S800000x128_S800000x16_S800000x272_d1) w1)
          (broadcastInDim S800000x128 ![0, 1] bcast_S1x128_S800000x128_0_1 (broadcastInDim S1x128 ![1] bcast_S128_S1x128_1 b1)))
        (broadcastInDim S800000x128 ![] bcast_S_S800000x128 (constant S_ .f32 0x00000000#32))) w2)
    (broadcastInDim S800000x1 ![0, 1] bcast_S1x1_S800000x1_0_1 (broadcastInDim S1x1 ![1] bcast_S1_S1x1_1 b2)))
    shapeCasts_S800000x1_S800000

end Cert.ReferenceIdeal.HostFn

end
-- ==== Proof.RFold01.lean ====
/-
  THE REFERENCE'S FIRST TWO STRETCHES, read at the buffers later stretches use.

  For any contents `W` of the buffers when a stretch starts: the first stretch leaves the two rows of the edge list;
  the second leaves the graph aggregation of the dense product of the node features with the first weight.  A buffer a
  stretch does not write keeps its contents.
-/
import proofs.«120905_j51728586113229_2_alg».proof.Proof.RRun
import proofs.«120905_j51728586113229_2_alg».proof.Proof.RHostDefs

set_option maxRecDepth 16384

noncomputable section

namespace Cert.ReferenceIdeal.Fold

open Cert.ReferenceIdeal Cert.ReferenceIdeal.Gen Cert.ReferenceIdeal.HostFn Cert.ReferenceIdeal.HandRun
open Idealize.ShloMosaic Idealize.ShloMosaic.TcCoe Idealize.SL.Sem Idealize.ShloMosaic.StableHlo

variable {F : FTy → Type} [FloatOps F]

/-- A buffer no operation of the stretch writes keeps its contents. -/
local macro "keeps" ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

theorem r0_v1 (W : Valuation τ sig (Elt F)) : StableHlo.after ops0 W (Proc.devRef .tc main_v1) = src (W (Proc.devRef .tc main_arg1)) := by
  dsimp only [ops0]; after_results <;> rfl

theorem r0_v3 (W : Valuation τ sig (Elt F)) : StableHlo.after ops0 W (Proc.devRef .tc main_v3) = dst (W (Proc.devRef .tc main_arg1)) := by
  dsimp only [ops0]; after_results <;> rfl

theorem r0_arg0 (W : Valuation τ sig (Elt F)) : StableHlo.after ops0 W (Proc.devRef .tc main_arg0) = W (Proc.devRef .tc main_arg0) := by keeps ops0
theorem r0_arg1 (W : Valuation τ sig (Elt F)) : StableHlo.after ops0 W (Proc.devRef .tc main_arg1) = W (Proc.devRef .tc main_arg1) := by keeps ops0
theorem r0_arg2 (W : Valuation τ sig (Elt F)) : StableHlo.after ops0 W (Proc.devRef .tc main_arg2) = W (Proc.devRef .tc main_arg2) := by keeps ops0
theorem r0_arg3 (W : Valuation τ sig (Elt F)) : StableHlo.after ops0 W (Proc.devRef .tc main_arg3) = W (Proc.devRef .tc main_arg3) := by keeps ops0
theorem r0_arg4 (W : Valuation τ sig (Elt F)) : StableHlo.after ops0 W (Proc.devRef .tc main_arg4) = W (Proc.devRef .tc main_arg4) := by keeps ops0
theorem r0_arg5 (W : Valuation τ sig (Elt F)) : StableHlo.after ops0 W (Proc.devRef .tc main_arg5) = W (Proc.devRef .tc main_arg5) := by keeps ops0
theorem r0_arg6 (W : Valuation τ sig (Elt F)) : StableHlo.after ops0 W (Proc.devRef .tc main_arg6) = W (Proc.devRef .tc main_arg6) := by keeps ops0
theorem r0_arg7 (W : Valuation τ sig (Elt F)) : StableHlo.after ops0 W (Proc.devRef .tc main_arg7) = W (Proc.devRef .tc main_arg7) := by keeps ops0
theorem r0_arg8 (W : Valuation τ sig (Elt F)) : StableHlo.after ops0 W (Proc.devRef .tc main_arg8) = W (Proc.devRef .tc main_arg8) := by keeps ops0
theorem r0_arg9 (W : Valuation τ sig (Elt F)) : StableHlo.after ops0 W (Proc.devRef .tc main_arg9) = W (Proc.devRef .tc main_arg9) := by keeps ops0
theorem r0_arg10 (W : Valuation τ sig (Elt F)) : StableHlo.after ops0 W (Proc.devRef .tc main_arg10) = W (Proc.devRef .tc main_arg10) := by keeps ops0
theorem r0_arg11 (W : Valuation τ sig (Elt F)) : StableHlo.after ops0 W (Proc.devRef .tc main_arg11) = W (Proc.devRef .tc main_arg11) := by keeps ops0
theorem r0_arg12 (W : Valuation τ sig (Elt F)) : StableHlo.after ops0 W (Proc.devRef .tc main_arg12) = W (Proc.devRef .tc main_arg12) := by keeps ops0

set_option maxHeartbeats 4000000 in
theorem r1_v48 (W : Valuation τ sig (Elt F)) :
    StableHlo.after ops1 W (Proc.devRef .tc main_v48)
      = agg (prod1 (W (Proc.devRef .tc main_arg0)) (W (Proc.devRef .tc main_arg3))) (W (Proc.devRef .tc main_v1)) (W (Proc.devRef .tc main_v3)) (W (Proc.devRef .tc main_arg4)) := by
  dsimp only [ops1]; after_results_simp <;> rfl

theorem r1_v1 (W : Valuation τ sig (Elt F)) : StableHlo.after ops1 W (Proc.devRef .tc main_v1) = W (Proc.devRef .tc main_v1) := by keeps ops1
theorem r1_v3 (W : Valuation τ sig (Elt F)) : StableHlo.after ops1 W (Proc.devRef .tc main_v3) = W (Proc.devRef .tc main_v3) := by keeps ops1
theorem r1_arg0 (W : Valuation τ sig (Elt F)) : StableHlo.after ops1 W (Proc.devRef .tc main_arg0) = W (Proc.devRef .tc main_arg0) := by keeps ops1
theorem r1_arg1 (W : Valuation τ sig (Elt F)) : StableHlo.after ops1 W (Proc.devRef .tc main_arg1) = W (Proc.devRef .tc main_arg1) := by keeps ops1
theorem r1_arg2 (W : Valuation τ sig (Elt F)) : StableHlo.after ops1 W (Proc.devRef .tc main_arg2) = W (Proc.devRef .tc main_arg2) := by keeps ops1
theorem r1_arg3 (W : Valuation τ sig (Elt F)) : StableHlo.after ops1 W (Proc.devRef .tc main_arg3) = W (Proc.devRef .tc main_arg3) := by keeps ops1
theorem r1_arg4 (W : Valuation τ sig (Elt F)) : StableHlo.after ops1 W (Proc.devRef .tc main_arg4) = W (Proc.devRef .tc main_arg4) := by keeps ops1
theorem r1_arg5 (W : Valuation τ sig (Elt F)) : StableHlo.after ops1 W (Proc.devRef .tc main_arg5) = W (Proc.devRef .tc main_arg5) := by keeps ops1
theorem r1_arg6 (W : Valuation τ sig (Elt F)) : StableHlo.after ops1 W (Proc.devRef .tc main_arg6) = W (Proc.devRef .tc main_arg6) := by keeps ops1
theorem r1_arg7 (W : Valuation τ sig (Elt F)) : StableHlo.after ops1 W (Proc.devRef .tc main_arg7) = W (Proc.devRef .tc main_arg7) := by keeps ops1
theorem r1_arg8 (W : Valuation τ sig (Elt F)) : StableHlo.after ops1 W (Proc.devRef .tc main_arg8) = W (Proc.devRef .tc main_arg8) := by keeps ops1
theorem r1_arg9 (W : Valuation τ sig (Elt F)) : StableHlo.after ops1 W (Proc.devRef .tc main_arg9) = W (Proc.devRef .tc main_arg9) := by keeps ops1
theorem r1_arg10 (W : Valuation τ sig (Elt F)) : StableHlo.after ops1 W (Proc.devRef .tc main_arg10) = W (Proc.devRef .tc main_arg10) := by keeps ops1
theorem r1_arg11 (W : Valuation τ sig (Elt F)) : StableHlo.after ops1 W (Proc.devRef .tc main_arg11) = W (Proc.devRef .tc main_arg11) := by keeps ops1
theorem r1_arg12 (W : Valuation τ sig (Elt F)) : StableHlo.after ops1 W (Proc.devRef .tc main_arg12) = W (Proc.devRef .tc main_arg12) := by keeps ops1

end Cert.ReferenceIdeal.Fold

end
-- ==== Proof.RFold23.lean ====
/-
  THE REFERENCE'S THIRD AND FOURTH STRETCHES, read at the buffers later stretches use.

  For any contents `W` of the buffers when a stretch starts: the third stretch leaves the dense product of the
  normalised, rectified first layer with the second weight; the fourth leaves its graph aggregation.  A buffer a
  stretch does not write keeps its contents.
-/
import proofs.«120905_j51728586113229_2_alg».proof.Proof.RRun
import proofs.«120905_j51728586113229_2_alg».proof.Proof.RHostDefs

set_option maxRecDepth 16384

noncomputable section

namespace Cert.ReferenceIdeal.Fold

open Cert.ReferenceIdeal Cert.ReferenceIdeal.Gen Cert.ReferenceIdeal.HostFn Cert.ReferenceIdeal.HandRun
open Idealize.ShloMosaic Idealize.ShloMosaic.TcCoe Idealize.SL.Sem Idealize.ShloMosaic.StableHlo

variable {F : FTy → Type} [FloatOps F]

/-- A buffer no operation of the stretch writes keeps its contents. -/
local macro "keeps" ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

set_option maxHeartbeats 4000000 in
theorem r2_v75 (W : Valuation τ sig (Elt F)) :
    StableHlo.after ops2 W (Proc.devRef .tc main_v75)
      = prod1 (normRelu (W (Proc.devRef .tc main_v48)) (W (Proc.devRef .tc main_arg5)) (W (Proc.devRef .tc main_arg6))) (W (Proc.devRef .tc main_arg7)) := by
  dsimp only [ops2]; after_results_simp <;> rfl

theorem r2_v1 (W : Valuation τ sig (Elt F)) : StableHlo.after ops2 W (Proc.devRef .tc main_v1) = W (Proc.devRef .tc main_v1) := by keeps ops2
theorem r2_v3 (W : Valuation τ sig (Elt F)) : StableHlo.after ops2 W (Proc.devRef .tc main_v3) = W (Proc.devRef .tc main_v3) := by keeps ops2
theorem r2_arg0 (W : Valuation τ sig (Elt F)) : StableHlo.after ops2 W (Proc.devRef .tc main_arg0) = W (Proc.devRef .tc main_arg0) := by keeps ops2
theorem r2_arg1 (W : Valuation τ sig (Elt F)) : StableHlo.after ops2 W (Proc.devRef .tc main_arg1) = W (Proc.devRef .tc main_arg1) := by keeps ops2
theorem r2_arg2 (W : Valuation τ sig (Elt F)) : StableHlo.after ops2 W (Proc.devRef .tc main_arg2) = W (Proc.devRef .tc main_arg2) := by keeps ops2
theorem r2_arg3 (W : Valuation τ sig (Elt F)) : StableHlo.after ops2 W (Proc.devRef .tc main_arg3) = W (Proc.devRef .tc main_arg3) := by keeps ops2
theorem r2_arg4 (W : Valuation τ sig (Elt F)) : StableHlo.after ops2 W (Proc.devRef .tc main_arg4) = W (Proc.devRef .tc main_arg4) := by keeps ops2
theorem r2_arg5 (W : Valuation τ sig (Elt F)) : StableHlo.after ops2 W (Proc.devRef .tc main_arg5) = W (Proc.devRef .tc main_arg5) := by keeps ops2
theorem r2_arg6 (W : Valuation τ sig (Elt F)) : StableHlo.after ops2 W (Proc.devRef .tc main_arg6) = W (Proc.devRef .tc main_arg6) := by keeps ops2
theorem r2_arg7 (W : Valuation τ sig (Elt F)) : StableHlo.after ops2 W (Proc.devRef .tc main_arg7) = W (Proc.devRef .tc main_arg7) := by keeps ops2
theorem r2_arg8 (W : Valuation τ sig (Elt F)) : StableHlo.after ops2 W (Proc.devRef .tc main_arg8) = W (Proc.devRef .tc main_arg8) := by keeps ops2
theorem r2_arg9 (W : Valuation τ sig (Elt F)) : StableHlo.after ops2 W (Proc.devRef .tc main_arg9) = W (Proc.devRef .tc main_arg9) := by keeps ops2
theorem r2_arg10 (W : Valuation τ sig (Elt F)) : StableHlo.after ops2 W (Proc.devRef .tc main_arg10) = W (Proc.devRef .tc main_arg10) := by keeps ops2
theorem r2_arg11 (W : Valuation τ sig (Elt F)) : StableHlo.after ops2 W (Proc.devRef .tc main_arg11) = W (Proc.devRef .tc main_arg11) := by keeps ops2
theorem r2_arg12 (W : Valuation τ sig (Elt F)) : StableHlo.after ops2 W (Proc.devRef .tc main_arg12) = W (Proc.devRef .tc main_arg12) := by keeps ops2

set_option maxHeartbeats 4000000 in
theorem r3_v119 (W : Valuation τ sig (Elt F)) :
    StableHlo.after ops3 W (Proc.devRef .tc main_v119)
      = agg (W (Proc.devRef .tc main_v75)) (W (Proc.devRef .tc main_v1)) (W (Proc.devRef .tc main_v3)) (W (Proc.devRef .tc main_arg8)) := by
  dsimp only [ops3]; after_results_simp <;> rfl

theorem r3_v1 (W : Valuation τ sig (Elt F)) : StableHlo.after ops3 W (Proc.devRef .tc main_v1) = W (Proc.devRef .tc main_v1) := by keeps ops3
theorem r3_v3 (W : Valuation τ sig (Elt F)) : StableHlo.after ops3 W (Proc.devRef .tc main_v3) = W (Proc.devRef .tc main_v3) := by keeps ops3
theorem r3_arg0 (W : Valuation τ sig (Elt F)) : StableHlo.after ops3 W (Proc.devRef .tc main_arg0) = W (Proc.devRef .tc main_arg0) := by keeps ops3
theorem r3_arg1 (W : Valuation τ sig (Elt F)) : StableHlo.after ops3 W (Proc.devRef .tc main_arg1) = W (Proc.devRef .tc main_arg1) := by keeps ops3
theorem r3_arg2 (W : Valuation τ sig (Elt F)) : StableHlo.after ops3 W (Proc.devRef .tc main_arg2) = W (Proc.devRef .tc main_arg2) := by keeps ops3
theorem r3_arg3 (W : Valuation τ sig (Elt F)) : StableHlo.after ops3 W (Proc.devRef .tc main_arg3) = W (Proc.devRef .tc main_arg3) := by keeps ops3
theorem r3_arg4 (W : Valuation τ sig (Elt F)) : StableHlo.after ops3 W (Proc.devRef .tc main_arg4) = W (Proc.devRef .tc main_arg4) := by keeps ops3
theorem r3_arg5 (W : Valuation τ sig (Elt F)) : StableHlo.after ops3 W (Proc.devRef .tc main_arg5) = W (Proc.devRef .tc main_arg5) := by keeps ops3
theorem r3_arg6 (W : Valuation τ sig (Elt F)) : StableHlo.after ops3 W (Proc.devRef .tc main_arg6) = W (Proc.devRef .tc main_arg6) := by keeps ops3
theorem r3_arg7 (W : Valuation τ sig (Elt F)) : StableHlo.after ops3 W (Proc.devRef .tc main_arg7) = W (Proc.devRef .tc main_arg7) := by keeps ops3
theorem r3_arg8 (W : Valuation τ sig (Elt F)) : StableHlo.after ops3 W (Proc.devRef .tc main_arg8) = W (Proc.devRef .tc main_arg8) := by keeps ops3
theorem r3_arg9 (W : Valuation τ sig (Elt F)) : StableHlo.after ops3 W (Proc.devRef .tc main_arg9) = W (Proc.devRef .tc main_arg9) := by keeps ops3
theorem r3_arg10 (W : Valuation τ sig (Elt F)) : StableHlo.after ops3 W (Proc.devRef .tc main_arg10) = W (Proc.devRef .tc main_arg10) := by keeps ops3
theorem r3_arg11 (W : Valuation τ sig (Elt F)) : StableHlo.after ops3 W (Proc.devRef .tc main_arg11) = W (Proc.devRef .tc main_arg11) := by keeps ops3
theorem r3_arg12 (W : Valuation τ sig (Elt F)) : StableHlo.after ops3 W (Proc.devRef .tc main_arg12) = W (Proc.devRef .tc main_arg12) := by keeps ops3

end Cert.ReferenceIdeal.Fold

end
-- ==== Proof.RFold4.lean ====
/-
  THE REFERENCE'S LAST STRETCH, read at the result.

  For any contents `W` of the buffers when the stretch starts, the result is the edge read-out of the rows of the second
  layer at the two ends of every edge, the edge attributes and the read-out's weights.  The arguments keep their
  contents.
-/
import proofs.«120905_j51728586113229_2_alg».proof.Proof.RRun
import proofs.«120905_j51728586113229_2_alg».proof.Proof.RHostDefs

set_option maxRecDepth 16384

noncomputable section

namespace Cert.ReferenceIdeal.Fold

open Cert.ReferenceIdeal Cert.ReferenceIdeal.Gen Cert.ReferenceIdeal.HostFn Cert.ReferenceIdeal.HandRun
open Idealize.ShloMosaic Idealize.ShloMosaic.TcCoe Idealize.SL.Sem Idealize.ShloMosaic.StableHlo

variable {F : FTy → Type} [FloatOps F]

/-- A buffer no operation of the stretch writes keeps its contents. -/
local macro "keeps" ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.quaternary_writes, StableHlo.reshape_writes, StableHlo.binaryIndexed_writes, StableHlo.nary_writes, StableHlo.unaryIndexed_writes,
               Finset.mem_singleton]
             repeat' apply And.intro
             all_goals exact StableHlo.devRef_ne_of_ne (by decide)))

set_option maxHeartbeats 4000000 in
theorem r4_v144 (W : Valuation τ sig (Elt F)) :
    StableHlo.after ops4 W (Proc.devRef .tc main_v144)
      = head (gathRows (W (Proc.devRef .tc main_v119)) (W (Proc.devRef .tc main_v1))) (gathRows (W (Proc.devRef .tc main_v119)) (W (Proc.devRef .tc main_v3)))
          (W (Proc.devRef .tc main_arg2)) (W (Proc.devRef .tc main_arg9)) (W (Proc.devRef .tc main_arg10)) (W (Proc.devRef .tc main_arg11)) (W (Proc.devRef .tc main_arg12)) := by
  dsimp only [ops4]; after_results_simp <;> rfl

theorem r4_arg0 (W : Valuation τ sig (Elt F)) : StableHlo.after ops4 W (Proc.devRef .tc main_arg0) = W (Proc.devRef .tc main_arg0) := by keeps ops4
theorem r4_arg1 (W : Valuation τ sig (Elt F)) : StableHlo.after ops4 W (Proc.devRef .tc main_arg1) = W (Proc.devRef .tc main_arg1) := by keeps ops4
theorem r4_arg2 (W : Valuation τ sig (Elt F)) : StableHlo.after ops4 W (Proc.devRef .tc main_arg2) = W (Proc.devRef .tc main_arg2) := by keeps ops4
theorem r4_arg3 (W : Valuation τ sig (Elt F)) : StableHlo.after ops4 W (Proc.devRef .tc main_arg3) = W (Proc.devRef .tc main_arg3) := by keeps ops4
theorem r4_arg4 (W : Valuation τ sig (Elt F)) : StableHlo.after ops4 W (Proc.devRef .tc main_arg4) = W (Proc.devRef .tc main_arg4) := by keeps ops4
theorem r4_arg5 (W : Valuation τ sig (Elt F)) : StableHlo.after ops4 W (Proc.devRef .tc main_arg5) = W (Proc.devRef .tc main_arg5) := by keeps ops4
theorem r4_arg6 (W : Valuation τ sig (Elt F)) : StableHlo.after ops4 W (Proc.devRef .tc main_arg6) = W (Proc.devRef .tc main_arg6) := by keeps ops4
theorem r4_arg7 (W : Valuation τ sig (Elt F)) : StableHlo.after ops4 W (Proc.devRef .tc main_arg7) = W (Proc.devRef .tc main_arg7) := by keeps ops4
theorem r4_arg8 (W : Valuation τ sig (Elt F)) : StableHlo.after ops4 W (Proc.devRef .tc main_arg8) = W (Proc.devRef .tc main_arg8) := by keeps ops4
theorem r4_arg9 (W : Valuation τ sig (Elt F)) : StableHlo.after ops4 W (Proc.devRef .tc main_arg9) = W (Proc.devRef .tc main_arg9) := by keeps ops4
theorem r4_arg10 (W : Valuation τ sig (Elt F)) : StableHlo.after ops4 W (Proc.devRef .tc main_arg10) = W (Proc.devRef .tc main_arg10) := by keeps ops4
theorem r4_arg11 (W : Valuation τ sig (Elt F)) : StableHlo.after ops4 W (Proc.devRef .tc main_arg11) = W (Proc.devRef .tc main_arg11) := by keeps ops4
theorem r4_arg12 (W : Valuation τ sig (Elt F)) : StableHlo.after ops4 W (Proc.devRef .tc main_arg12) = W (Proc.devRef .tc main_arg12) := by keeps ops4

end Cert.ReferenceIdeal.Fold

end
-- ==== Proof.RValue.lean ====
/-
  WHAT THE REFERENCE LEAVES IN ITS RESULT BUFFER, as a function of the launch contents of its arguments.

  The fold of the reference's line is followed stretch by stretch from the launch contents: the edge list's two rows;
  the first layer (the graph aggregation of the first dense product); the second dense product, of the normalised and
  rectified first layer; the second layer; and the edge read-out of the second layer's rows at the two ends of every
  edge.  A buffer a stretch does not write is carried through it unchanged, so the arguments end as launched.
-/
import proofs.«120905_j51728586113229_2_alg».proof.Proof.RRunThm
import proofs.«120905_j51728586113229_2_alg».proof.Proof.RFold01
import proofs.«120905_j51728586113229_2_alg».proof.Proof.RFold23
import proofs.«120905_j51728586113229_2_alg».proof.Proof.RFold4

noncomputable section

namespace Cert.ReferenceIdeal.RValue

open Cert.ReferenceIdeal Cert.ReferenceIdeal.Gen Cert.ReferenceIdeal.HostFn Cert.ReferenceIdeal.HandRun Cert.ReferenceIdeal.Fold
open Idealize.ShloMosaic Idealize.ShloMosaic.TcCoe Idealize.SL.Sem Idealize.ShloMosaic.StableHlo

variable {F : FTy → Type} [FloatOps F]
variable (V : Valuation τ sig (Elt F))

/-- The contents after the first k stretches. -/
abbrev E0 : Valuation τ sig (Elt F) := after ops0 V
abbrev E1 : Valuation τ sig (Elt F) := after ops1 (E0 V)
abbrev E2 : Valuation τ sig (Elt F) := after ops2 (E1 V)
abbrev E3 : Valuation τ sig (Elt F) := after ops3 (E2 V)

theorem e0_arg0 : E0 V (Proc.devRef .tc main_arg0) = V (Proc.devRef .tc main_arg0) := r0_arg0 V
theorem e0_arg1 : E0 V (Proc.devRef .tc main_arg1) = V (Proc.devRef .tc main_arg1) := r0_arg1 V
theorem e0_arg2 : E0 V (Proc.devRef .tc main_arg2) = V (Proc.devRef .tc main_arg2) := r0_arg2 V
theorem e0_arg3 : E0 V (Proc.devRef .tc main_arg3) = V (Proc.devRef .tc main_arg3) := r0_arg3 V
theorem e0_arg4 : E0 V (Proc.devRef .tc main_arg4) = V (Proc.devRef .tc main_arg4) := r0_arg4 V
theorem e0_arg5 : E0 V (Proc.devRef .tc main_arg5) = V (Proc.devRef .tc main_arg5) := r0_arg5 V
theorem e0_arg6 : E0 V (Proc.devRef .tc main_arg6) = V (Proc.devRef .tc main_arg6) := r0_arg6 V
theorem e0_arg7 : E0 V (Proc.devRef .tc main_arg7) = V (Proc.devRef .tc main_arg7) := r0_arg7 V
theorem e0_arg8 : E0 V (Proc.devRef .tc main_arg8) = V (Proc.devRef .tc main_arg8) := r0_arg8 V
theorem e0_arg9 : E0 V (Proc.devRef .tc main_arg9) = V (Proc.devRef .tc main_arg9) := r0_arg9 V
theorem e0_arg10 : E0 V (Proc.devRef .tc main_arg10) = V (Proc.devRef .tc main_arg10) := r0_arg10 V
theorem e0_arg11 : E0 V (Proc.devRef .tc main_arg11) = V (Proc.devRef .tc main_arg11) := r0_arg11 V
theorem e0_arg12 : E0 V (Proc.devRef .tc main_arg12) = V (Proc.devRef .tc main_arg12) := r0_arg12 V
theorem e0_v1 : E0 V (Proc.devRef .tc main_v1) = src (V (Proc.devRef .tc main_arg1)) := r0_v1 V
theorem e0_v3 : E0 V (Proc.devRef .tc main_v3) = dst (V (Proc.devRef .tc main_arg1)) := r0_v3 V

theorem e1_arg0 : E1 V (Proc.devRef .tc main_arg0) = V (Proc.devRef .tc main_arg0) := (r1_arg0 (E0 V)).trans (e0_arg0 V)
theorem e1_arg1 : E1 V (Proc.devRef .tc main_arg1) = V (Proc.devRef .tc main_arg1) := (r1_arg1 (E0 V)).trans (e0_arg1 V)
theorem e1_arg2 : E1 V (Proc.devRef .tc main_arg2) = V (Proc.devRef .tc main_arg2) := (r1_arg2 (E0 V)).trans (e0_arg2 V)
theorem e1_arg3 : E1 V (Proc.devRef .tc main_arg3) = V (Proc.devRef .tc main_arg3) := (r1_arg3 (E0 V)).trans (e0_arg3 V)
theorem e1_arg4 : E1 V (Proc.devRef .tc main_arg4) = V (Proc.devRef .tc main_arg4) := (r1_arg4 (E0 V)).trans (e0_arg4 V)
theorem e1_arg5 : E1 V (Proc.devRef .tc main_arg5) = V (Proc.devRef .tc main_arg5) := (r1_arg5 (E0 V)).trans (e0_arg5 V)
theorem e1_arg6 : E1 V (Proc.devRef .tc main_arg6) = V (Proc.devRef .tc main_arg6) := (r1_arg6 (E0 V)).trans (e0_arg6 V)
theorem e1_arg7 : E1 V (Proc.devRef .tc main_arg7) = V (Proc.devRef .tc main_arg7) := (r1_arg7 (E0 V)).trans (e0_arg7 V)
theorem e1_arg8 : E1 V (Proc.devRef .tc main_arg8) = V (Proc.devRef .tc main_arg8) := (r1_arg8 (E0 V)).trans (e0_arg8 V)
theorem e1_arg9 : E1 V (Proc.devRef .tc main_arg9) = V (Proc.devRef .tc main_arg9) := (r1_arg9 (E0 V)).trans (e0_arg9 V)
theorem e1_arg10 : E1 V (Proc.devRef .tc main_arg10) = V (Proc.devRef .tc main_arg10) := (r1_arg10 (E0 V)).trans (e0_arg10 V)
theorem e1_arg11 : E1 V (Proc.devRef .tc main_arg11) = V (Proc.devRef .tc main_arg11) := (r1_arg11 (E0 V)).trans (e0_arg11 V)
theorem e1_arg12 : E1 V (Proc.devRef .tc main_arg12) = V (Proc.devRef .tc main_arg12) := (r1_arg12 (E0 V)).trans (e0_arg12 V)
theorem e1_v1 : E1 V (Proc.devRef .tc main_v1) = src (V (Proc.devRef .tc main_arg1)) := (r1_v1 (E0 V)).trans (e0_v1 V)
theorem e1_v3 : E1 V (Proc.devRef .tc main_v3) = dst (V (Proc.devRef .tc main_arg1)) := (r1_v3 (E0 V)).trans (e0_v3 V)

/-- The first layer. -/
def z1 : (⟨S50000x128, .f32⟩ : BufTy).Contents (Elt F) :=
  agg (prod1 (V (Proc.devRef .tc main_arg0)) (V (Proc.devRef .tc main_arg3))) (src (V (Proc.devRef .tc main_arg1))) (dst (V (Proc.devRef .tc main_arg1))) (V (Proc.devRef .tc main_arg4))

theorem e1_v48 : E1 V (Proc.devRef .tc main_v48) = z1 V := by
  refine (r1_v48 (E0 V)).trans ?_
  unfold z1
  rw [e0_arg0, e0_arg3, e0_v1, e0_v3, e0_arg4]

theorem e2_arg0 : E2 V (Proc.devRef .tc main_arg0) = V (Proc.devRef .tc main_arg0) := (r2_arg0 (E1 V)).trans (e1_arg0 V)
theorem e2_arg1 : E2 V (Proc.devRef .tc main_arg1) = V (Proc.devRef .tc main_arg1) := (r2_arg1 (E1 V)).trans (e1_arg1 V)
theorem e2_arg2 : E2 V (Proc.devRef .tc main_arg2) = V (Proc.devRef .tc main_arg2) := (r2_arg2 (E1 V)).trans (e1_arg2 V)
theorem e2_arg3 : E2 V (Proc.devRef .tc main_arg3) = V (Proc.devRef .tc main_arg3) := (r2_arg3 (E1 V)).trans (e1_arg3 V)
theorem e2_arg4 : E2 V (Proc.devRef .tc main_arg4) = V (Proc.devRef .tc main_arg4) := (r2_arg4 (E1 V)).trans (e1_arg4 V)
theorem e2_arg5 : E2 V (Proc.devRef .tc main_arg5) = V (Proc.devRef .tc main_arg5) := (r2_arg5 (E1 V)).trans (e1_arg5 V)
theorem e2_arg6 : E2 V (Proc.devRef .tc main_arg6) = V (Proc.devRef .tc main_arg6) := (r2_arg6 (E1 V)).trans (e1_arg6 V)
theorem e2_arg7 : E2 V (Proc.devRef .tc main_arg7) = V (Proc.devRef .tc main_arg7) := (r2_arg7 (E1 V)).trans (e1_arg7 V)
theorem e2_arg8 : E2 V (Proc.devRef .tc main_arg8) = V (Proc.devRef .tc main_arg8) := (r2_arg8 (E1 V)).trans (e1_arg8 V)
theorem e2_arg9 : E2 V (Proc.devRef .tc main_arg9) = V (Proc.devRef .tc main_arg9) := (r2_arg9 (E1 V)).trans (e1_arg9 V)
theorem e2_arg10 : E2 V (Proc.devRef .tc main_arg10) = V (Proc.devRef .tc main_arg10) := (r2_arg10 (E1 V)).trans (e1_arg10 V)
theorem e2_arg11 : E2 V (Proc.devRef .tc main_arg11) = V (Proc.devRef .tc main_arg11) := (r2_arg11 (E1 V)).trans (e1_arg11 V)
theorem e2_arg12 : E2 V (Proc.devRef .tc main_arg12) = V (Proc.devRef .tc main_arg12) := (r2_arg12 (E1 V)).trans (e1_arg12 V)
theorem e2_v1 : E2 V (Proc.devRef .tc main_v1) = src (V (Proc.devRef .tc main_arg1)) := (r2_v1 (E1 V)).trans (e1_v1 V)
theorem e2_v3 : E2 V (Proc.devRef .tc main_v3) = dst (V (Proc.devRef .tc main_arg1)) := (r2_v3 (E1 V)).trans (e1_v3 V)

/-- The second dense product. -/
def h2 : (⟨S50000x128, .f32⟩ : BufTy).Contents (Elt F) :=
  prod1 (normRelu (z1 V) (V (Proc.devRef .tc main_arg5)) (V (Proc.devRef .tc main_arg6))) (V (Proc.devRef .tc main_arg7))

theorem e2_v75 : E2 V (Proc.devRef .tc main_v75) = h2 V := by
  refine (r2_v75 (E1 V)).trans ?_
  unfold h2
  rw [e1_v48, e1_arg5, e1_arg6, e1_arg7]

theorem e3_arg0 : E3 V (Proc.devRef .tc main_arg0) = V (Proc.devRef .tc main_arg0) := (r3_arg0 (E2 V)).trans (e2_arg0 V)
theorem e3_arg1 : E3 V (Proc.devRef .tc main_arg1) = V (Proc.devRef .tc main_arg1) := (r3_arg1 (E2 V)).trans (e2_arg1 V)
theorem e3_arg2 : E3 V (Proc.devRef .tc main_arg2) = V (Proc.devRef .tc main_arg2) := (r3_arg2 (E2 V)).trans (e2_arg2 V)
theorem e3_arg3 : E3 V (Proc.devRef .tc main_arg3) = V (Proc.devRef .tc main_arg3) := (r3_arg3 (E2 V)).trans (e2_arg3 V)
theorem e3_arg4 : E3 V (Proc.devRef .tc main_arg4) = V (Proc.devRef .tc main_arg4) := (r3_arg4 (E2 V)).trans (e2_arg4 V)
theorem e3_arg5 : E3 V (Proc.devRef .tc main_arg5) = V (Proc.devRef .tc main_arg5) := (r3_arg5 (E2 V)).trans (e2_arg5 V)
theorem e3_arg6 : E3 V (Proc.devRef .tc main_arg6) = V (Proc.devRef .tc main_arg6) := (r3_arg6 (E2 V)).trans (e2_arg6 V)
theorem e3_arg7 : E3 V (Proc.devRef .tc main_arg7) = V (Proc.devRef .tc main_arg7) := (r3_arg7 (E2 V)).trans (e2_arg7 V)
theorem e3_arg8 : E3 V (Proc.devRef .tc main_arg8) = V (Proc.devRef .tc main_arg8) := (r3_arg8 (E2 V)).trans (e2_arg8 V)
theorem e3_arg9 : E3 V (Proc.devRef .tc main_arg9) = V (Proc.devRef .tc main_arg9) := (r3_arg9 (E2 V)).trans (e2_arg9 V)
theorem e3_arg10 : E3 V (Proc.devRef .tc main_arg10) = V (Proc.devRef .tc main_arg10) := (r3_arg10 (E2 V)).trans (e2_arg10 V)
theorem e3_arg11 : E3 V (Proc.devRef .tc main_arg11) = V (Proc.devRef .tc main_arg11) := (r3_arg11 (E2 V)).trans (e2_arg11 V)
theorem e3_arg12 : E3 V (Proc.devRef .tc main_arg12) = V (Proc.devRef .tc main_arg12) := (r3_arg12 (E2 V)).trans (e2_arg12 V)
theorem e3_v1 : E3 V (Proc.devRef .tc main_v1) = src (V (Proc.devRef .tc main_arg1)) := (r3_v1 (E2 V)).trans (e2_v1 V)
theorem e3_v3 : E3 V (Proc.devRef .tc main_v3) = dst (V (Proc.devRef .tc main_arg1)) := (r3_v3 (E2 V)).trans (e2_v3 V)

/-- The second layer. -/
def z2 : (⟨S50000x128, .f32⟩ : BufTy).Contents (Elt F) :=
  agg (h2 V) (src (V (Proc.devRef .tc main_arg1))) (dst (V (Proc.devRef .tc main_arg1))) (V (Proc.devRef .tc main_arg8))

theorem e3_v119 : E3 V (Proc.devRef .tc main_v119) = z2 V := by
  refine (r3_v119 (E2 V)).trans ?_
  unfold z2
  rw [e2_v75, e2_v1, e2_v3, e2_arg8]

/-- The result: the edge read-out of the second layer's rows at the two ends of every edge. -/
theorem result : after ops V (Proc.devRef .tc main_v144)
    = head (gathRows (z2 V) (src (V (Proc.devRef .tc main_arg1)))) (gathRows (z2 V) (dst (V (Proc.devRef .tc main_arg1))))
        (V (Proc.devRef .tc main_arg2)) (V (Proc.devRef .tc main_arg9)) (V (Proc.devRef .tc main_arg10)) (V (Proc.devRef .tc main_arg11)) (V (Proc.devRef .tc main_arg12)) := by
  rw [after_ops]
  refine (r4_v144 (E3 V)).trans ?_
  rw [e3_v119, e3_v1, e3_v3, e3_arg2, e3_arg9, e3_arg10, e3_arg11, e3_arg12]

theorem kept_arg0 : after ops V (Proc.devRef .tc main_arg0) = V (Proc.devRef .tc main_arg0) := by
  rw [after_ops]; exact (r4_arg0 (E3 V)).trans (e3_arg0 V)
theorem kept_arg1 : after ops V (Proc.devRef .tc main_arg1) = V (Proc.devRef .tc main_arg1) := by
  rw [after_ops]; exact (r4_arg1 (E3 V)).trans (e3_arg1 V)
theorem kept_arg2 : after ops V (Proc.devRef .tc main_arg2) = V (Proc.devRef .tc main_arg2) := by
  rw [after_ops]; exact (r4_arg2 (E3 V)).trans (e3_arg2 V)
theorem kept_arg3 : after ops V (Proc.devRef .tc main_arg3) = V (Proc.devRef .tc main_arg3) := by
  rw [after_ops]; exact (r4_arg3 (E3 V)).trans (e3_arg3 V)
theorem kept_arg4 : after ops V (Proc.devRef .tc main_arg4) = V (Proc.devRef .tc main_arg4) := by
  rw [after_ops]; exact (r4_arg4 (E3 V)).trans (e3_arg4 V)
theorem kept_arg5 : after ops V (Proc.devRef .tc main_arg5) = V (Proc.devRef .tc main_arg5) := by
  rw [after_ops]; exact (r4_arg5 (E3 V)).trans (e3_arg5 V)
theorem kept_arg6 : after ops V (Proc.devRef .tc main_arg6) = V (Proc.devRef .tc main_arg6) := by
  rw [after_ops]; exact (r4_arg6 (E3 V)).trans (e3_arg6 V)
theorem kept_arg7 : after ops V (Proc.devRef .tc main_arg7) = V (Proc.devRef .tc main_arg7) := by
  rw [after_ops]; exact (r4_arg7 (E3 V)).trans (e3_arg7 V)
theorem kept_arg8 : after ops V (Proc.devRef .tc main_arg8) = V (Proc.devRef .tc main_arg8) := by
  rw [after_ops]; exact (r4_arg8 (E3 V)).trans (e3_arg8 V)
theorem kept_arg9 : after ops V (Proc.devRef .tc main_arg9) = V (Proc.devRef .tc main_arg9) := by
  rw [after_ops]; exact (r4_arg9 (E3 V)).trans (e3_arg9 V)
theorem kept_arg10 : after ops V (Proc.devRef .tc main_arg10) = V (Proc.devRef .tc main_arg10) := by
  rw [after_ops]; exact (r4_arg10 (E3 V)).trans (e3_arg10 V)
theorem kept_arg11 : after ops V (Proc.devRef .tc main_arg11) = V (Proc.devRef .tc main_arg11) := by
  rw [after_ops]; exact (r4_arg11 (E3 V)).trans (e3_arg11 V)
theorem kept_arg12 : after ops V (Proc.devRef .tc main_arg12) = V (Proc.devRef .tc main_arg12) := by
  rw [after_ops]; exact (r4_arg12 (E3 V)).trans (e3_arg12 V)

end Cert.ReferenceIdeal.RValue

end
-- ==== Proof.Cross.lean ====
/-
  THE TWO PROGRAMS' HOST FUNCTIONS ARE THE SAME FUNCTIONS.

  The kernel's program and the reference apply the same array operations around their dense stages: the edge list's
  rows, the graph aggregation, the column statistics, the normalisation.  Each printed program carries its own copy of
  the operations' dimension records, with the same lists in every field; so the functions named over one program's
  records are the functions named over the other's, by unfolding.  A narrowing of the float format before a row gather
  changes nothing at the ideal values, so the kernel's rows at the edge ends are the reference's.
-/
import proofs.«120905_j51728586113229_2_alg».proof.Proof.KHostDefs
import proofs.«120905_j51728586113229_2_alg».proof.Proof.RHostDefs
import Idealize.ShloMosaic.PureOps.Ideal

noncomputable section

namespace Cert.Cross

open Idealize.ShloMosaic

variable {F : FTy → Type} [FloatOps F]

theorem src_eq (e : (⟨Cert.KernelIdeal.S2x800000, .i32⟩ : BufTy).Contents (Elt F)) :
    Cert.ReferenceIdeal.HostFn.src (F := F) e = Cert.KernelIdeal.HostFn.src (F := F) e := rfl

theorem dst_eq (e : (⟨Cert.KernelIdeal.S2x800000, .i32⟩ : BufTy).Contents (Elt F)) :
    Cert.ReferenceIdeal.HostFn.dst (F := F) e = Cert.KernelIdeal.HostFn.dst (F := F) e := rfl

theorem agg_eq (h : (⟨Cert.KernelIdeal.S50000x128, .f32⟩ : BufTy).Contents (Elt F)) (s d : (⟨Cert.KernelIdeal.S800000, .i32⟩ : BufTy).Contents (Elt F))
    (b : (⟨Cert.KernelIdeal.S128, .f32⟩ : BufTy).Contents (Elt F)) :
    Cert.ReferenceIdeal.HostFn.agg (F := F) h s d b = Cert.KernelIdeal.HostFn.agg (F := F) h s d b := rfl

theorem normRelu_eq (z : (⟨Cert.KernelIdeal.S50000x128, .f32⟩ : BufTy).Contents (Elt F)) (g β : (⟨Cert.KernelIdeal.S128, .f32⟩ : BufTy).Contents (Elt F)) :
    Cert.ReferenceIdeal.HostFn.normRelu (F := F) z g β = Cert.KernelIdeal.HostFn.normRelu (F := F) z g β := rfl

theorem endRows_eq (z : (⟨Cert.KernelIdeal.S50000x128, .f32⟩ : BufTy).Contents (Elt Ideal)) (i : (⟨Cert.KernelIdeal.S800000, .i32⟩ : BufTy).Contents (Elt Ideal)) :
    Cert.KernelIdeal.HostFn.endRows (F := Ideal) z i = Cert.ReferenceIdeal.HostFn.gathRows (F := Ideal) z i := rfl

end Cert.Cross

end
-- ==== Proof.LibFinite.lean ====
/-
  FINITENESS ON THE EXTENDED REALS.  An entry is finite when it is a real number.  Sums, differences, products and
  maxima of finite entries are finite; a finite sum of finite entries is finite; the reciprocal square root of a
  positive real is finite; and  select (d > 0, rsqrt d, 0)  is finite for EVERY extended real d (the degree's
  reciprocal square root, guarded: at +∞ the reciprocal square root is 0, and where d is not positive the zero is
  taken).  An accumulating scatter into finite entries of finite updates is finite wherever the updates land, because
  each entry is the old entry plus a finite sum of updates.
-/
import Idealize.ShloMosaic.PureOps.Ideal
import Idealize.ShloMosaic.PureOps.Ideal.Laws
import Idealize.ShloMosaic.Lib.ValueIdx

noncomputable section

open scoped BigOperators

namespace Cert.Finite

open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal 0 := ⟨0, by simp⟩

theorem IsReal.add {x y : EReal} : IsReal x → IsReal y → IsReal (x + y)
  | ⟨a, ha⟩, ⟨b, hb⟩ => ⟨a + b, by rw [ha, hb, EReal.coe_add]⟩
theorem IsReal.sub {x y : EReal} : IsReal x → IsReal y → IsReal (x - y)
  | ⟨a, ha⟩, ⟨b, hb⟩ => ⟨a - b, by rw [ha, hb, EReal.coe_sub]⟩
theorem IsReal.mul {x y : EReal} : IsReal x → IsReal y → IsReal (x * y)
  | ⟨a, ha⟩, ⟨b, hb⟩ => ⟨a * b, by rw [ha, hb, EReal.coe_mul]⟩
theorem IsReal.max {x y : EReal} (hx : IsReal x) (hy : IsReal y) : IsReal (max x y) := by
  rcases le_total x y with h | h
  · rw [max_eq_right h]; exact hy
  · rw [max_eq_left h]; exact hx

/-- A finite sum of finite entries is finite. -/
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The float zero is finite. -/
theorem isReal_zeroWord : IsReal (Ideal.ofBits .f32 0x00000000#32) := by rw [Ideal.ofBits_zero_f32]; exact isReal_zero

/-- The float 1e-5 is a positive real. -/
theorem eps_pos : ∃ e : ℝ, 0 < e ∧ Ideal.ofBits .f32 0x3727C5AC#32 = (e : EReal) := by
  refine ⟨_, ?_, by simp [Ideal.ofBits, Ideal.ieee, -EReal.coe_mul]; rfl⟩
  norm_num

/-- The reciprocal square root of a positive real is finite. -/
theorem isReal_rsqrt_pos {v : ℝ} (hv : 0 < v) : IsReal (Ideal.rsqrt (v : EReal)) := by
  rw [Ideal.rsqrt_coe, if_neg (not_lt.2 hv.le), if_neg hv.ne']
  exact ⟨_, rfl⟩

/-- A quotient of a real by the float 100000.0 is finite. -/
theorem isReal_div_1e5 {x : EReal} (hx : IsReal x) : IsReal (Ideal.div x (Ideal.ofBits .f32 0x47C35000#32)) := by
  obtain ⟨a, rfl⟩ := hx
  have h : Ideal.ofBits .f32 0x47C35000#32 = ((100000 : ℝ) : EReal) := by
    simp [Ideal.ofBits, Ideal.ieee, -EReal.coe_mul]; norm_num
  rw [h, Ideal.div_coe (by norm_num : (100000 : ℝ) ≠ 0), ← EReal.coe_mul]
  exact ⟨_, rfl⟩

/-- The guarded reciprocal square root is finite at every extended real. -/
theorem isReal_guarded (d z z' : EReal) (hz : z = 0) (hz' : IsReal z') :
    IsReal (Scalar.select (Ideal.cmp .ogt d z) (Ideal.rsqrt d) z') := by
  unfold Scalar.select
  split
  · rename_i h
    have hd : (0 : EReal) < d := by
      subst hz
      unfold Ideal.cmp at h
      by_contra hn
      simp [hn] at h
    induction d using EReal.rec with
    | bot => exact absurd hd (by simp)
    | top => rw [Ideal.rsqrt_top]; exact isReal_zero
    | coe r => exact isReal_rsqrt_pos (by exact_mod_cast hd)
  · exact hz'

/-- An accumulating scatter of finite updates into finite entries is finite. -/
theorem isReal_scatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact (hx i).add (isReal_sum _ _ fun j _ => hu j)

/-- An extended real that is a nonnegative real number. -/
def IsNN (x : EReal) : Prop := ∃ r : ℝ, 0 ≤ r ∧ x = (r : EReal)

theorem IsNN.isReal {x : EReal} : IsNN x → IsReal x | ⟨r, _, h⟩ => ⟨r, h⟩

/-- The square of a finite entry is a nonnegative real. -/
theorem IsReal.mul_self {x : EReal} : IsReal x → IsNN (x * x)
  | ⟨a, ha⟩ => ⟨a * a, mul_self_nonneg a, by rw [ha, EReal.coe_mul]⟩

theorem IsNN.add {x y : EReal} : IsNN x → IsNN y → IsNN (x + y)
  | ⟨a, ha0, ha⟩, ⟨b, hb0, hb⟩ => ⟨a + b, add_nonneg ha0 hb0, by rw [ha, hb, EReal.coe_add]⟩

theorem isNN_zero : IsNN 0 := ⟨0, le_refl 0, by simp⟩
theorem isNN_zeroWord : IsNN (Ideal.ofBits .f32 0x00000000#32) := by rw [Ideal.ofBits_zero_f32]; exact isNN_zero

/-- A finite sum of nonnegative reals is a nonnegative real. -/
theorem isNN_sum {ι : Type*} (s : Finset ι) (f : ι → EReal) (h : ∀ i ∈ s, IsNN (f i)) : IsNN (∑ i ∈ s, f i) := by
  classical
  induction s using Finset.induction_on with
  | empty => simpa using isNN_zero
  | insert a s ha ih =>
    rw [Finset.sum_insert ha]
    exact (h a (Finset.mem_insert_self a s)).add (ih fun i hi => h i (Finset.mem_insert_of_mem hi))

/-- A nonnegative real divided by the float 100000.0 is a nonnegative real. -/
theorem IsNN.div_1e5 {x : EReal} : IsNN x → IsNN (Ideal.div x (Ideal.ofBits .f32 0x47C35000#32))
  | ⟨a, ha0, ha⟩ => by
    have h : Ideal.ofBits .f32 0x47C35000#32 = ((100000 : ℝ) : EReal) := by
      simp [Ideal.ofBits, Ideal.ieee, -EReal.coe_mul]; norm_num
    rw [ha, h, Ideal.div_coe (by norm_num : (100000 : ℝ) ≠ 0), ← EReal.coe_mul]
    exact ⟨_, mul_nonneg ha0 (by norm_num), rfl⟩

/-- The reciprocal square root of a nonnegative real plus the float 1e-5 is finite. -/
theorem IsNN.rsqrt_add_eps {v : EReal} : IsNN v → IsReal (Ideal.rsqrt (v + Ideal.ofBits .f32 0x3727C5AC#32))
  | ⟨a, ha0, ha⟩ => by
    obtain ⟨e, he0, he⟩ := eps_pos
    rw [ha, he, ← EReal.coe_add]
    exact isReal_rsqrt_pos (by linarith)

/-! ## Whole arrays of finite entries -/

/-- Every entry is finite. -/
def AllReal {ι : Type} (f : ι → EReal) : Prop := ∀ i, IsReal (f i)

/-- A broadcast's entries are entries of its operand. -/
theorem AllReal.bcast {s t : Shape} {x : s.Idx → EReal} (hx : AllReal x) (dims : Fin s.rank → Fin t.rank)
    (h : s.BroadcastsInDim t dims) : AllReal (broadcastInDim t dims h x) := fun _ => hx _

/-- A gather's entries are entries of its operand. -/
theorem AllReal.gather {s si t : Shape} {w : Nat} {x : s.Idx → EReal} (hx : AllReal x) (d : GatherDims s si t) (idx : IVec si w) :
    AllReal (Host.gather d x idx) := fun _ => hx _

/-- A reshape's entries are entries of its operand. -/
theorem AllReal.cast {s t : Shape} {x : s.Idx → EReal} (hx : AllReal x) (h : s.ShapeCasts t) : AllReal (shapeCast t x h) :=
  fun _ => hx _

theorem AllReal.mulf {s : Shape} {φ : FTy} {x y : FVec Ideal s φ} (hx : AllReal x) (hy : AllReal y) : AllReal (mulf x y) :=
  fun i => (hx i).mul (hy i)
theorem AllReal.addf {s : Shape} {φ : FTy} {x y : FVec Ideal s φ} (hx : AllReal x) (hy : AllReal y) : AllReal (addf x y) :=
  fun i => (hx i).add (hy i)

/-- The zero array. -/
theorem allReal_zeros {s : Shape} (dims : Fin (⟨0, ![]⟩ : Shape).rank → Fin s.rank) (h : (⟨0, ![]⟩ : Shape).BroadcastsInDim s dims) :
    AllReal (broadcastInDim s dims h (constant (F := Ideal) ⟨0, ![]⟩ .f32 0x00000000#32)) :=
  fun _ => isReal_zeroWord

/-- An accumulating scatter of finite updates into finite entries. -/
theorem AllReal.scatterAdd {s si su : Shape} {w : Nat} {x : FVec Ideal s .f32} {u : FVec Ideal su .f32} (hx : AllReal x) (hu : AllReal u)
    (d : ScatterDims s si su) (idx : IVec si w) : AllReal (Host.scatterAdd d x idx u) :=
  fun i => isReal_scatterAdd d x idx u hx hu i

/-- A matrix product (any contraction) of finite arrays. -/
theorem AllReal.dot {sl sr so : Shape} {φ₁ φ₂ : FTy} {a : FVec Ideal sl φ₁} {b : FVec Ideal sr φ₂} (ha : AllReal a) (hb : AllReal b)
    (d : DotDims sl sr so) (prec : Option ContractPrecision) : AllReal (Host.dotGeneral d prec a b) := fun j => by
  show IsReal (FloatOps.dotGeneral d prec .single a b j)
  rw [Ideal.dotGeneral_apply]
  exact isReal_sum _ _ fun k _ => (ha _).mul (hb _)

/-- The guarded reciprocal square root of ANY array: select (deg > 0, rsqrt deg, 0). -/
theorem allReal_guard {s : Shape} (deg z z' : FVec Ideal s .f32) (hz : ∀ i, z i = 0) (hz' : AllReal z') :
    AllReal (select (cmpf .ogt deg z) (Host.rsqrt deg) z') := fun i =>
  isReal_guarded (deg i) (z i) (z' i) (hz i) (hz' i)

end Cert.Finite

end
-- ==== Proof.LibFiniteOps.lean ====
/-
  FINITENESS THROUGH HOST OPERATIONS.  An array is "all real" when every entry is a real number, and "all nonnegative"
  when every entry is a nonnegative real.  Differences and maxima of all-real arrays are all real; the entrywise square
  of an all-real array is all nonnegative.  A sum over some axes, started from the float zero, of an all-real array is
  all real (each entry is zero plus a finite sum of reals), and of an all-nonnegative array is all nonnegative.  Dividing
  by the float 50000 keeps both properties (it is the product with the real 1/50000).  A real raised to a real power is a
  real (the real power function is total), so raising an all-real array to the float power -1/2 gives an all-real
  array.  The reciprocal square root of a nonnegative real plus the float 1e-5 is a real, since the argument is a
  positive real.  The constant arrays of the float one and the float zero are all real.

  Last, the scalar law that folds a centring, a scaling and a shift into one affine map: for reals z, μ, r, g, β,
      ((z - μ) · r) · g + β  =  z · (r · g) + (β - μ · (r · g)),
  hence the two sides agree after taking the maximum with any level l.  On the extended reals the law needs all five
  to be real (distributivity fails at the infinities).
-/
import proofs.«120905_j51728586113229_2_alg».proof.Proof.LibFinite
import Idealize.ShloMosaic.PureOps.Ideal.Laws
import Idealize.ShloMosaic.Lib.ValueIdx

noncomputable section

open scoped BigOperators

namespace Cert.Finite

open Idealize.ShloMosaic

/-! ## The scalar law -/

/-- Centre, scale, shift is one affine map, for real entries; under a maximum with any level. -/
theorem max_affine_fold {z μ r g β : EReal} (hz : IsReal z) (hμ : IsReal μ) (hr : IsReal r) (hg : IsReal g) (hβ : IsReal β)
    (l : EReal) : max ((((z - μ) * r) * g) + β) l = max (z * (r * g) + (β - μ * (r * g))) l := by
  obtain ⟨z, rfl⟩ := hz
  obtain ⟨μ, rfl⟩ := hμ
  obtain ⟨r, rfl⟩ := hr
  obtain ⟨g, rfl⟩ := hg
  obtain ⟨β, rfl⟩ := hβ
  have e : ((((z : EReal) - (μ : EReal)) * (r : EReal)) * (g : EReal)) + (β : EReal)
      = (z : EReal) * ((r : EReal) * (g : EReal)) + ((β : EReal) - (μ : EReal) * ((r : EReal) * (g : EReal))) := by
    rw [← EReal.coe_sub, ← EReal.coe_mul, ← EReal.coe_mul, ← EReal.coe_add, ← EReal.coe_mul, ← EReal.coe_mul, ← EReal.coe_mul,
      ← EReal.coe_sub, ← EReal.coe_add]
    congr 1
    ring
  rw [e]

/-! ## Arrays of nonnegative reals -/

/-- Every entry is a nonnegative real. -/
def AllNN {ι : Type} (f : ι → EReal) : Prop := ∀ i, IsNN (f i)

theorem AllNN.allReal {ι : Type} {f : ι → EReal} (h : AllNN f) : AllReal f := fun i => (h i).isReal

/-! ## Pointwise operations -/

theorem AllReal.subf {s : Shape} {φ : FTy} {x y : FVec Ideal s φ} (hx : AllReal x) (hy : AllReal y) : AllReal (Idealize.ShloMosaic.subf x y) :=
  fun i => (hx i).sub (hy i)

theorem AllReal.maximumf {s : Shape} {φ : FTy} {x y : FVec Ideal s φ} (hx : AllReal x) (hy : AllReal y) :
    AllReal (Idealize.ShloMosaic.maximumf x y) :=
  fun i => (hx i).max (hy i)

theorem AllReal.mul_self {s : Shape} {φ : FTy} {x : FVec Ideal s φ} (hx : AllReal x) : AllNN (Idealize.ShloMosaic.mulf x x) :=
  fun i => (hx i).mul_self

/-! ## Division by the float 50000 -/

/-- The float word 0x47435000 is the real 50000. -/
theorem word_50000 : Ideal.ofBits .f32 0x47435000#32 = ((50000 : ℝ) : EReal) := by
  simp [Ideal.ofBits, Ideal.ieee, -EReal.coe_mul]; norm_num

theorem isReal_div_5e4 {x : EReal} (hx : IsReal x) : IsReal (Ideal.div x (Ideal.ofBits .f32 0x47435000#32)) := by
  obtain ⟨a, rfl⟩ := hx
  rw [word_50000, Ideal.div_coe (by norm_num : (50000 : ℝ) ≠ 0), ← EReal.coe_mul]
  exact ⟨_, rfl⟩

theorem IsNN.div_5e4 {x : EReal} : IsNN x → IsNN (Ideal.div x (Ideal.ofBits .f32 0x47435000#32))
  | ⟨a, ha0, ha⟩ => by
    rw [ha, word_50000, Ideal.div_coe (by norm_num : (50000 : ℝ) ≠ 0), ← EReal.coe_mul]
    exact ⟨_, mul_nonneg ha0 (by norm_num), rfl⟩

theorem AllReal.div_5e4 {s : Shape} {x : FVec Ideal s .f32} (hx : AllReal x)
    (dims : Fin (⟨0, ![]⟩ : Shape).rank → Fin s.rank) (hb : (⟨0, ![]⟩ : Shape).BroadcastsInDim s dims) :
    AllReal (Host.divf x (broadcastInDim s dims hb (constant (F := Ideal) ⟨0, ![]⟩ .f32 0x47435000#32))) :=
  fun i => isReal_div_5e4 (hx i)

theorem AllNN.div_5e4 {s : Shape} {x : FVec Ideal s .f32} (hx : AllNN x)
    (dims : Fin (⟨0, ![]⟩ : Shape).rank → Fin s.rank) (hb : (⟨0, ![]⟩ : Shape).BroadcastsInDim s dims) :
    AllNN (Host.divf x (broadcastInDim s dims hb (constant (F := Ideal) ⟨0, ![]⟩ .f32 0x47435000#32))) :=
  fun i => (hx i).div_5e4

/-! ## A real power -/

/-- The float word 0xBF000000 is the real -1/2. -/
theorem word_neg_half : Ideal.ofBits .f32 0xBF000000#32 = ((-(1 / 2) : ℝ) : EReal) := by
  simp [Ideal.ofBits, Ideal.ieee, -EReal.coe_mul]; norm_num

/-- A real to a real power is a real. -/
theorem IsReal.pow {x y : EReal} : IsReal x → IsReal y → IsReal (Ideal.pow x y)
  | ⟨a, ha⟩, ⟨b, hb⟩ => ⟨Real.rpow a b, by rw [ha, hb, Ideal.pow_coe_coe]⟩

theorem AllReal.pow_neg_half {s : Shape} {x : FVec Ideal s .f32} (hx : AllReal x)
    (dims : Fin (⟨0, ![]⟩ : Shape).rank → Fin s.rank) (hb : (⟨0, ![]⟩ : Shape).BroadcastsInDim s dims) :
    AllReal (Host.powf x (broadcastInDim s dims hb (constant (F := Ideal) ⟨0, ![]⟩ .f32 0xBF000000#32))) :=
  fun i => (hx i).pow ⟨_, word_neg_half⟩

/-! ## The reciprocal square root of a nonnegative array plus the float 1e-5 -/

theorem AllNN.rsqrt_add_eps {s : Shape} {v : FVec Ideal s .f32} (hv : AllNN v)
    (dims : Fin (⟨0, ![]⟩ : Shape).rank → Fin s.rank) (hb : (⟨0, ![]⟩ : Shape).BroadcastsInDim s dims) :
    AllReal (Host.rsqrt (addf v (broadcastInDim s dims hb (constant (F := Ideal) ⟨0, ![]⟩ .f32 0x3727C5AC#32)))) :=
  fun i => (hv i).rsqrt_add_eps

/-! ## Constants -/

/-- The float word 0x3F800000 is the real 1. -/
theorem word_one : Ideal.ofBits .f32 0x3F800000#32 = ((1 : ℝ) : EReal) := by
  simp [Ideal.ofBits, Ideal.ieee, -EReal.coe_mul]; norm_num

theorem allReal_ones {s : Shape} (dims : Fin (⟨0, ![]⟩ : Shape).rank → Fin s.rank)
    (hb : (⟨0, ![]⟩ : Shape).BroadcastsInDim s dims) :
    AllReal (broadcastInDim s dims hb (constant (F := Ideal) ⟨0, ![]⟩ .f32 0x3F800000#32)) :=
  fun _ => ⟨1, word_one⟩

/-! ## The host's sum over some axes, from the float zero -/

theorem AllReal.reduceAdd {s t : Shape} {axes : List (Fin s.rank)} {x : FVec Ideal s .f32} (hx : AllReal x)
    (h : s.ReducesTo axes t) (h0 : 0 < (⟨0, ![]⟩ : Shape).numel) :
    AllReal (Host.reduceAdd x (constant (F := Ideal) ⟨0, ![]⟩ .f32 0x00000000#32) h h0) := fun j => by
  show IsReal (Ideal.hostReduceAdd h x (Ideal.ofBits .f32 0x00000000#32) j)
  unfold Ideal.hostReduceAdd
  exact isReal_zeroWord.add (isReal_sum _ _ fun i _ => hx i)

theorem AllNN.reduceAdd {s t : Shape} {axes : List (Fin s.rank)} {x : FVec Ideal s .f32} (hx : AllNN x)
    (h : s.ReducesTo axes t) (h0 : 0 < (⟨0, ![]⟩ : Shape).numel) :
    AllNN (Host.reduceAdd x (constant (F := Ideal) ⟨0, ![]⟩ .f32 0x00000000#32) h h0) := fun j => by
  show IsNN (Ideal.hostReduceAdd h x (Ideal.ofBits .f32 0x00000000#32) j)
  unfold Ideal.hostReduceAdd
  exact isNN_zeroWord.add (isNN_sum _ _ fun i _ => hx i)

end Cert.Finite

end
-- ==== Proof.BnFold.lean ====
/-
  THE BATCH NORMALISATION, FOLDED.  Between the regions the program normalises a tall array z column by column: with
  the column mean μ, the column variance (the mean of the squared deviations) and r its reciprocal square root after the
  small constant is added, an entry z of column c becomes  ((z - μ c) · r c) · g c + β c , rectified.  The kernel's next
  region receives instead one factor  r c · g c  and one offset  β c - μ c · (r c · g c)  per column and computes
  z · (r c · g c) + (β c - μ c · (r c · g c)) , rectified.  The two agree entry by entry when all the numbers are real.

  They are: the graph convolution's aggregate of real arrays is real (the degree is zero plus a finite sum of ones plus
  one, a real; a real to the power -1/2 is a real; gathers and broadcasts only copy entries; an accumulating scatter adds
  finite sums of reals); the column means of a real array are real (a finite sum divided by 50000); the column variances
  are nonnegative reals (a finite sum of squares divided by 50000); and the reciprocal square root of a nonnegative real
  plus the small positive constant is a real.
-/
import proofs.«120905_j51728586113229_2_alg».proof.Proof.KHostDefs
import proofs.«120905_j51728586113229_2_alg».proof.Proof.LibFiniteOps
import proofs.«120905_j51728586113229_2_alg».proof.Proof.LibEdgeStages

noncomputable section

namespace Cert.KernelIdeal.BnFold

open Cert.KernelIdeal Cert.KernelIdeal.Gen Cert.KernelIdeal.HostFn Cert.Finite Cert.Gcn Cert.RowBias Cert.PairLayer Cert.DenseRow
open Idealize.ShloMosaic Idealize.ShloMosaic.ValueIdx

/-! ## Finiteness of the host stages -/

/-- The degree, one plus a count of edges, is real. -/
theorem deg_real (d : IVec S800000 32) : AllReal (deg (F := Ideal) d) := by
  unfold deg
  exact AllReal.addf (AllReal.scatterAdd (allReal_zeros _ _) (allReal_ones _ _) _ _) (allReal_ones _ _)

/-- The degree to the power -1/2 is real. -/
theorem dinv_real (d : IVec S800000 32) : AllReal (dinv (F := Ideal) d) := by
  unfold dinv
  exact AllReal.pow_neg_half (deg_real d) _ _

/-- An edge's weight is real. -/
theorem norm_real (s d : IVec S800000 32) : AllReal (HostFn.norm (F := Ideal) s d) := by
  unfold HostFn.norm
  exact AllReal.mulf (AllReal.gather (dinv_real d) _ _) (AllReal.gather (dinv_real d) _ _)

/-- A real vector repeated on every row is real. -/
theorem rows_real (v : FVec Ideal S128 .f32) (hv : AllReal v) : AllReal (rows (F := Ideal) v) := by
  unfold rows
  exact AllReal.bcast (AllReal.bcast hv _ _) _ _

/-- The graph convolution's aggregate of a real array with a real bias is real. -/
theorem agg_real (h : FVec Ideal S50000x128 .f32) (s d : IVec S800000 32) (b : FVec Ideal S128 .f32) (hh : AllReal h)
    (hb : AllReal b) : AllReal (agg (F := Ideal) h s d b) := by
  unfold agg
  exact AllReal.addf
    (AllReal.addf
      (AllReal.scatterAdd (allReal_zeros _ _)
        (AllReal.mulf (AllReal.gather hh _ _) (AllReal.bcast (AllReal.bcast (norm_real s d) _ _) _ _)) _ _)
      (AllReal.mulf hh (AllReal.bcast (AllReal.bcast (AllReal.mulf (dinv_real d) (dinv_real d)) _ _) _ _)))
    (rows_real b hb)

/-- The column means of a real array are real. -/
theorem mean_real (z : FVec Ideal S50000x128 .f32) (hz : AllReal z) : AllReal (mean (F := Ideal) z) := by
  unfold mean
  exact AllReal.div_5e4 (AllReal.reduceAdd hz _ _) _ _

/-- The column variances of a real array are nonnegative reals. -/
theorem var_nn (z : FVec Ideal S50000x128 .f32) (hz : AllReal z) : AllNN (var (F := Ideal) z) := by
  unfold var
  exact AllNN.div_5e4 (AllNN.reduceAdd (AllReal.mul_self (AllReal.subf hz (rows_real _ (mean_real z hz)))) _ _) _ _

/-- The reciprocal square root of the variance plus the small constant is real. -/
theorem rsq_real (z : FVec Ideal S50000x128 .f32) (hz : AllReal z) : AllReal (rsq (F := Ideal) z) := by
  unfold rsq
  exact AllNN.rsqrt_add_eps (var_nn z hz) _ _

/-! ## Reading the stages at an entry -/

/-- A vector repeated on every row, at row p and column c, is the vector at c. -/
theorem rows_apply (v : FVec Ideal S128 .f32) (p : Fin 50000) (c : Fin 128) : rows (F := Ideal) v (ix2 p c) = v (ix1 c) := by
  unfold rows
  exact congrFun (hbias (R := 50000) (N := 128) v bcast_S128_S1x128_1 bcast_S1x128_S50000x128_0_1) (ix2 p c)

/-- The folded factor of column c. -/
theorem scaleRow_apply (z : FVec Ideal S50000x128 .f32) (g : FVec Ideal S128 .f32) (c : Fin 128) :
    scaleRow (F := Ideal) z g (ix2 (0 : Fin 1) c) = rsq (F := Ideal) z (ix1 c) * g (ix1 c) := by
  unfold scaleRow
  exact shapeCast_a_1a_apply _ _ 0 c

/-- The folded offset of column c. -/
theorem shiftRow_apply (z : FVec Ideal S50000x128 .f32) (g β : FVec Ideal S128 .f32) (c : Fin 128) :
    shiftRow (F := Ideal) z g β (ix2 (0 : Fin 1) c)
      = β (ix1 c) - mean (F := Ideal) z (ix1 c) * (rsq (F := Ideal) z (ix1 c) * g (ix1 c)) := by
  unfold shiftRow
  exact shapeCast_a_1a_apply _ _ 0 c

/-- The normalisation written out, at row p and column c. -/
theorem normRelu_apply (z : FVec Ideal S50000x128 .f32) (g β : FVec Ideal S128 .f32) (p : Fin 50000) (c : Fin 128) :
    normRelu (F := Ideal) z g β (ix2 p c)
      = max ((((z (ix2 p c) - mean (F := Ideal) z (ix1 c)) * rsq (F := Ideal) z (ix1 c)) * g (ix1 c)) + β (ix1 c)) zf := by
  unfold normRelu
  refine (congrFun (hact _ bcast_S_S50000x128) (ix2 p c)).trans ?_
  show max ((((z (ix2 p c) - rows (F := Ideal) (mean (F := Ideal) z) (ix2 p c)) * rows (F := Ideal) (rsq (F := Ideal) z) (ix2 p c))
      * rows (F := Ideal) g (ix2 p c)) + rows (F := Ideal) β (ix2 p c)) zf = _
  rw [rows_apply, rows_apply, rows_apply, rows_apply]

/-! ## The fold -/

/-- The normalisation folded into one factor and one offset per column is the normalisation written out. -/
theorem bn_fold (z : FVec Ideal S50000x128 .f32) (g β : FVec Ideal S128 .f32) (hz : AllReal z) (hg : AllReal g)
    (hβ : AllReal β) :
    affRelu z (scaleRow (F := Ideal) z g) (shiftRow (F := Ideal) z g β) = normRelu (F := Ideal) z g β := by
  funext i
  obtain ⟨p, c, rfl⟩ : ∃ (p : Fin 50000) (c : Fin 128), i = ix2 p c := ⟨i 0, i 1, eq_ix2 i⟩
  rw [affRelu_apply, scaleRow_apply, shiftRow_apply, normRelu_apply]
  exact (max_affine_fold (hz _) (mean_real z hz _) (rsq_real z hz _) (hg _) (hβ _) zf).symm

end Cert.KernelIdeal.BnFold

end
-- ==== Proof.Bridge.lean ====
/-
  THE TWO PROGRAMS' SECOND LAYERS ARE ONE ARRAY.

  Both programs compute  layer₂ = agg (relu (normalise (layer₁)) · W₂)  with  layer₁ = agg (x · W₁).  They differ in
  two places.  The dense products: the kernel's row blocks of a matrix product into a zero accumulator, read as the
  whole-array product, against the reference's dot_general — the same sums, term by term.  The normalisation: the
  reference subtracts the column mean, multiplies by the reciprocal square root of the variance plus a small constant,
  by the gain, and adds the offset; the kernel multiplies by one factor per column and adds one offset per column.
  The two agree entry by entry because every number involved is a real number: the arguments are finite, and products,
  finite sums, the graph aggregation, the mean, the variance and the reciprocal square root of a positive real keep
  reals real.  The graph aggregation and the statistics are the same operations in both programs and are never opened
  here beyond that.
-/
import proofs.«120905_j51728586113229_2_alg».proof.Proof.Cross
import proofs.«120905_j51728586113229_2_alg».proof.Proof.BnFold

noncomputable section

open scoped BigOperators

namespace Cert.Bridge

open Idealize.ShloMosaic Idealize.ShloMosaic.ValueIdx Cert.Finite Cert.Gcn Cert.KernelIdeal.RegionValue
open Cert.KernelIdeal (S50000x128 S128x128 S128 S1x128 S2x800000 S800000)

/-- A product of arrays of reals is an array of reals. -/
theorem prodArr_real {R K N : ℕ} (A : (⟨2, ![R, K]⟩ : Shape).Idx → EReal) (W : (⟨2, ![K, N]⟩ : Shape).Idx → EReal)
    (hA : AllReal A) (hW : AllReal W) : AllReal (prodArr A W) := fun i => by
  show IsReal (∑ k : Fin K, A (ix2 (i 0) k) * W (ix2 k (i 1)))
  exact isReal_sum _ _ fun k _ => (hA _).mul (hW _)

/-- The reference's dense product of a node array with a square weight is the whole-array product. -/
theorem prod1_eq (x : FVec Ideal S50000x128 .f32) (w : FVec Ideal S128x128 .f32) :
    Cert.ReferenceIdeal.HostFn.prod1 (F := Ideal) x w = prodArr (realArr S50000x128 x) (realArr S128x128 w) := by
  unfold Cert.ReferenceIdeal.HostFn.prod1
  exact Cert.ProdRows.hprod (R := 50000) (K := 128) (N := 128) none x w

/-- The first layers agree. -/
theorem layer1_eq (a0 : FVec Ideal S50000x128 .f32) (a1 : IVec S2x800000 32) (a3 : FVec Ideal S128x128 .f32) (a4 : FVec Ideal S128 .f32) :
    Cert.ReferenceIdeal.HostFn.agg (F := Ideal) (Cert.ReferenceIdeal.HostFn.prod1 (F := Ideal) a0 a3)
        (Cert.ReferenceIdeal.HostFn.src a1) (Cert.ReferenceIdeal.HostFn.dst a1) a4
      = Cert.KernelIdeal.HostFn.agg (F := Ideal) (prodArr (realArr S50000x128 a0) (realArr S128x128 a3))
        (Cert.KernelIdeal.HostFn.src a1) (Cert.KernelIdeal.HostFn.dst a1) a4 := by
  rw [prod1_eq, Cert.Cross.src_eq, Cert.Cross.dst_eq, Cert.Cross.agg_eq]

/-- The second dense products agree when the first layer and the normalisation's gain and offset are real. -/
theorem prod2_eq (z : FVec Ideal S50000x128 .f32) (g β : FVec Ideal S128 .f32) (w : FVec Ideal S128x128 .f32)
    (hz : AllReal z) (hg : AllReal g) (hβ : AllReal β) :
    nodeStage (realArr S50000x128 z) (realArr S1x128 (Cert.KernelIdeal.HostFn.scaleRow (F := Ideal) z g))
        (realArr S1x128 (Cert.KernelIdeal.HostFn.shiftRow (F := Ideal) z g β)) (realArr S128x128 w)
      = Cert.ReferenceIdeal.HostFn.prod1 (F := Ideal) (Cert.ReferenceIdeal.HostFn.normRelu (F := Ideal) z g β) w := by
  rw [prod1_eq, Cert.Cross.normRelu_eq]
  unfold nodeStage
  exact congrArg (fun y => prodArr y (realArr S128x128 w)) (Cert.KernelIdeal.BnFold.bn_fold z g β hz hg hβ)

/-- The second layers agree, for finite arguments. -/
theorem layer2_eq (a0 : FVec Ideal S50000x128 .f32) (a1 : IVec S2x800000 32) (a3 : FVec Ideal S128x128 .f32)
    (a4 a5 a6 : FVec Ideal S128 .f32) (a7 : FVec Ideal S128x128 .f32) (a8 : FVec Ideal S128 .f32)
    (h0 : AllReal a0) (h3 : AllReal a3) (h4 : AllReal a4) (h5 : AllReal a5) (h6 : AllReal a6) :
    Cert.KernelIdeal.HostFn.agg (F := Ideal)
        (nodeStage
          (realArr S50000x128 (Cert.KernelIdeal.HostFn.agg (F := Ideal) (prodArr (realArr S50000x128 a0) (realArr S128x128 a3))
            (Cert.KernelIdeal.HostFn.src a1) (Cert.KernelIdeal.HostFn.dst a1) a4))
          (realArr S1x128 (Cert.KernelIdeal.HostFn.scaleRow (F := Ideal)
            (Cert.KernelIdeal.HostFn.agg (F := Ideal) (prodArr (realArr S50000x128 a0) (realArr S128x128 a3))
              (Cert.KernelIdeal.HostFn.src a1) (Cert.KernelIdeal.HostFn.dst a1) a4) a5))
          (realArr S1x128 (Cert.KernelIdeal.HostFn.shiftRow (F := Ideal)
            (Cert.KernelIdeal.HostFn.agg (F := Ideal) (prodArr (realArr S50000x128 a0) (realArr S128x128 a3))
              (Cert.KernelIdeal.HostFn.src a1) (Cert.KernelIdeal.HostFn.dst a1) a4) a5 a6))
          (realArr S128x128 a7))
        (Cert.KernelIdeal.HostFn.src a1) (Cert.KernelIdeal.HostFn.dst a1) a8
      = Cert.ReferenceIdeal.HostFn.agg (F := Ideal)
        (Cert.ReferenceIdeal.HostFn.prod1 (F := Ideal)
          (Cert.ReferenceIdeal.HostFn.normRelu (F := Ideal)
            (Cert.ReferenceIdeal.HostFn.agg (F := Ideal) (Cert.ReferenceIdeal.HostFn.prod1 (F := Ideal) a0 a3)
              (Cert.ReferenceIdeal.HostFn.src a1) (Cert.ReferenceIdeal.HostFn.dst a1) a4) a5 a6) a7)
        (Cert.ReferenceIdeal.HostFn.src a1) (Cert.ReferenceIdeal.HostFn.dst a1) a8 := by
  have hz : AllReal (Cert.KernelIdeal.HostFn.agg (F := Ideal) (prodArr (realArr S50000x128 a0) (realArr S128x128 a3))
      (Cert.KernelIdeal.HostFn.src a1) (Cert.KernelIdeal.HostFn.dst a1) a4) :=
    Cert.KernelIdeal.BnFold.agg_real _ _ _ _ (prodArr_real _ _ h0 h3) h4
  rw [layer1_eq a0 a1 a3 a4, Cert.Cross.src_eq, Cert.Cross.dst_eq, Cert.Cross.agg_eq, prod2_eq _ a5 a6 a7 hz h5 h6]

end Cert.Bridge

end
-- ==== Proof.LibLayoutBits.lean ====
/-
  LAYOUT FACTS OF THE EDGE READ-OUT, at the ideal values.

  Generic in every extent:
  • `cast_col`: a one-column array `[R, 1]` recast as a vector `[R]` reads entry `(r, 0)` at `r`;
  • `slice_band`: the unit-stride slice of `K` whole rows of a tall array starting at row `off` is its band `band off`;
  • `biasRows_col`: on a one-column array, a one-entry vector repeated on every row is that entry everywhere;
  • `cat3`, `cat3Arr`, `concat3`: three arrays `[R, A]`, `[R, B]`, `[R, C]` joined along their columns, as one function on
    `[R, A + B + C]` that reads the first at columns below `A`, the second at columns in `[A, A + B)`, the third after;
  • `prod_bands`: the product of that joined array with a tall weight `[A + B + C, N]` is the sum, left to right, of
    the three products of the pieces with the weight's bands at rows `0`, `A`, `A + B`:
      ∑ k < A+B+C, x (p, k) · w (k, c)
        = ((∑ k < A, x₀ (p, k) · w (k, c)) + (∑ k < B, x₁ (p, k) · w (A + k, c))) + ∑ k < C, x₂ (p, k) · w (A + B + k, c).
    The sum over `Fin ((A + B) + C)` is split at `A + B` and then at `A`; addition on the extended reals is a
    commutative monoid, so nothing needs to be finite and no term is evaluated.
-/
import proofs.«120905_j51728586113229_2_alg».proof.Proof.LibEdgeStages

noncomputable section

open scoped BigOperators

namespace Cert.Gcn

open Idealize.ShloMosaic Idealize.ShloMosaic.ValueIdx
open Cert.KernelIdeal.RegionValue Cert.ProdRows Cert.PairLayer Cert.DenseRow Cert.RowBias

/-! ## A column as a vector, a band as a slice, a one-entry bias -/

/-- A one-column array recast as a vector: entry `r` is entry `(r, 0)`. -/
theorem cast_col {R : ℕ} (x : (⟨2, ![R, 1]⟩ : Shape).Idx → EReal) (h : (⟨2, ![R, 1]⟩ : Shape).ShapeCasts ⟨1, ![R]⟩) :
    shapeCast ⟨1, ![R]⟩ x h = fun i => x (ix2 (i 0) (0 : Fin 1)) := by
  funext i
  refine shapeCast_apply x h i (ix2 (i 0) (0 : Fin 1)) ?_
  rw [Shape.rowMajor_val_two, Shape.rowMajor_val_one]
  show (i 0).val * 1 + 0 = (i 0).val
  omega

/-- The slice of `K` whole rows from row `off` is the band at `off`. -/
theorem slice_band {T K N : ℕ} (off : ℕ) (hle : off + K ≤ T) (w : (⟨2, ![T, N]⟩ : Shape).Idx → EReal)
    (h : (⟨2, ![T, N]⟩ : Shape).Slices ![off, 0] ⟨2, ![K, N]⟩) :
    extractStridedSlice ⟨2, ![K, N]⟩ ![off, 0] w h = band off hle w := by
  funext i
  unfold band
  refine extractStridedSlice_apply ![off, 0] w h i _ fun a => ?_
  match a with
  | ⟨0, _⟩ => rfl
  | ⟨1, _⟩ => show (i 1).val = 0 + (i 1).val; omega

/-- On a one-column array the one-entry vector repeated on every row is that entry everywhere. -/
theorem biasRows_col {R : ℕ} (b : (⟨1, ![1]⟩ : Shape).Idx → EReal) : biasRows (R := R) b = biasOne b := by
  funext i
  have h1 : (i 1).val < 1 := (i 1).isLt
  have e : i 1 = (0 : Fin 1) := Fin.ext (by show (i 1).val = 0; omega)
  exact congrArg (fun q : Fin 1 => b (ix1 q)) e

/-! ## Three rows side by side -/

/-- Three rows side by side: the first `A` entries are `x`'s, the next `B` are `y`'s, the last `C` are `z`'s. -/
def cat3 {A B C T : ℕ} (hT : T = A + B + C) (x : Fin A → EReal) (y : Fin B → EReal) (z : Fin C → EReal) (k : Fin T) : EReal :=
  if h0 : k.val < A then x ⟨k.val, h0⟩
  else if h1 : k.val < A + B then y ⟨k.val - A, by omega⟩
  else z ⟨k.val - (A + B), by have := k.isLt; omega⟩

theorem cat3_left {A B C T : ℕ} (hT : T = A + B + C) (x : Fin A → EReal) (y : Fin B → EReal) (z : Fin C → EReal)
    (k : Fin A) (hk : k.val < T) : cat3 hT x y z ⟨k.val, hk⟩ = x k := by
  unfold cat3
  rw [dif_pos (show k.val < A from k.isLt)]

theorem cat3_mid {A B C T : ℕ} (hT : T = A + B + C) (x : Fin A → EReal) (y : Fin B → EReal) (z : Fin C → EReal)
    (k : Fin B) (hk : A + k.val < T) : cat3 hT x y z ⟨A + k.val, hk⟩ = y k := by
  unfold cat3
  have hb := k.isLt
  rw [dif_neg (show ¬ A + k.val < A by omega), dif_pos (show A + k.val < A + B by omega)]
  exact congrArg y (Fin.ext (show A + k.val - A = k.val by omega))

theorem cat3_right {A B C T : ℕ} (hT : T = A + B + C) (x : Fin A → EReal) (y : Fin B → EReal) (z : Fin C → EReal)
    (k : Fin C) (hk : A + B + k.val < T) : cat3 hT x y z ⟨A + B + k.val, hk⟩ = z k := by
  unfold cat3
  rw [dif_neg (show ¬ A + B + k.val < A by omega), dif_neg (show ¬ A + B + k.val < A + B by omega)]
  exact congrArg z (Fin.ext (show A + B + k.val - (A + B) = k.val by omega))

/-! ## Three arrays joined along their columns -/

/-- `[R, A]`, `[R, B]`, `[R, C]` side by side, row by row. -/
def cat3Arr {R A B C T : ℕ} (hT : T = A + B + C) (x0 : (⟨2, ![R, A]⟩ : Shape).Idx → EReal)
    (x1 : (⟨2, ![R, B]⟩ : Shape).Idx → EReal) (x2 : (⟨2, ![R, C]⟩ : Shape).Idx → EReal) :
    (⟨2, ![R, T]⟩ : Shape).Idx → EReal :=
  fun i => cat3 hT (fun a => x0 (ix2 (i 0) a)) (fun b => x1 (ix2 (i 0) b)) (fun e => x2 (ix2 (i 0) e)) (i 1)

theorem cat3Arr_apply {R A B C T : ℕ} (hT : T = A + B + C) (x0 : (⟨2, ![R, A]⟩ : Shape).Idx → EReal)
    (x1 : (⟨2, ![R, B]⟩ : Shape).Idx → EReal) (x2 : (⟨2, ![R, C]⟩ : Shape).Idx → EReal) (p : Fin R) (k : Fin T) :
    cat3Arr hT x0 x1 x2 (ix2 p k)
      = cat3 hT (fun a => x0 (ix2 p a)) (fun b => x1 (ix2 p b)) (fun e => x2 (ix2 p e)) k := rfl

/-- The three-operand join along axis 1, as a whole array. -/
theorem concat3 {R A B C T : ℕ} (hT : T = A + B + C) (x0 : (⟨2, ![R, A]⟩ : Shape).Idx → EReal)
    (x1 : (⟨2, ![R, B]⟩ : Shape).Idx → EReal) (x2 : (⟨2, ![R, C]⟩ : Shape).Idx → EReal)
    (h : Shape.Concatenates [(⟨2, ![R, A]⟩ : Shape), ⟨2, ![R, B]⟩, ⟨2, ![R, C]⟩] ⟨2, ![R, T]⟩ (1 : Fin 2)) :
    concatenate ⟨2, ![R, T]⟩ (1 : Fin 2) [⟨⟨2, ![R, A]⟩, x0⟩, ⟨⟨2, ![R, B]⟩, x1⟩, ⟨⟨2, ![R, C]⟩, x2⟩] h
      = cat3Arr hT x0 x1 x2 := by
  funext i
  obtain ⟨p, c, rfl⟩ : ∃ (p : Fin R) (c : Fin T), i = ix2 p c := ⟨i 0, i 1, eq_ix2 i⟩
  rw [cat3Arr_apply]
  unfold cat3
  have hc := c.isLt
  let xs : List ((s : Shape) × (s.Idx → EReal)) := [⟨⟨2, ![R, A]⟩, x0⟩, ⟨⟨2, ![R, B]⟩, x1⟩, ⟨⟨2, ![R, C]⟩, x2⟩]
  by_cases h0 : c.val < A
  · rw [dif_pos h0]
    refine concatenate_apply_piece (t := ⟨2, ![R, T]⟩) (1 : Fin 2) xs h (ix2 p c) 0 (by simp [xs]) ⟨2, ![R, A]⟩ x0 rfl rfl 0 rfl
      (ix2 p ⟨c.val, h0⟩) (fun b hb => ?_) ?_
    · match b with
      | ⟨0, _⟩ => rfl
      | ⟨1, _⟩ => exact absurd rfl hb
    · show 0 + c.val = c.val
      omega
  · rw [dif_neg h0]
    by_cases h1 : c.val < A + B
    · rw [dif_pos h1]
      refine concatenate_apply_piece (t := ⟨2, ![R, T]⟩) (1 : Fin 2) xs h (ix2 p c) 1 (by simp [xs]) ⟨2, ![R, B]⟩ x1 rfl rfl A rfl
        (ix2 p ⟨c.val - A, by omega⟩) (fun b hb => ?_) ?_
      · match b with
        | ⟨0, _⟩ => rfl
        | ⟨1, _⟩ => exact absurd rfl hb
      · show A + (c.val - A) = c.val
        omega
    · rw [dif_neg h1]
      refine concatenate_apply_piece (t := ⟨2, ![R, T]⟩) (1 : Fin 2) xs h (ix2 p c) 2 (by simp [xs]) ⟨2, ![R, C]⟩ x2 rfl rfl (A + B) rfl
        (ix2 p ⟨c.val - (A + B), by omega⟩) (fun b hb => ?_) ?_
      · match b with
        | ⟨0, _⟩ => rfl
        | ⟨1, _⟩ => exact absurd rfl hb
      · show A + B + (c.val - (A + B)) = c.val
        omega

/-! ## The product with a tall weight, band by band -/

/-- The product of three arrays joined along their columns with one tall weight is the sum, left to right, of the
    three products with the weight's bands. -/
theorem prod_bands {R A B C T N : ℕ} (hT : T = A + B + C) (x0 : (⟨2, ![R, A]⟩ : Shape).Idx → EReal)
    (x1 : (⟨2, ![R, B]⟩ : Shape).Idx → EReal) (x2 : (⟨2, ![R, C]⟩ : Shape).Idx → EReal)
    (w : (⟨2, ![T, N]⟩ : Shape).Idx → EReal) :
    prodArr (cat3Arr hT x0 x1 x2) w
      = addArr (addArr (prodArr x0 (band 0 (by omega) w)) (prodArr x1 (band A (by omega) w)))
          (prodArr x2 (band (A + B) (by omega) w)) := by
  subst hT
  funext i
  obtain ⟨p, c, rfl⟩ : ∃ (p : Fin R) (c : Fin N), i = ix2 p c := ⟨i 0, i 1, eq_ix2 i⟩
  have e0 : ∀ k : Fin A, cat3Arr rfl x0 x1 x2 (ix2 p (Fin.castAdd C (Fin.castAdd B k))) = x0 (ix2 p k) := fun k =>
    cat3_left rfl (fun a => x0 (ix2 p a)) (fun b => x1 (ix2 p b)) (fun e => x2 (ix2 p e)) k _
  have e1 : ∀ k : Fin B, cat3Arr rfl x0 x1 x2 (ix2 p (Fin.castAdd C (Fin.natAdd A k))) = x1 (ix2 p k) := fun k =>
    cat3_mid rfl (fun a => x0 (ix2 p a)) (fun b => x1 (ix2 p b)) (fun e => x2 (ix2 p e)) k _
  have e2 : ∀ k : Fin C, cat3Arr rfl x0 x1 x2 (ix2 p (Fin.natAdd (A + B) k)) = x2 (ix2 p k) := fun k =>
    cat3_right rfl (fun a => x0 (ix2 p a)) (fun b => x1 (ix2 p b)) (fun e => x2 (ix2 p e)) k _
  have f0 : ∀ k : Fin A, w (ix2 (Fin.castAdd C (Fin.castAdd B k)) c) = band 0 (by omega) w (ix2 k c) := fun k =>
    congrArg (fun q => w (ix2 q c)) (Fin.ext (Nat.zero_add k.val).symm)
  have f1 : ∀ k : Fin B, w (ix2 (Fin.castAdd C (Fin.natAdd A k)) c) = band A (by omega) w (ix2 k c) := fun k => rfl
  have f2 : ∀ k : Fin C, w (ix2 (Fin.natAdd (A + B) k) c) = band (A + B) (by omega) w (ix2 k c) := fun k => rfl
  show (∑ k : Fin (A + B + C), cat3Arr rfl x0 x1 x2 (ix2 p k) * w (ix2 k c))
      = ((∑ k : Fin A, x0 (ix2 p k) * band 0 (by omega) w (ix2 k c))
          + (∑ k : Fin B, x1 (ix2 p k) * band A (by omega) w (ix2 k c)))
        + ∑ k : Fin C, x2 (ix2 p k) * band (A + B) (by omega) w (ix2 k c)
  rw [Fin.sum_univ_add, Fin.sum_univ_add]
  simp only [e0, e1, e2, f0, f1, f2]

end Cert.Gcn

end
-- ==== Proof.EdgeHost.lean ====
/-
  THE HOST SPELLING OF THE EDGE READ-OUT IS THE WHOLE-ARRAY FUNCTION `edgeOut`, at the ideal values.

  The reference ends with ten operations on `R` edges: the source rows `zs`, the destination rows `zd` (`[R, K]` each)
  and the edge attributes `ea` (`[R, E]`) are joined along their columns into `[R, K + K + E]`; that is multiplied with
  the tall weight `w1` (`[K + K + E, N]`); the bias `b1` is broadcast to one row and then over the rows and added; the
  rectifier takes the larger of each entry and the zero constant broadcast from a scalar; the result is multiplied with
  the one-column weight `w2`; the one-entry bias `b2` is broadcast twice and added; the column `[R, 1]` is recast as a
  vector `[R]`.  Entry `r` of that vector is
      (∑ j, max (((∑ k, zs (r,k) · w1 (k,j)) + (∑ k, zd (r,k) · w1 (K+k,j))) + (∑ k, ea (r,k) · w1 (K+K+k,j)) + b1 j) 0 · w2 (j,0)) + b2 0,
  which is `edgeOut` with the three bands of `w1` at rows `0`, `K`, `K + K`, read at `(r, 0)`.  The one step that is
  not a renaming is the split of the product with the joined array into the three products with the bands
  (`prod_bands`: a finite sum over `K + K + E` terms cut in three; the extended reals are a commutative monoid under
  addition).  Proved first for every extent (`edge_host_gen`, over the plain dimension record), then read at the
  program's literal shapes, whose two dimension records are the plain ones by unfolding.
-/
import proofs.«120905_j51728586113229_2_alg».proof.Proof.Gen.ReferenceIdeal
import proofs.«120905_j51728586113229_2_alg».proof.Proof.LibLayoutBits

noncomputable section

open scoped BigOperators

namespace Cert.ReferenceIdeal.EdgeHost

open Cert.ReferenceIdeal Cert.ReferenceIdeal.Gen Idealize.ShloMosaic Idealize.ShloMosaic.ValueIdx Cert.Gcn
open Cert.KernelIdeal.RegionValue Cert.ProdRows Cert.PairLayer Cert.DenseRow Cert.RowBias

/-- The host's spelling for any extents: three arrays joined along their columns times the tall first weight, the bias
    broadcast to one row and then over the rows, the rectifier against the zero constant broadcast from a scalar, the
    product with the one-column weight, the one-entry bias broadcast twice, and the column recast as a vector. -/
theorem edge_host_gen {R K E T N : ℕ} (hT : T = K + K + E)
    (zs zd : FVec Ideal ⟨2, ![R, K]⟩ .f32) (ea : FVec Ideal ⟨2, ![R, E]⟩ .f32) (w1 : FVec Ideal ⟨2, ![T, N]⟩ .f32)
    (b1 : FVec Ideal ⟨1, ![N]⟩ .f32) (w2 : FVec Ideal ⟨2, ![N, 1]⟩ .f32) (b2 : FVec Ideal ⟨1, ![1]⟩ .f32)
    (hcat : Shape.Concatenates [(⟨2, ![R, K]⟩ : Shape), ⟨2, ![R, K]⟩, ⟨2, ![R, E]⟩] ⟨2, ![R, T]⟩ (1 : Fin 2))
    (h1 : (⟨1, ![N]⟩ : Shape).BroadcastsInDim ⟨2, ![1, N]⟩ ![1])
    (h2 : (⟨2, ![1, N]⟩ : Shape).BroadcastsInDim ⟨2, ![R, N]⟩ ![0, 1])
    (h0 : (⟨0, ![]⟩ : Shape).BroadcastsInDim ⟨2, ![R, N]⟩ ![])
    (h3 : (⟨1, ![1]⟩ : Shape).BroadcastsInDim ⟨2, ![1, 1]⟩ ![1])
    (h4 : (⟨2, ![1, 1]⟩ : Shape).BroadcastsInDim ⟨2, ![R, 1]⟩ ![0, 1])
    (hsc : (⟨2, ![R, 1]⟩ : Shape).ShapeCasts ⟨1, ![R]⟩) :
    shapeCast ⟨1, ![R]⟩ (addf (Host.dotGeneral (DotDims.plain R N 1) none
        (maximumf (addf (Host.dotGeneral (DotDims.plain R T N) none
              (concatenate ⟨2, ![R, T]⟩ (1 : Fin 2) [⟨⟨2, ![R, K]⟩, zs⟩, ⟨⟨2, ![R, K]⟩, zd⟩, ⟨⟨2, ![R, E]⟩, ea⟩] hcat) w1)
            (broadcastInDim ⟨2, ![R, N]⟩ ![0, 1] h2 (broadcastInDim ⟨2, ![1, N]⟩ ![1] h1 b1)))
          (broadcastInDim ⟨2, ![R, N]⟩ ![] h0 (constant (F := Ideal) ⟨0, ![]⟩ .f32 0x00000000#32))) w2)
      (broadcastInDim ⟨2, ![R, 1]⟩ ![0, 1] h4 (broadcastInDim ⟨2, ![1, 1]⟩ ![1] h3 b2))) hsc
    = fun i => edgeOut zs zd ea (band 0 (by omega) w1) (band K (by omega) w1) (band (K + K) (by omega) w1) b1 w2 b2
        (ix2 (i 0) (0 : Fin 1)) := by
  rw [cast_col, hbias, hbias, hact, hprod, hprod, concat3 hT, prod_bands hT, biasRows_col]
  rfl

/-- The reference's last ten operations, over its literal shapes, with the operands as variables. -/
theorem edge_host (zs zd : FVec Ideal S800000x128 .f32) (ea : FVec Ideal S800000x16 .f32) (w1 : FVec Ideal S272x128 .f32)
    (b1 : FVec Ideal S128 .f32) (w2 : FVec Ideal S128x1 .f32) (b2 : FVec Ideal S1 .f32) :
    shapeCast S800000 (addf (Host.dotGeneral dot_S800000x128_S128x1_S800000x1_1_0_0_1_n_n none
        (maximumf (addf (Host.dotGeneral dot_S800000x272_S272x128_S800000x128_1_0_0_1_n_n none
              (concatenate S800000x272 1 [⟨S800000x128, zs⟩, ⟨S800000x128, zd⟩, ⟨S800000x16, ea⟩]
                concatenates_S800000x128_S800000x128_S800000x16_S800000x272_d1) w1)
            (broadcastInDim S800000x128 ![0, 1] bcast_S1x128_S800000x128_0_1 (broadcastInDim S1x128 ![1] bcast_S128_S1x128_1 b1)))
          (broadcastInDim S800000x128 ![] bcast_S_S800000x128 (constant (F := Ideal) S_ .f32 0x00000000#32))) w2)
      (broadcastInDim S800000x1 ![0, 1] bcast_S1x1_S800000x1_0_1 (broadcastInDim S1x1 ![1] bcast_S1_S1x1_1 b2)))
        shapeCasts_S800000x1_S800000
    = fun i => edgeOut zs zd ea (band 0 (by norm_num) w1) (band 128 (by norm_num) w1) (band 256 (by norm_num) w1) b1 w2 b2
        (ix2 (i 0) (0 : Fin 1)) :=
  edge_host_gen (R := 800000) (K := 128) (E := 16) (T := 272) (N := 128) rfl zs zd ea w1 b1 w2 b2
    concatenates_S800000x128_S800000x128_S800000x16_S800000x272_d1 bcast_S128_S1x128_1 bcast_S1x128_S800000x128_0_1
    bcast_S_S800000x128 bcast_S1_S1x1_1 bcast_S1x1_S800000x1_0_1 shapeCasts_S800000x1_S800000

end Cert.ReferenceIdeal.EdgeHost

end
-- ==== Proof.EdgeBridge.lean ====
/-
  THE KERNEL'S EDGE READ-OUT AND THE REFERENCE'S ARE ONE VECTOR, at the ideal values.

  Both programs end with the edge read-out `edgeOut` of the same operands, reached by two roads.
  • The kernel's third region leaves `edgeOut` of: the rows of the node array `z` at the two ends of every edge (gathered
    from `z` narrowed to the shorter float format, which changes nothing at the ideal values), the edge attributes
    (narrowed likewise), the three bands of the tall weight `w1` cut out as slices of `128`, `128` and `16` whole rows
    from rows `0`, `128`, `256`, the bias `b1`, the one-column weight `w2` and the one-entry bias `b2`; the last host
    operation reads its one column as a vector.
  • The reference joins the two gathered arrays and the attributes along their columns, multiplies once with the tall
    weight, adds the bias, rectifies, multiplies with the one-column weight, adds the one-entry bias and reads the
    column as a vector.
  A slice of whole rows is a band (`slice_band`), a column read as a vector is entry `(r, 0)` at `r` (`cast_col`), the
  two programs' gathers are one function, and the reference's spelling is `edgeOut` of the bands (`edge_host`): so both
  are the vector whose entry `r` is `edgeOut … (r, 0)`.
-/
import proofs.«120905_j51728586113229_2_alg».proof.Proof.EdgeHost
import proofs.«120905_j51728586113229_2_alg».proof.Proof.Cross

noncomputable section

namespace Cert.EdgeBridge

open Idealize.ShloMosaic Idealize.ShloMosaic.ValueIdx Cert.Gcn
open Cert.KernelIdeal.RegionValue (realArr)

/-- The kernel's read-out of its own operands, its column read as a vector, is the reference's read-out. -/
theorem edge_meet (z : (⟨Cert.KernelIdeal.S50000x128, .f32⟩ : BufTy).Contents (Elt Ideal))
    (s d : (⟨Cert.KernelIdeal.S800000, .i32⟩ : BufTy).Contents (Elt Ideal))
    (ea : (⟨Cert.KernelIdeal.S800000x16, .f32⟩ : BufTy).Contents (Elt Ideal))
    (w1 : (⟨Cert.KernelIdeal.S272x128, .f32⟩ : BufTy).Contents (Elt Ideal))
    (b1 : (⟨Cert.KernelIdeal.S128, .f32⟩ : BufTy).Contents (Elt Ideal))
    (w2 : (⟨Cert.KernelIdeal.S128x1, .f32⟩ : BufTy).Contents (Elt Ideal))
    (b2 : (⟨Cert.KernelIdeal.S1, .f32⟩ : BufTy).Contents (Elt Ideal)) :
    shapeCast _ (Cert.Gcn.edgeOut
        (realArr Cert.KernelIdeal.S800000x128 (Cert.KernelIdeal.HostFn.endRows (F := Ideal) z s))
        (realArr Cert.KernelIdeal.S800000x128 (Cert.KernelIdeal.HostFn.endRows (F := Ideal) z d))
        (realArr Cert.KernelIdeal.S800000x16 (truncf (F := Ideal) .bf16 ea Cert.KernelIdeal.Gen.bitsLt_bf16_f32))
        (realArr Cert.KernelIdeal.S128x128
          (extractStridedSlice Cert.KernelIdeal.S128x128 ![0, 0] w1 Cert.KernelIdeal.Gen.slices_S272x128_S128x128_0_0))
        (realArr Cert.KernelIdeal.S128x128
          (extractStridedSlice Cert.KernelIdeal.S128x128 ![128, 0] w1 Cert.KernelIdeal.Gen.slices_S272x128_S128x128_128_0))
        (realArr Cert.KernelIdeal.S16x128
          (extractStridedSlice Cert.KernelIdeal.S16x128 ![256, 0] w1 Cert.KernelIdeal.Gen.slices_S272x128_S16x128_256_0))
        (realArr Cert.KernelIdeal.S128 b1) (realArr Cert.KernelIdeal.S128x1 w2) (realArr Cert.KernelIdeal.S1 b2))
      Cert.KernelIdeal.Gen.shapeCasts_S800000x1_S800000
    = Cert.ReferenceIdeal.HostFn.head (F := Ideal) (Cert.ReferenceIdeal.HostFn.gathRows (F := Ideal) z s)
        (Cert.ReferenceIdeal.HostFn.gathRows (F := Ideal) z d) ea w1 b1 w2 b2 := by
  rw [cast_col, slice_band (T := 272) (K := 128) (N := 128) 0 (by norm_num) w1,
    slice_band (T := 272) (K := 128) (N := 128) 128 (by norm_num) w1,
    slice_band (T := 272) (K := 16) (N := 128) 256 (by norm_num) w1, Cert.Cross.endRows_eq, Cert.Cross.endRows_eq]
  exact (Cert.ReferenceIdeal.EdgeHost.edge_host (Cert.ReferenceIdeal.HostFn.gathRows (F := Ideal) z s)
    (Cert.ReferenceIdeal.HostFn.gathRows (F := Ideal) z d) ea w1 b1 w2 b2).symm

end Cert.EdgeBridge

end
-- ==== Proof.PreReal.lean ====
/-
  THE PRECONDITION, DECODED.  The precondition says of each float argument array x that  all (|x| < +∞)  holds, the
  conjunction of these over the twelve float arguments being true.  Each "all" is a reduction by "and", from the
  constant true, over every axis of the array of comparisons  |x i| < +∞ ; it is true only when every comparison
  is.  On the extended reals  |x| = max x (-x)  is +∞ at both infinities, so  |x| < +∞  holds exactly when x is a
  real number.  Hence, under the precondition, every entry of every float argument is a real number.  (The integer
  argument, the edge list, is not constrained.)
-/
import proofs.«120905_j51728586113229_2_alg».proof.Defs
import proofs.«120905_j51728586113229_2_alg».proof.Proof.Gen.Pre_finite_inputs
import proofs.«120905_j51728586113229_2_alg».proof.Proof.LibFinite
import Idealize.ShloMosaic.Lib.ReduceAll

noncomputable section

namespace Cert.PreReal

open Idealize.ShloMosaic Cert.Finite Cert.Pre_finite_inputs

/-- The shape of a scalar has one index. -/
instance : Subsingleton S_.Idx := ⟨fun a b => funext fun d => d.elim0⟩

/-- The float word 0x7F800000 is +∞. -/
theorem word_inf : Ideal.ofBits .f32 0x7F800000#32 = (⊤ : EReal) := by
  simp [Ideal.ofBits, Ideal.ieee]

/-- An extended real whose absolute value is below +∞ is a real number. -/
theorem isReal_of_abs_lt_inf (x : EReal)
    (h : Ideal.cmp .olt (max x (-x)) (Ideal.ofBits .f32 0x7F800000#32) = 1#1) : IsReal x := by
  rw [word_inf] at h
  unfold Ideal.cmp at h
  induction x using EReal.rec with
  | bot => simp at h
  | top => simp at h
  | coe r => exact ⟨r, rfl⟩

/-- One "all (|x| < +∞)" that is true makes every entry of x a real number. -/
theorem allReal_of_all {s : Shape} {axes : List (Fin s.rank)} (x : FVec Ideal s .f32)
    (dims : Fin S_.rank → Fin s.rank) (hb : S_.BroadcastsInDim s dims) (init : IVec S_ 1)
    (h : s.ReducesTo axes S_) (hu : 0 < S_.numel)
    (e : Host.reduce IntOp.andi
          (cmpf .olt (Host.absf x) (broadcastInDim s dims hb (constant (F := Ideal) S_ .f32 0x7F800000#32))) init h hu
          ValueIdx.ix0 = 1#1) :
    AllReal x := fun i =>
  isReal_of_abs_lt_inf (x i) (Host.reduce_andi_all _ init h hu ValueIdx.ix0 e i)

variable [Cert.Pre_finite_inputs.Facts]

/-- Under the precondition every float argument is an array of real numbers. -/
theorem real_of_pre (a0 : FVec Ideal S50000x128 .f32) (a1 : IVec S2x800000 32) (a2 : FVec Ideal S800000x16 .f32)
    (a3 : FVec Ideal S128x128 .f32) (a4 : FVec Ideal S128 .f32) (a5 : FVec Ideal S128 .f32) (a6 : FVec Ideal S128 .f32)
    (a7 : FVec Ideal S128x128 .f32) (a8 : FVec Ideal S128 .f32) (a9 : FVec Ideal S272x128 .f32)
    (a10 : FVec Ideal S128 .f32) (a11 : FVec Ideal S128x1 .f32) (a12 : FVec Ideal S1 .f32)
    (h : Cert.Pre_finite_inputs.fn (F := Ideal) a0 a1 a2 a3 a4 a5 a6 a7 a8 a9 a10 a11 a12 = fun _ => 1#1) :
    AllReal a0 ∧ AllReal a2 ∧ AllReal a3 ∧ AllReal a4 ∧ AllReal a5 ∧ AllReal a6 ∧ AllReal a7 ∧ AllReal a8 ∧ AllReal a9
      ∧ AllReal a10 ∧ AllReal a11 ∧ AllReal a12 := by
  have e := congrFun h ValueIdx.ix0
  dsimp only [Cert.Pre_finite_inputs.fn, Cert.Pre_finite_inputs.fn_part1, Cert.Pre_finite_inputs.fn_part2,
    Cert.Pre_finite_inputs.fn_part3] at e
  simp only [andi, IntOp.andi_eq_one] at e
  obtain ⟨⟨⟨⟨⟨⟨⟨⟨⟨⟨⟨h0, h2⟩, h3⟩, h4⟩, h5⟩, h6⟩, h7⟩, h8⟩, h9⟩, h10⟩, h11⟩, h12⟩ := e
  exact ⟨allReal_of_all _ _ _ _ _ _ h0, allReal_of_all _ _ _ _ _ _ h2, allReal_of_all _ _ _ _ _ _ h3,
    allReal_of_all _ _ _ _ _ _ h4, allReal_of_all _ _ _ _ _ _ h5, allReal_of_all _ _ _ _ _ _ h6,
    allReal_of_all _ _ _ _ _ _ h7, allReal_of_all _ _ _ _ _ _ h8, allReal_of_all _ _ _ _ _ _ h9,
    allReal_of_all _ _ _ _ _ _ h10, allReal_of_all _ _ _ _ _ _ h11, allReal_of_all _ _ _ _ _ _ h12⟩

end Cert.PreReal

end
-- ==== Proof.lean ====
/-
  A two-layer graph convolution with an edge read-out: three pipelined dense stages among plain array operations,
  against the same network written with plain array operations only.

  At the ideal values both programs compute, for node features x, an edge list, edge attributes and the weights,
      layer₁ = agg (x · W₁),   layer₂ = agg (relu (normalise layer₁) · W₂),
      out    = relu ([layer₂ at the source | layer₂ at the destination | edge attributes] · Wm₁ + bm₁) · Wm₂ + bm₂,
  one number per edge, where agg is the degree-normalised aggregation over the graph with self loops and a bias.
  The pipelined stages compute the three dense stages block of rows by block of rows; the blocks tile the arrays and
  each output row depends on the same input row only, so each stage leaves the whole-array function.  The kernel
  folds the normalisation into one factor and one offset per column, which agrees with the normalisation written out
  because all numbers involved are real (the arguments are finite); it multiplies the three column bands of Wm₁
  separately and adds, which is the product with the joined operand because a finite sum may be split; narrowing the
  float format is the identity at the ideal values.  The aggregation and the column statistics are the same operations
  in both programs.  The frames are the programs' runs with the results dropped; the idealization rewrote nothing.
-/
import proofs.«120905_j51728586113229_2_alg».proof.Defs
import proofs.«120905_j51728586113229_2_alg».proof.Proof.Gen.Kernel
import proofs.«120905_j51728586113229_2_alg».proof.Proof.Gen.Kernel.Skeleton
import proofs.«120905_j51728586113229_2_alg».proof.Proof.Gen.Kernel.Launch
import proofs.«120905_j51728586113229_2_alg».proof.Proof.Gen.Kernel.Points
import proofs.«120905_j51728586113229_2_alg».proof.Proof.Gen.Kernel.Frame
import proofs.«120905_j51728586113229_2_alg».proof.Proof.Gen.KernelIdeal
import proofs.«120905_j51728586113229_2_alg».proof.Proof.Gen.KernelIdeal.Skeleton
import proofs.«120905_j51728586113229_2_alg».proof.Proof.Gen.KernelIdeal.Launch
import proofs.«120905_j51728586113229_2_alg».proof.Proof.Gen.KernelIdeal.Points
import proofs.«120905_j51728586113229_2_alg».proof.Proof.Gen.KernelIdeal.Frame
import proofs.«120905_j51728586113229_2_alg».proof.Proof.Gen.ReferenceIdeal
import proofs.«120905_j51728586113229_2_alg».proof.Proof.Gen.Pre_finite_inputs
import proofs.«120905_j51728586113229_2_alg».proof.Proof.KValue
import proofs.«120905_j51728586113229_2_alg».proof.Proof.RValue
import proofs.«120905_j51728586113229_2_alg».proof.Proof.Bridge
import proofs.«120905_j51728586113229_2_alg».proof.Proof.EdgeBridge
import proofs.«120905_j51728586113229_2_alg».proof.Proof.PreReal
import Idealize.ShloMosaic.Adequacy
import Idealize.ShloMosaic.Init

noncomputable section

namespace Cert.Proof

open Idealize.ShloMosaic Idealize.ShloMosaic.TcCoe Idealize.SL.Sem Cert.Finite

theorem frame_k : Cert.frame_Kernel := fun m ρ _ => Cert.Kernel.Gen.frame m ρ

theorem frame_ki : Cert.frame_KernelIdeal := fun m ρ _ => Cert.KernelIdeal.Gen.frame m ρ

/-- The reference's frame: its run with the result dropped; no operation writes an argument. -/
theorem frame_ri : Cert.frame_ReferenceIdeal := fun m ρ _ =>
  (θ_run Cert.ReferenceIdeal.defs _ _).mono
    (fun _ h c => ⟨(h c Cert.ReferenceIdeal.main_arg0).trans (Cert.ReferenceIdeal.RValue.kept_arg0 _),
      (h c Cert.ReferenceIdeal.main_arg1).trans (Cert.ReferenceIdeal.RValue.kept_arg1 _),
      (h c Cert.ReferenceIdeal.main_arg2).trans (Cert.ReferenceIdeal.RValue.kept_arg2 _),
      (h c Cert.ReferenceIdeal.main_arg3).trans (Cert.ReferenceIdeal.RValue.kept_arg3 _),
      (h c Cert.ReferenceIdeal.main_arg4).trans (Cert.ReferenceIdeal.RValue.kept_arg4 _),
      (h c Cert.ReferenceIdeal.main_arg5).trans (Cert.ReferenceIdeal.RValue.kept_arg5 _),
      (h c Cert.ReferenceIdeal.main_arg6).trans (Cert.ReferenceIdeal.RValue.kept_arg6 _),
      (h c Cert.ReferenceIdeal.main_arg7).trans (Cert.ReferenceIdeal.RValue.kept_arg7 _),
      (h c Cert.ReferenceIdeal.main_arg8).trans (Cert.ReferenceIdeal.RValue.kept_arg8 _),
      (h c Cert.ReferenceIdeal.main_arg9).trans (Cert.ReferenceIdeal.RValue.kept_arg9 _),
      (h c Cert.ReferenceIdeal.main_arg10).trans (Cert.ReferenceIdeal.RValue.kept_arg10 _),
      (h c Cert.ReferenceIdeal.main_arg11).trans (Cert.ReferenceIdeal.RValue.kept_arg11 _),
      (h c Cert.ReferenceIdeal.main_arg12).trans (Cert.ReferenceIdeal.RValue.kept_arg12 _)⟩)
    (Cert.ReferenceIdeal.HandRun.run_fold (F := Ideal) m ρ)

/-- The idealization rewrote no operation. -/
theorem preserves : Cert.preserves_Kernel_KernelIdeal := trivial

/-- From memories agreeing on finite arguments the reference's result is the kernel's. -/
theorem results_meet (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hpre : Cert.Pre_KernelIdeal m)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    StableHlo.after Cert.ReferenceIdeal.HandRun.ops (StableHlo.launchContents m' c) (Proc.devRef .tc Cert.ReferenceIdeal.main_v144)
      = shapeCast _ (Cert.KernelIdeal.KValue.out2 m c) Cert.KernelIdeal.Gen.shapeCasts_S800000x1_S800000 := by
  obtain ⟨r0, r2, r3, r4, r5, r6, r7, r8, r9, r10, r11, r12⟩ := Cert.PreReal.real_of_pre _ _ _ _ _ _ _ _ _ _ _ _ _ (hpre c)
  obtain ⟨e0, e1, e2, e3, e4, e5, e6, e7, e8, e9, e10, e11, e12⟩ := hagree
  refine (Cert.ReferenceIdeal.RValue.result (StableHlo.launchContents m' c)).trans ?_
  unfold Cert.ReferenceIdeal.RValue.z2 Cert.ReferenceIdeal.RValue.h2 Cert.ReferenceIdeal.RValue.z1
  unfold Cert.KernelIdeal.KValue.out2 Cert.KernelIdeal.KValue.z2 Cert.KernelIdeal.KValue.h2 Cert.KernelIdeal.KValue.z1 Cert.KernelIdeal.KValue.h1
  rw [show StableHlo.launchContents m' c (Proc.devRef .tc Cert.ReferenceIdeal.main_arg0) = m ((c.tc : Thread Cert.KernelIdeal.nD Cert.KernelIdeal.τ).loc Cert.KernelIdeal.main_arg0) from e0,
    show StableHlo.launchContents m' c (Proc.devRef .tc Cert.ReferenceIdeal.main_arg1) = m ((c.tc : Thread Cert.KernelIdeal.nD Cert.KernelIdeal.τ).loc Cert.KernelIdeal.main_arg1) from e1,
    show StableHlo.launchContents m' c (Proc.devRef .tc Cert.ReferenceIdeal.main_arg2) = m ((c.tc : Thread Cert.KernelIdeal.nD Cert.KernelIdeal.τ).loc Cert.KernelIdeal.main_arg2) from e2,
    show StableHlo.launchContents m' c (Proc.devRef .tc Cert.ReferenceIdeal.main_arg3) = m ((c.tc : Thread Cert.KernelIdeal.nD Cert.KernelIdeal.τ).loc Cert.KernelIdeal.main_arg3) from e3,
    show StableHlo.launchContents m' c (Proc.devRef .tc Cert.ReferenceIdeal.main_arg4) = m ((c.tc : Thread Cert.KernelIdeal.nD Cert.KernelIdeal.τ).loc Cert.KernelIdeal.main_arg4) from e4,
    show StableHlo.launchContents m' c (Proc.devRef .tc Cert.ReferenceIdeal.main_arg5) = m ((c.tc : Thread Cert.KernelIdeal.nD Cert.KernelIdeal.τ).loc Cert.KernelIdeal.main_arg5) from e5,
    show StableHlo.launchContents m' c (Proc.devRef .tc Cert.ReferenceIdeal.main_arg6) = m ((c.tc : Thread Cert.KernelIdeal.nD Cert.KernelIdeal.τ).loc Cert.KernelIdeal.main_arg6) from e6,
    show StableHlo.launchContents m' c (Proc.devRef .tc Cert.ReferenceIdeal.main_arg7) = m ((c.tc : Thread Cert.KernelIdeal.nD Cert.KernelIdeal.τ).loc Cert.KernelIdeal.main_arg7) from e7,
    show StableHlo.launchContents m' c (Proc.devRef .tc Cert.ReferenceIdeal.main_arg8) = m ((c.tc : Thread Cert.KernelIdeal.nD Cert.KernelIdeal.τ).loc Cert.KernelIdeal.main_arg8) from e8,
    show StableHlo.launchContents m' c (Proc.devRef .tc Cert.ReferenceIdeal.main_arg9) = m ((c.tc : Thread Cert.KernelIdeal.nD Cert.KernelIdeal.τ).loc Cert.KernelIdeal.main_arg9) from e9,
    show StableHlo.launchContents m' c (Proc.devRef .tc Cert.ReferenceIdeal.main_arg10) = m ((c.tc : Thread Cert.KernelIdeal.nD Cert.KernelIdeal.τ).loc Cert.KernelIdeal.main_arg10) from e10,
    show StableHlo.launchContents m' c (Proc.devRef .tc Cert.ReferenceIdeal.main_arg11) = m ((c.tc : Thread Cert.KernelIdeal.nD Cert.KernelIdeal.τ).loc Cert.KernelIdeal.main_arg11) from e11,
    show StableHlo.launchContents m' c (Proc.devRef .tc Cert.ReferenceIdeal.main_arg12) = m ((c.tc : Thread Cert.KernelIdeal.nD Cert.KernelIdeal.τ).loc Cert.KernelIdeal.main_arg12) from e12]
  rw [Cert.EdgeBridge.edge_meet, Cert.Cross.src_eq, Cert.Cross.dst_eq]
  rw [Cert.Bridge.layer2_eq _ _ _ _ _ _ _ _ r0 r3 r4 r5 r6, Cert.Cross.src_eq, Cert.Cross.dst_eq]

/-- Both idealized programs run, and from memories agreeing on the arguments end with the same result. -/
theorem algebraic : Cert.algebraic_KernelIdeal_ReferenceIdeal := by
  intro m ρ m' ρ' hpre hagree
  refine ⟨fun c => shapeCast _ (Cert.KernelIdeal.KValue.out2 m c) Cert.KernelIdeal.Gen.shapeCasts_S800000x1_S800000, ?_, ?_⟩
  · exact (θ_run Cert.KernelIdeal.defs _ _).mono
      (fun _ h c => ⟨(h c).1.trans (Cert.KernelIdeal.KValue.result m ρ c), (h c).2⟩)
      (Cert.KernelIdeal.ValueRun.run_value (F := Ideal) m ρ)
  · exact (θ_run Cert.ReferenceIdeal.defs _ _).mono
      (fun _ h c => ⟨(h c Cert.ReferenceIdeal.main_v144).trans (results_meet m m' c hpre (hagree c)),
        (h c Cert.ReferenceIdeal.main_arg0).trans (Cert.ReferenceIdeal.RValue.kept_arg0 _),
        (h c Cert.ReferenceIdeal.main_arg1).trans (Cert.ReferenceIdeal.RValue.kept_arg1 _),
        (h c Cert.ReferenceIdeal.main_arg2).trans (Cert.ReferenceIdeal.RValue.kept_arg2 _),
        (h c Cert.ReferenceIdeal.main_arg3).trans (Cert.ReferenceIdeal.RValue.kept_arg3 _),
        (h c Cert.ReferenceIdeal.main_arg4).trans (Cert.ReferenceIdeal.RValue.kept_arg4 _),
        (h c Cert.ReferenceIdeal.main_arg5).trans (Cert.ReferenceIdeal.RValue.kept_arg5 _),
        (h c Cert.ReferenceIdeal.main_arg6).trans (Cert.ReferenceIdeal.RValue.kept_arg6 _),
        (h c Cert.ReferenceIdeal.main_arg7).trans (Cert.ReferenceIdeal.RValue.kept_arg7 _),
        (h c Cert.ReferenceIdeal.main_arg8).trans (Cert.ReferenceIdeal.RValue.kept_arg8 _),
        (h c Cert.ReferenceIdeal.main_arg9).trans (Cert.ReferenceIdeal.RValue.kept_arg9 _),
        (h c Cert.ReferenceIdeal.main_arg10).trans (Cert.ReferenceIdeal.RValue.kept_arg10 _),
        (h c Cert.ReferenceIdeal.main_arg11).trans (Cert.ReferenceIdeal.RValue.kept_arg11 _),
        (h c Cert.ReferenceIdeal.main_arg12).trans (Cert.ReferenceIdeal.RValue.kept_arg12 _)⟩)
      (Cert.ReferenceIdeal.HandRun.run_fold (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
